-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x2 : Shape := ⟨3, ![1, 4096, 2]⟩
abbrev S1x4096x4096 : Shape := ⟨3, ![1, 4096, 4096]⟩
abbrev S2x4096 : Shape := ⟨2, ![2, 4096]⟩
abbrev S_ : Shape := ⟨0, ![]⟩

class Facts : Prop where
  bcast_S_S1x4096x2 : S_.BroadcastsInDim S1x4096x2 (![] : Fin 0 → Fin S1x4096x2.rank)
  reducesTo_S1x4096x2_S_d0_1_2 : S1x4096x2.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_

variable [Facts]

def fn {F : FTy → Type} [FloatOps F] (main_arg0 : FVec F S1x4096x2 .f32) (main_arg1 : FVec F S1x4096x4096 .f32) (main_arg2 : IVec S2x4096 32) : IVec S_ 1 :=
  let main_v0 : FVec F S1x4096x2 .f32 := Host.absf main_arg0
  let main_cst : FVec F S_ .f32 := constant S_ .f32 0x7F800000#32
  let main_v1 : FVec F S1x4096x2 .f32 := broadcastInDim S1x4096x2 ![] bcast_S_S1x4096x2 main_cst
  let main_v2 : IVec S1x4096x2 1 := cmpf .olt main_v0 main_v1
  let main_c : IVec S_ 1 := constantI S_ 1 1#1
  let main_v3 : IVec S_ 1 := (fun x v => Host.reduce IntOp.andi x v reducesTo_S1x4096x2_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  main_v8
-- ==== Kernel.lean ====
abbrev S1x4096x2 : Shape := ⟨3, ![1, 4096, 2]⟩
abbrev S1x4096x4096 : Shape := ⟨3, ![1, 4096, 4096]⟩
abbrev S2x4096 : Shape := ⟨2, ![2, 4096]⟩
abbrev S4096x2 : Shape := ⟨2, ![4096, 2]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 80
  | .vmem => 27
  | .smem => 0
  | _ => 0

abbrev bufTy : (tb : Table) → Fin (tcTables nBuf tb) → BufTy
  | .hbm, ⟨0, _⟩ => ⟨S1x4096x2, .f32⟩
  | .hbm, ⟨1, _⟩ => ⟨S1x4096x4096, .f32⟩
  | .hbm, ⟨2, _⟩ => ⟨S2x4096, .i32⟩
  | .hbm, ⟨3, _⟩ => ⟨S4096x2, .f32⟩
  | .hbm, ⟨4, _⟩ => ⟨S1x4096, .i32⟩
  | .hbm, ⟨5, _⟩ => ⟨S4096, .i32⟩
  | .hbm, ⟨6, _⟩ => ⟨S1x4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1, .i32⟩
  | .hbm, ⟨34, _⟩ => ⟨S4096x2, .i32⟩
  | .hbm, ⟨35, _⟩ => ⟨S4096, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x1, .i32⟩
  | .hbm, ⟨62, _⟩ => ⟨S4096x2, .i32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096x1, .i32⟩
  | .hbm, ⟨67, _⟩ => ⟨S4096x1, .i32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S1x4096, .i32⟩
  | .hbm, ⟨73, _⟩ => ⟨S1x4096, .i32⟩
  | .hbm, ⟨74, _⟩ => ⟨S1x4096, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S1x1, .f32⟩
  | .hbm, ⟨79, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S1x512, .i32⟩
  | .local _ .vmem, ⟨13, _⟩ => ⟨S1x512, .i32⟩
  | .local _ .vmem, ⟨14, _⟩ => ⟨S1x512, .i32⟩
  | .local _ .vmem, ⟨15, _⟩ => ⟨S1x512, .i32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | _, _ => ⟨S1x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v213 : BitVec 1 := Scalar.cmpi .eq arg0 c7_i32
  let arg1 : BitVec 32 := BitVec.ofNat 32 (i 1).val
  let c7_i32_57 : BitVec 32 := 7#32
  let v214 : BitVec 1 := Scalar.cmpi .eq arg1 c7_i32_57
  let v215 : BitVec 1 := Scalar.andi v213 v214
  let v216 : BitVec 32 := Scalar.extui v215
  let c0_i32_58 : BitVec 32 := 0#32
  let v217 : BitVec 1 := Scalar.cmpi .ne v216 c0_i32_58
  v217

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

class Facts₀ : Prop where
  shapeCasts_S1x4096x2_S4096x2 : S1x4096x2.ShapeCasts S4096x2
  slices_S2x4096_S1x4096_0_0 : S2x4096.Slices ![0, 0] S1x4096
  shapeCasts_S1x4096_S4096 : S1x4096.ShapeCasts S4096
  slices_S2x4096_S1x4096_1_0 : S2x4096.Slices ![1, 0] S1x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  natLt_1_32 : 1 < 32
  shapeCasts_S1x1_S_ : S1x1.ShapeCasts S_
  gather_S4096x2_S4096x2_S4096_n_01_n_n_01_1_11_wf : GatherDims.WF S4096x2 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .i32 = 32 ∨ (Rect.block (s := S1x4096) S1x512.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .i32 = 32 ∨ (Rect.block (s := S1x4096) S1x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .f32 = 32 ∨ (Rect.block (s := S1x4096) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x4096.size a
  hwx0_10 : ∀ i : grid0.Coords, EltTy.bits .f32 = 32 ∨ (Rect.block (s := S1x4096) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x4096.size a
  hwx0_11 : ∀ i : grid0.Coords, EltTy.bits .f32 = 32 ∨ (Rect.block (s := S1x4096) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)

variable [Facts₀]

def gather_S4096x2_S4096x2_S4096_n_01_n_n_01_1_11 : GatherDims S4096x2 S4096x2 S4096 where
  offsetDims := []
  collapsedSliceDims := [0, 1]
  operandBatchingDims := []
  startIndicesBatchingDims := []
  startIndexMap := [0, 1]
  indexVectorDim := 1
  sliceSizes := ![1, 1]
  wf := gather_S4096x2_S4096x2_S4096_n_01_n_n_01_1_11_wf

abbrev win0_0 : Pipeline.Window sig grid0 :=
  Pipeline.Window.ofSpec (Memref.whole main_v51) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v58) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v62) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v63) S1x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S1x4096x2 : Shape := ⟨3, ![1, 4096, 2]⟩
abbrev S1x4096x4096 : Shape := ⟨3, ![1, 4096, 4096]⟩
abbrev S2x4096 : Shape := ⟨2, ![2, 4096]⟩
abbrev S4096x2 : Shape := ⟨2, ![4096, 2]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩

abbrev nBuf : Space → Nat
  | .hbm => 237
  | .vmem => 0
  | .smem => 0
  | _ => 0

abbrev hbmTy0_0 (i : Nat) : BufTy := match i % 128 with
  | 0 => ⟨S1x4096x2, .f32⟩
  | 1 => ⟨S1x4096x4096, .f32⟩
  | 2 => ⟨S2x4096, .i32⟩
  | 3 => ⟨S4096x2, .f32⟩
  | 4 => ⟨S1x4096, .i32⟩
  | 5 => ⟨S4096, .i32⟩
  | 6 => ⟨S1x4096, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x2, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x2, .f32⟩
  | 26 => ⟨S4096x2, .f32⟩
  | 27 => ⟨S4096x1, .i32⟩
  | 28 => ⟨S1x4096, .i32⟩
  | 29 => ⟨S4096x4096, .i32⟩
  | 30 => ⟨S4096x4096, .i32⟩
  | 31 => ⟨S4096x4096, .i1⟩
  | 32 => ⟨S4096x1, .i32⟩
  | 33 => ⟨S1x4096, .i32⟩
  | 34 => ⟨S4096x4096, .i32⟩
  | 35 => ⟨S4096x4096, .i32⟩
  | 36 => ⟨S4096x4096, .i1⟩
  | 37 => ⟨S4096x4096, .i1⟩
  | 38 => ⟨S4096x1, .i32⟩
  | 39 => ⟨S1x4096, .i32⟩
  | 40 => ⟨S4096x4096, .i32⟩
  | 41 => ⟨S4096x4096, .i32⟩
  | 42 => ⟨S4096x4096, .i1⟩
  | 43 => ⟨S4096x4096, .i1⟩
  | 44 => ⟨S4096x1, .i32⟩
  | 45 => ⟨S1x4096, .i32⟩
  | 46 => ⟨S4096x4096, .i32⟩
  | 47 => ⟨S4096x4096, .i32⟩
  | 48 => ⟨S4096x4096, .i1⟩
  | 49 => ⟨S4096x4096, .i1⟩
  | 50 => ⟨S4096, .i32⟩
  | 51 => ⟨S4096x4096, .i1⟩
  | 52 => ⟨S1x4096, .i32⟩
  | 53 => ⟨S4096x1, .i32⟩
  | 54 => ⟨S4096x4096, .i32⟩
  | 55 => ⟨S4096x4096, .i32⟩
  | 56 => ⟨S4096x4096, .i1⟩
  | 57 => ⟨S4096x4096, .i1⟩
  | 58 => ⟨S4096x2, .f32⟩
  | 59 => ⟨S_, .f32⟩
  | 60 => ⟨S4096x2, .f32⟩
  | 61 => ⟨S4096x2, .f32⟩
  | 62 => ⟨S4096x2, .f32⟩
  | 63 => ⟨S_, .f32⟩
  | 64 => ⟨S4096, .f32⟩
  | 65 => ⟨S4096, .f32⟩
  | 66 => ⟨S_, .f32⟩
  | 67 => ⟨S4096, .f32⟩
  | 68 => ⟨S4096, .f32⟩
  | 69 => ⟨S4096x1, .f32⟩
  | 70 => ⟨S4096, .f32⟩
  | 71 => ⟨S4096x1, .f32⟩
  | 72 => ⟨S4096x1, .f32⟩
  | 73 => ⟨S4096, .f32⟩
  | 74 => ⟨S1x4096, .f32⟩
  | 75 => ⟨S4096x4096, .f32⟩
  | 76 => ⟨S4096x4096, .f32⟩
  | 77 => ⟨S4096x4096, .f32⟩
  | 78 => ⟨S4096x1, .f32⟩
  | 79 => ⟨S4096, .f32⟩
  | 80 => ⟨S4096x1, .f32⟩
  | 81 => ⟨S4096x1, .f32⟩
  | 82 => ⟨S4096, .f32⟩
  | 83 => ⟨S1x4096, .f32⟩
  | 84 => ⟨S4096x4096, .f32⟩
  | 85 => ⟨S4096x4096, .f32⟩
  | 86 => ⟨S4096x4096, .f32⟩
  | 87 => ⟨S4096x4096, .f32⟩
  | 88 => ⟨S4096x4096, .f32⟩
  | 89 => ⟨S4096x4096, .f32⟩
  | 90 => ⟨S4096x4096, .f32⟩
  | 91 => ⟨S4096x1, .f32⟩
  | 92 => ⟨S1x4096, .f32⟩
  | 93 => ⟨S4096x4096, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .i1⟩
  | 100 => ⟨S4096x4096, .i1⟩
  | 101 => ⟨S4096x2, .f32⟩
  | 102 => ⟨S_, .f32⟩
  | 103 => ⟨S4096, .f32⟩
  | 104 => ⟨S_, .f32⟩
  | 105 => ⟨S4096, .f32⟩
  | 106 => ⟨S4096, .f32⟩
  | 107 => ⟨S2x4096, .f32⟩
  | 108 => ⟨S4096x4096, .f32⟩
  | 109 => ⟨S4096x2, .f32⟩
  | 110 => ⟨S_, .f32⟩
  | 111 => ⟨S4096, .f32⟩
  | 112 => ⟨S4096x1, .f32⟩
  | 113 => ⟨S2x4096, .f32⟩
  | 114 => ⟨S4096x4096, .f32⟩
  | 115 => ⟨S4096x4096, .f32⟩
  | 116 => ⟨S4096x4096, .f32⟩
  | 117 => ⟨S2x4096, .f32⟩
  | 118 => ⟨S4096x4096, .f32⟩
  | 119 => ⟨S1x4096, .f32⟩
  | 120 => ⟨S4096x4096, .f32⟩
  | 121 => ⟨S4096x4096, .f32⟩
  | 122 => ⟨S4096x1, .f32⟩
  | 123 => ⟨S1x4096, .f32⟩
  | 124 => ⟨S4096x4096, .f32⟩
  | 125 => ⟨S4096x4096, .f32⟩
  | 126 => ⟨S4096x4096, .f32⟩
  | 127 => ⟨S4096x4096, .f32⟩
  | _ => ⟨S1x4096x2, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S1x4096, .f32⟩
  | 6 => ⟨S4096x4096, .f32⟩
  | 7 => ⟨S4096x4096, .f32⟩
  | 8 => ⟨S4096x4096, .f32⟩
  | 9 => ⟨S4096x4096, .f32⟩
  | 10 => ⟨S_, .f32⟩
  | 11 => ⟨S_, .f32⟩
  | 12 => ⟨S_, .f32⟩
  | 13 => ⟨S4096x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S1x4096, .f32⟩
  | 21 => ⟨S4096x4096, .f32⟩
  | 22 => ⟨S4096x4096, .f32⟩
  | 23 => ⟨S_, .f32⟩
  | 24 => ⟨S_, .f32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S4096x1, .f32⟩
  | 34 => ⟨S4096x4096, .f32⟩
  | 35 => ⟨S4096x4096, .f32⟩
  | 36 => ⟨S_, .f32⟩
  | 37 => ⟨S_, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x1, .f32⟩
  | 45 => ⟨S4096, .f32⟩
  | 46 => ⟨S4096x1, .f32⟩
  | 47 => ⟨S4096x1, .f32⟩
  | 48 => ⟨S4096, .f32⟩
  | 49 => ⟨S1x4096, .f32⟩
  | 50 => ⟨S4096x4096, .f32⟩
  | 51 => ⟨S4096x4096, .f32⟩
  | 52 => ⟨S4096x4096, .f32⟩
  | 53 => ⟨S4096x1, .f32⟩
  | 54 => ⟨S4096, .f32⟩
  | 55 => ⟨S4096x1, .f32⟩
  | 56 => ⟨S4096x4096, .f32⟩
  | 57 => ⟨S4096x4096, .f32⟩
  | 58 => ⟨S4096x4096, .f32⟩
  | 59 => ⟨S4096x1, .f32⟩
  | 60 => ⟨S4096, .f32⟩
  | 61 => ⟨S1x4096, .f32⟩
  | 62 => ⟨S4096x4096, .f32⟩
  | 63 => ⟨S4096x4096, .f32⟩
  | 64 => ⟨S4096x4096, .f32⟩
  | 65 => ⟨S4096x1, .f32⟩
  | 66 => ⟨S4096, .f32⟩
  | 67 => ⟨S4096x1, .f32⟩
  | 68 => ⟨S4096x1, .f32⟩
  | 69 => ⟨S4096, .f32⟩
  | 70 => ⟨S1x4096, .f32⟩
  | 71 => ⟨S4096x4096, .f32⟩
  | 72 => ⟨S4096x4096, .f32⟩
  | 73 => ⟨S4096x4096, .f32⟩
  | 74 => ⟨S4096x1, .f32⟩
  | 75 => ⟨S4096, .f32⟩
  | 76 => ⟨S4096x1, .f32⟩
  | 77 => ⟨S4096x4096, .f32⟩
  | 78 => ⟨S4096x4096, .f32⟩
  | 79 => ⟨S4096x4096, .f32⟩
  | 80 => ⟨S4096x1, .f32⟩
  | 81 => ⟨S4096, .f32⟩
  | 82 => ⟨S1x4096, .f32⟩
  | 83 => ⟨S4096x4096, .f32⟩
  | 84 => ⟨S4096x4096, .f32⟩
  | 85 => ⟨S4096x4096, .f32⟩
  | 86 => ⟨S4096x4096, .f32⟩
  | 87 => ⟨S4096x4096, .f32⟩
  | 88 => ⟨S4096x4096, .f32⟩
  | 89 => ⟨S4096x4096, .f32⟩
  | 90 => ⟨S_, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S_, .f32⟩
  | 97 => ⟨S_, .f32⟩
  | 98 => ⟨S4096x4096, .f32⟩
  | 99 => ⟨S4096x4096, .f32⟩
  | 100 => ⟨S4096x4096, .i32⟩
  | 101 => ⟨S_, .i32⟩
  | 102 => ⟨S_, .i32⟩
  | 103 => ⟨S_, .i32⟩
  | 104 => ⟨S_, .i32⟩
  | 105 => ⟨S_, .f32⟩
  | 106 => ⟨S_, .f32⟩
  | 107 => ⟨S_, .f32⟩
  | 108 => ⟨S_, .f32⟩
  | _ => ⟨S1x4096x2, .f32⟩

abbrev hbmTy (i : Nat) : BufTy := match i / 128 with
  | 0 => hbmTy0_0 i
  | 1 => hbmTy0_1 i
  | _ => ⟨S1x4096x2, .f32⟩

abbrev bufTy : (tb : Table) → Fin (tcTables nBuf tb) → BufTy
  | .hbm, ⟨i, _⟩ => hbmTy i
  | _, _ => ⟨S1x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_3 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_5 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_6 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_cst_9 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst_10 : Ref sig .tc := ⟨.hbm, 138, rfl⟩
abbrev main_cst_11 : Ref sig .tc := ⟨.hbm, 139, rfl⟩
abbrev main_call0_v0 : Ref sig .tc := ⟨.hbm, 140, rfl⟩
abbrev main_call0_v1 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_12 : Ref sig .tc := ⟨.hbm, 151, rfl⟩
abbrev main_cst_13 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_call1_v3 : Ref sig .tc := ⟨.hbm, 156, rfl⟩
abbrev main_call1_v4 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_14 : Ref sig .tc := ⟨.hbm, 164, rfl⟩
abbrev main_cst_15 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_cst_16 : Ref sig .tc := ⟨.hbm, 218, rfl⟩
abbrev main_v182 : Ref sig .tc := ⟨.hbm, 219, rfl⟩
abbrev main_v183 : Ref sig .tc := ⟨.hbm, 220, rfl⟩
abbrev main_call3_cst : Ref sig .tc := ⟨.hbm, 221, rfl⟩
abbrev main_call3_v0 : Ref sig .tc := ⟨.hbm, 222, rfl⟩
abbrev main_v184 : Ref sig .tc := ⟨.hbm, 223, rfl⟩
abbrev main_cst_17 : Ref sig .tc := ⟨.hbm, 224, rfl⟩
abbrev main_call4_v0 : Ref sig .tc := ⟨.hbm, 225, rfl⟩
abbrev main_call4_v1 : Ref sig .tc := ⟨.hbm, 226, rfl⟩
abbrev main_v185 : Ref sig .tc := ⟨.hbm, 227, rfl⟩
abbrev main_v186 : Ref sig .tc := ⟨.hbm, 228, rfl⟩
abbrev main_c_18 : Ref sig .tc := ⟨.hbm, 229, rfl⟩
abbrev main_v187 : Ref sig .tc := ⟨.hbm, 230, rfl⟩
abbrev main_c_19 : Ref sig .tc := ⟨.hbm, 231, rfl⟩
abbrev main_v188 : Ref sig .tc := ⟨.hbm, 232, rfl⟩
abbrev main_cst_20 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩

abbrev nD : Nat := 1
abbrev τ : Topo := Topo.v7x

variable {F : FTy → Type} [FloatOps F]

class Facts₀ : Prop where
  shapeCasts_S1x4096x2_S4096x2 : S1x4096x2.ShapeCasts S4096x2
  slices_S2x4096_S1x4096_0_0 : S2x4096.Slices ![0, 0] S1x4096
  shapeCasts_S1x4096_S4096 : S1x4096.ShapeCasts S4096
  slices_S2x4096_S1x4096_1_0 : S2x4096.Slices ![1, 0] S1x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x2 : S_.BroadcastsInDim S4096x2 (![] : Fin 0 → Fin S4096x2.rank)
  reducesTo_S4096x2_S4096_d1 : S4096x2.ReducesTo [1] S4096
  h_S_ : 0 < S_.numel
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096x4096 : S_.BroadcastsInDim S4096x4096 (![] : Fin 0 → Fin S4096x4096.rank)
  transposes_S4096x2_S2x4096_1_0 : S4096x2.Transposes [1, 0] S2x4096
  natLt_1_32 : 1 < 32
  reducesTo_S4096x4096_S_d0_1 : S4096x4096.ReducesTo [0, 1] S_
  gather_S4096x2_S4096x1_S4096x2_1_0_n_n_0_1_12_wf : GatherDims.WF S4096x2 S4096x1 S4096x2 [1] [0] [] [0] [] 1 ![1, 2]
  dot_S4096x2_S2x4096_S4096x4096_1_0_0_1_n_n_wf : DotDims.WF S4096x2 S2x4096 S4096x4096 [1] [0] [0] [1] [] []

variable [Facts₀]

def gather_S4096x2_S4096x1_S4096x2_1_0_n_n_0_1_12 : GatherDims S4096x2 S4096x1 S4096x2 where
  offsetDims := [1]
  collapsedSliceDims := [0]
  operandBatchingDims := []
  startIndicesBatchingDims := []
  startIndexMap := [0]
  indexVectorDim := 1
  sliceSizes := ![1, 2]
  wf := gather_S4096x2_S4096x1_S4096x2_1_0_n_n_0_1_12_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf

class Facts : Prop extends Facts₀ where

variable [Facts]
-- ==== Proof.KPieces.lean ====
/-
  What one run of the kernel body leaves behind, as values.

  The body is run in three situations: at the first grid point (it first stores zero into the two accumulators), at a
  middle point, and at the last point (it also stores the quotient into the output).  In each, the sum accumulator ends
  holding its previous contents plus the tile's masked sum, the count accumulator its previous contents plus the tile's
  count — "previous" being the zero just stored at the first point — and at the last point the output holds the sum
  accumulator over the count accumulator floored at one.  The tile's mask and value arrays are named once
  (`bodyMask`, `bodyVal`) as terms of the twelve loaded blocks.
-/
import proofs.«132866_j46480136077416_1_alg».proof.Proof.Gen.KernelIdeal.Frame
import Idealize.ShloMosaic.Lib.Pipeline.Value
import Idealize.ShloMosaic.Lib.Tactic

set_option pp.maxSteps 40000
set_option pp.deepTerms false

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- the selection mask of the tile at grid coordinates a0 a1, as one term of the twelve loaded blocks -/
def bodyMask (a0 a1 : BitVec 32) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) : IVec S512x512 1 :=
  k0_pay30 (F := F) (k0_pay9 x3) (k0_pay14 x8) (k0_pay15 x9) (k0_pay16 x10) (k0_pay17 x11)
    (k0_pay18 (k0_pay6 (F := F) x0) (k0_pay7 (F := F) x1) (k0_pay12 (F := F) x6) (k0_pay13 (F := F) x7))
    (k0_pay19 a0 a1 512#32) (k0_pay22 (k0_pay10 x4) (k0_pay11 x5)) (k0_pay26 (k0_pay16 x10) (k0_pay17 x11))
    (k0_pay28 (k0_pay8 x2) (k0_pay10 x4)) (k0_pay29 (k0_pay11 x5))

/-- the threshold minus the closest-approach distance on the tile, as one term of the loaded blocks -/
def bodyVal (x2 : Vec F S512x1 .f32) (x3 : Vec F S512x1 .f32) (x4 : Vec F S512x1 .f32) (x5 : Vec F S512x1 .f32) (x8 : Vec F S1x512 .f32) (x9 : Vec F S1x512 .f32) (x10 : Vec F S1x512 .f32) (x11 : Vec F S1x512 .f32) : FVec F S512x512 .f32 :=
  k0_pay35 (F := F) (k0_pay8 x2) (k0_pay9 x3) (k0_pay10 x4) (k0_pay11 x5) (k0_pay14 x8) (k0_pay15 x9) (k0_pay16 x10) (k0_pay17 x11)
    (k0_pay21 (k0_pay10 x4) (k0_pay11 x5)) (k0_pay25 (k0_pay16 x10) (k0_pay17 x11))
    (k0_pay31 (k0_pay10 x4) (k0_pay11 x5) (k0_pay16 x10) (k0_pay17 x11))
    (k0_pay32 (k0_pay10 x4) (k0_pay11 x5) (k0_pay14 x8) (k0_pay15 x9) (k0_pay23 (k0_pay8 x2) (k0_pay9 x3) (k0_pay10 x4) (k0_pay11 x5)))
    (k0_pay33 (k0_pay8 x2) (k0_pay9 x3) (k0_pay16 x10) (k0_pay17 x11) (k0_pay27 (k0_pay14 x8) (k0_pay15 x9) (k0_pay16 x10) (k0_pay17 x11)))
    (k0_pay34 (k0_pay10 x4) (k0_pay11 x5) (k0_pay16 x10) (k0_pay17 x11) (k0_pay21 (k0_pay10 x4) (k0_pay11 x5)) (k0_pay25 (k0_pay16 x10) (k0_pay17 x11)))

/-! ## The first grid point -/

theorem sumA (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay1 (bodyMask (BitVec.ofNat 32 (i 0).val) (BitVec.ofNat 32 (i 1).val) x0 x1 x2 x3 x4 x5 x6 x7 x8 x9 x10 x11) (bodyVal x2 x3 x4 x5 x8 x9 x10 x11) (Scalar.ofBits .f32 0x00000000#32) k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

theorem cntA (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay2 (bodyMask (BitVec.ofNat 32 (i 0).val) (BitVec.ofNat 32 (i 1).val) x0 x1 x2 x3 x4 x5 x6 x7 x8 x9 x10 x11) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

/-! ## A middle grid point -/

theorem sumB (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) (xs0 : Vec F S1x1 .f32) (xs1 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay1 (bodyMask (BitVec.ofNat 32 (i 0).val) (BitVec.ofNat 32 (i 1).val) x0 x1 x2 x3 x4 x5 x6 x7 x8 x9 x10 x11) (bodyVal x2 x3 x4 x5 x8 x9 x10 x11) (Scalar.ofBits .f32 0x00000000#32) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

theorem cntB (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) (xs0 : Vec F S1x1 .f32) (xs1 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay2 (bodyMask (BitVec.ofNat 32 (i 0).val) (BitVec.ofNat 32 (i 1).val) x0 x1 x2 x3 x4 x5 x6 x7 x8 x9 x10 x11) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

/-! ## The last grid point -/

theorem sumC (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) (xs0 : Vec F S1x1 .f32) (xs1 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay1 (bodyMask (BitVec.ofNat 32 (i 0).val) (BitVec.ofNat 32 (i 1).val) x0 x1 x2 x3 x4 x5 x6 x7 x8 x9 x10 x11) (bodyVal x2 x3 x4 x5 x8 x9 x10 x11) (Scalar.ofBits .f32 0x00000000#32) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

theorem cntC (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) (xs0 : Vec F S1x1 .f32) (xs1 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay2 (bodyMask (BitVec.ofNat 32 (i 0).val) (BitVec.ofNat 32 (i 1).val) x0 x1 x2 x3 x4 x5 x6 x7 x8 x9 x10 x11) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

theorem outC (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S512x1 .i32) (x1 : Vec F S512x1 .i32) (x2 : Vec F S512x1 .f32) (x3 : Vec F S512x1 .f32) (x4 : Vec F S512x1 .f32) (x5 : Vec F S512x1 .f32) (x6 : Vec F S1x512 .i32) (x7 : Vec F S1x512 .i32) (x8 : Vec F S1x512 .f32) (x9 : Vec F S1x512 .f32) (x10 : Vec F S1x512 .f32) (x11 : Vec F S1x512 .f32) (xs0 : Vec F S1x1 .f32) (xs1 : Vec F S1x1 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay3 (k0_pay1 (bodyMask (BitVec.ofNat 32 (i 0).val) (BitVec.ofNat 32 (i 1).val) x0 x1 x2 x3 x4 x5 x6 x7 x8 x9 x10 x11) (bodyVal x2 x3 x4 x5 x8 x9 x10 x11) (Scalar.ofBits .f32 0x00000000#32) xs0) (k0_pay2 (bodyMask (BitVec.ofNat 32 (i 0).val) (BitVec.ofNat 32 (i 1).val) x0 x1 x2 x3 x4 x5 x6 x7 x8 x9 x10 x11) xs1) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero hz, View.readCov_unit_zero (S := S1x1) _ hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1) hz, View.ld_unit_zero (S := S512x1) hz, View.ld_unit_zero (S := S1x512) hz]
  rfl

end Cert.KernelIdeal.Pieces

end
-- ==== Proof.PairTerm.lean ====
/-
  The quantity both programs compute, with no program in sight.

  There are 4096 plane segments; segment `e` runs from the point `(px e, py e)` in the direction `(dx e, dy e)` and joins
  two nodes named by the words `s e` and `d e`.  For an ordered pair of segments `(I, J)` the pair is SELECTED when the two
  segments share no node, `J` comes after `I`, and the midpoints are closer than the sum of the half lengths plus a
  margin; for a selected pair the clamped closest-approach distance `dist` of the two segments enters the loss as
  `max (ε − dist) 0`.  The loss is the sum of these terms over all pairs divided by the number of selected pairs (at least 1).

  Everything is over the extended reals, where the float operations of both programs are the exact ones:
  `+ − *`, `Ideal.div`, `max`, `min`, `Ideal.sqrt`; a float literal is kept as the word it is written with.
-/
import Idealize.ShloMosaic.PureOps.Ideal
import Idealize.ShloMosaic.Lib.ValueIdx

noncomputable section

open scoped BigOperators

namespace Cert.PairTerm

open Idealize.ShloMosaic

/-! ## The literals, by their words -/

/-- `1e-12`, the floor of a squared length and of the determinant. -/
def wTiny : EReal := Ideal.ofBits .f32 0x2B8CBCCC#32
/-- one half -/
def wHalf : EReal := Ideal.ofBits .f32 0x3F000000#32
/-- the proximity margin `0.15` -/
def wMargin : EReal := Ideal.ofBits .f32 0x3E19999A#32
/-- the threshold `ε = 0.001` -/
def wEps : EReal := Ideal.ofBits .f32 0x3A83126F#32
def wZero : EReal := Ideal.ofBits .f32 0x00000000#32
def wOne : EReal := Ideal.ofBits .f32 0x3F800000#32

/-! ## One segment -/

/-- squared length of a direction -/
def sq (dx dy : EReal) : EReal := dx * dx + dy * dy
/-- squared length, floored -/
def aa (dx dy : EReal) : EReal := max (sq dx dy) wTiny
/-- half the length -/
def hl (dx dy : EReal) : EReal := wHalf * Ideal.sqrt (sq dx dy)
/-- direction · start point -/
def dp (px py dx dy : EReal) : EReal := dx * px + dy * py
/-- a midpoint coordinate: start plus half the direction -/
def mid (p d : EReal) : EReal := p + wHalf * d
/-- clamp to `[0, 1]` -/
def clip01 (x : EReal) : EReal := min wOne (max wZero x)

/-! ## One ordered pair of segments -/

section Pair

variable (si di : BitVec 32) (pxi pyi dxi dyi : EReal) (sj dj : BitVec 32) (pxj pyj dxj dyj : EReal) (I J : BitVec 32)

/-- the two segments share a node -/
def adj : BitVec 1 :=
  IntOp.ori (IntOp.ori (IntOp.cmpi .eq si sj) (IntOp.cmpi .eq si dj)) (IntOp.ori (IntOp.cmpi .eq di sj) (IntOp.cmpi .eq di dj))

/-- distance of the midpoints -/
def midDist : EReal :=
  Ideal.sqrt ((mid pxi dxi - mid pxj dxj) * (mid pxi dxi - mid pxj dxj) + (mid pyi dyi - mid pyj dyj) * (mid pyi dyi - mid pyj dyj))

/-- the midpoints are close -/
def prox : BitVec 1 :=
  FloatOps.cmpf (F := Ideal) (φ := .f32) .olt (midDist pxi pyi dxi dyi pxj pyj dxj dyj) (hl dxi dyi + hl dxj dyj + wMargin)

/-- the pair is selected -/
def mask : BitVec 1 :=
  IntOp.andi (IntOp.andi (IntOp.xori (adj si di sj dj) 1#1) (IntOp.cmpi .sgt J I)) (prox pxi pyi dxi dyi pxj pyj dxj dyj)

def bb : EReal := dxi * dxj + dyi * dyj
def cc : EReal := dp pxi pyi dxi dyi - (dxi * pxj + dyi * pyj)
def ff : EReal := (pxi * dxj + pyi * dyj) - dp pxj pyj dxj dyj
def den : EReal := max (aa dxi dyi * aa dxj dyj - bb dxi dyi dxj dyj * bb dxi dyi dxj dyj) wTiny

/-- first parameter on segment `I` -/
def s1 : EReal :=
  clip01 (Ideal.div (bb dxi dyi dxj dyj * ff pxi pyi pxj pyj dxj dyj - cc pxi pyi dxi dyi pxj pyj * aa dxj dyj) (den dxi dyi dxj dyj))
/-- parameter on segment `J` -/
def t1 : EReal :=
  clip01 (Ideal.div (bb dxi dyi dxj dyj * s1 pxi pyi dxi dyi pxj pyj dxj dyj + ff pxi pyi pxj pyj dxj dyj) (aa dxj dyj))
/-- parameter on segment `I`, recomputed -/
def s2 : EReal :=
  clip01 (Ideal.div (bb dxi dyi dxj dyj * t1 pxi pyi dxi dyi pxj pyj dxj dyj - cc pxi pyi dxi dyi pxj pyj) (aa dxi dyi))

def gapx : EReal := (pxi - pxj) + s2 pxi pyi dxi dyi pxj pyj dxj dyj * dxi - t1 pxi pyi dxi dyi pxj pyj dxj dyj * dxj
def gapy : EReal := (pyi - pyj) + s2 pxi pyi dxi dyi pxj pyj dxj dyj * dyi - t1 pxi pyi dxi dyi pxj pyj dxj dyj * dyj

/-- closest-approach distance of the two segments -/
def dist : EReal :=
  Ideal.sqrt (gapx pxi pyi dxi dyi pxj pyj dxj dyj * gapx pxi pyi dxi dyi pxj pyj dxj dyj
    + gapy pxi pyi dxi dyi pxj pyj dxj dyj * gapy pxi pyi dxi dyi pxj pyj dxj dyj)

/-- the pair's term of the loss -/
def term : EReal :=
  Scalar.select (mask si di pxi pyi dxi dyi sj dj pxj pyj dxj dyj I J) (max (wEps - dist pxi pyi dxi dyi pxj pyj dxj dyj) wZero) wZero

/-- the pair's term of the count: 1 when selected, else 0 -/
def cnt : EReal :=
  FloatOps.sitofp (F := Ideal) .f32 ((mask si di pxi pyi dxi dyi sj dj pxj pyj dxj dyj I J).setWidth 32)

end Pair

/-! ## All the segments -/

/-- The 4096 segments. -/
structure Segs where
  s : Fin 4096 → BitVec 32
  d : Fin 4096 → BitVec 32
  px : Fin 4096 → EReal
  py : Fin 4096 → EReal
  dx : Fin 4096 → EReal
  dy : Fin 4096 → EReal

/-- segment pair `(I, J)` selected -/
def pairMask (g : Segs) (I J : Fin 4096) : BitVec 1 :=
  mask (g.s I) (g.d I) (g.px I) (g.py I) (g.dx I) (g.dy I) (g.s J) (g.d J) (g.px J) (g.py J) (g.dx J) (g.dy J)
    (BitVec.ofNat 32 I.val) (BitVec.ofNat 32 J.val)

/-- the loss term of segment pair `(I, J)` -/
def pairTerm (g : Segs) (I J : Fin 4096) : EReal :=
  term (g.s I) (g.d I) (g.px I) (g.py I) (g.dx I) (g.dy I) (g.s J) (g.d J) (g.px J) (g.py J) (g.dx J) (g.dy J)
    (BitVec.ofNat 32 I.val) (BitVec.ofNat 32 J.val)

/-- the count term of segment pair `(I, J)` -/
def pairCnt (g : Segs) (I J : Fin 4096) : EReal :=
  cnt (g.s I) (g.d I) (g.px I) (g.py I) (g.dx I) (g.dy I) (g.s J) (g.d J) (g.px J) (g.py J) (g.dx J) (g.dy J)
    (BitVec.ofNat 32 I.val) (BitVec.ofNat 32 J.val)

/-- sum of the loss terms over all ordered pairs -/
def lossSum (g : Segs) : EReal := ∑ I : Fin 4096, ∑ J : Fin 4096, pairTerm g I J
/-- number of selected pairs, as a sum of zeros and ones -/
def lossCnt (g : Segs) : EReal := ∑ I : Fin 4096, ∑ J : Fin 4096, pairCnt g I J

/-- THE LOSS: the sum of the terms over the number of selected pairs, the latter at least one. -/
def loss (g : Segs) : EReal := Ideal.div (lossSum g) (max (lossCnt g) wOne)

/-! ## The segments of a graph drawing

Node positions `pos[0, n, k]` (`n < 4096`, `k < 2`) and an edge list `ei[r, e]` (`r = 0` the source, `r = 1` the
destination).  A node word is read the way array indexing reads it: a negative word has 4096 added, and the result is
read signed and clamped into `[0, 4095]`. -/

/-- add 4096 to a negative word -/
def wrap (s : BitVec 32) : BitVec 32 := Scalar.select (IntOp.cmpi .slt s 0#32) (IntOp.addi s 4096#32) s

/-- the node a word names -/
def node (s : BitVec 32) : Fin 4096 := ⟨min (wrap s).toInt.toNat 4095, by omega⟩

/-- The segments of the drawing: segment `e` starts at the position of its source node and its direction is the
    position of its destination node minus that. -/
def segsOf (pos : (⟨3, ![1, 4096, 2]⟩ : Shape).Idx → EReal) (ei : (⟨2, ![2, 4096]⟩ : Shape).Idx → BitVec 32) : Segs where
  s e := ei (ValueIdx.ix2 (0 : Fin 2) e)
  d e := ei (ValueIdx.ix2 (1 : Fin 2) e)
  px e := pos (ValueIdx.ix3 (0 : Fin 1) (node (ei (ValueIdx.ix2 (0 : Fin 2) e))) (0 : Fin 2))
  py e := pos (ValueIdx.ix3 (0 : Fin 1) (node (ei (ValueIdx.ix2 (0 : Fin 2) e))) (1 : Fin 2))
  dx e := pos (ValueIdx.ix3 (0 : Fin 1) (node (ei (ValueIdx.ix2 (1 : Fin 2) e))) (0 : Fin 2))
            - pos (ValueIdx.ix3 (0 : Fin 1) (node (ei (ValueIdx.ix2 (0 : Fin 2) e))) (0 : Fin 2))
  dy e := pos (ValueIdx.ix3 (0 : Fin 1) (node (ei (ValueIdx.ix2 (1 : Fin 2) e))) (1 : Fin 2))
            - pos (ValueIdx.ix3 (0 : Fin 1) (node (ei (ValueIdx.ix2 (0 : Fin 2) e))) (1 : Fin 2))

end Cert.PairTerm

end
-- ==== Proof.KTile.lean ====
/-
  What the body of the kernel computes on ONE 512 × 512 tile of segment pairs, read at an index, over the extended reals.

  The body is handed twelve blocks: for the 512 row segments their two node words and their start point and direction
  (six columns `[512, 1]`), and the same six quantities of the 512 column segments (six rows `[1, 512]`).  Read at the pair
  `(p, q)` of the tile at grid position `(i0, i1)`:

  * the selection mask is the pair's `mask` — no shared node, global column index `i1 * 512 + q` after global row index
    `i0 * 512 + p`, midpoints closer than the sum of the half lengths plus the margin (`tileMask_apply`);
  * the value array is `ε` minus the clamped closest-approach distance `dist` of the two segments (`tileVal_apply`);
  * the first accumulator gains the sum over the tile of the selected positive parts, the second the sum of the
    selected bits as zeros and ones (`pay1_read`, `pay2_read`), which for the tile's own mask and values are the sums of
    the pairs' `term` and `cnt` (`tile_sum`, `tile_cnt`);
  * the final quotient is the first accumulator over the second, the latter at least one (`pay3_read`), and both
    accumulators start from zero (`pay4_read`, `pay5_read`).

  Every elementwise operation at an index is the extended reals' own by definition; what needs an argument is where an
  index goes: a column broadcast along the lanes reads its row's entry and a row broadcast over the rows its lane's, a
  sum along the lanes followed by a sum over the rows is the double sum over the tile, and a counter reads its coordinate.
-/
import proofs.«132866_j46480136077416_1_alg».proof.Proof.Gen.KernelIdeal.Skeleton
import proofs.«132866_j46480136077416_1_alg».proof.Proof.PairTerm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Cert.PairTerm Idealize.ShloMosaic Idealize.ShloMosaic.ValueIdx

/-! ## Where an index goes: broadcasts, the column cast, the two sums -/

section Helpers
variable {α : Type}

/-- A column `[512, 1]` broadcast along the lanes reads, at `(p, q)`, the column's entry of row `p`. -/
theorem bcRow (x : S512x1.Idx → α) (h : S512x1.Broadcasts S512x512) (p q : Fin 512) :
    broadcastTo S512x512 x h (ix2 p q) = x (ix2 p (0 : Fin 1)) :=
  broadcastTo_apply x h (ix2 p q) (ix2 p (0 : Fin 1)) fun a => match a with | ⟨0, _⟩ => rfl | ⟨1, _⟩ => rfl

/-- A row `[1, 512]` broadcast over the rows reads, at `(p, q)`, the row's entry of lane `q`. -/
theorem bcCol (x : S1x512.Idx → α) (h : S1x512.Broadcasts S512x512) (p q : Fin 512) :
    broadcastTo S512x512 x h (ix2 p q) = x (ix2 (0 : Fin 1) q) :=
  broadcastTo_1b_ab_apply x h p q

/-- A vector `[512]` cast to the column `[512, 1]` reads, at `(p, u)`, the vector at `p`. -/
theorem castCol (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Helpers

/-- The sum along the lanes of a `[512, 512]` array, at row `p`. -/
theorem redLanes (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ q : Fin 512, src (ix2 p q) := by
  refine (Ideal.multiReduction_add_single src 0x00000000#32 h hφ hacc (ix1 p)).trans ?_
  refine Finset.sum_congr rfl fun q _ => congrArg src ?_
  funext a
  match a with
  | ⟨0, _⟩ => rfl
  | ⟨1, _⟩ => rfl

/-- The sum over the rows of a column `[512, 1]`. -/
theorem redRows (src : FVec Ideal S512x1 .f32) (h : S512x1.Reduces [0] S1) (hφ : FKind.Formats .f32)
    (hacc : (0x00000000#32 : BitVec 32) = 0x00000000#32) :
    multiReduction .add [0] S1 src 0x00000000#32 h hφ hacc (ix1 (0 : Fin 1)) = ∑ p : Fin 512, src (ix2 p (0 : Fin 1)) := by
  refine (Ideal.multiReduction_add_single src 0x00000000#32 h hφ hacc (ix1 (0 : Fin 1))).trans ?_
  refine Finset.sum_congr rfl fun p _ => congrArg src ?_
  funext a
  match a with
  | ⟨0, _⟩ => rfl
  | ⟨1, _⟩ => rfl

/-! ## The accumulators -/

/-- The word of zero is the extended real zero. -/
theorem zeroWord : Ideal.ofBits .f32 0x00000000#32 = (0 : EReal) := Ideal.ofBits_zero_f32

/-- The first accumulator's update, for ANY mask and value array: the old value plus the sum over the tile of the
    selected positive parts. -/
theorem pay1_read (M : IVec S512x512 1) (W : FVec Ideal S512x512 .f32) (xs : Vec Ideal S1x1 .f32) :
    k0_pay1 (F := Ideal) M W (Scalar.ofBits (F := Ideal) .f32 0x00000000#32) xs (ix2 (0 : Fin 1) (0 : Fin 1))
      = xs (ix2 (0 : Fin 1) (0 : Fin 1))
          + ∑ p : Fin 512, ∑ q : Fin 512, Scalar.select (M (ix2 p q)) (max (W (ix2 p q)) wZero) wZero := by
  simp only [k0_pay1]
  refine (congrFun (shapeCast_self _ _) _).trans ?_
  refine congrArg (fun z : EReal => xs (ix2 (0 : Fin 1) (0 : Fin 1)) + z) ?_
  refine (shapeCast_a_1a_apply _ _ (0 : Fin 1) (0 : Fin 1)).trans ?_
  refine (redRows _ _ _ _).trans ?_
  refine Finset.sum_congr rfl fun p _ => ?_
  refine (castCol _ _ p (0 : Fin 1)).trans ?_
  refine (redLanes _ _ _ _ p).trans ?_
  rfl

/-- The second accumulator's update, for ANY mask: the old value plus the sum over the tile of the mask's bits, each
    as zero or one. -/
theorem pay2_read (M : IVec S512x512 1) (xs : Vec Ideal S1x1 .f32) :
    k0_pay2 (F := Ideal) M xs (ix2 (0 : Fin 1) (0 : Fin 1))
      = xs (ix2 (0 : Fin 1) (0 : Fin 1))
          + ∑ p : Fin 512, ∑ q : Fin 512, FloatOps.sitofp (F := Ideal) .f32 ((M (ix2 p q)).setWidth 32) := by
  simp only [k0_pay2]
  refine (congrFun (shapeCast_self _ _) _).trans ?_
  refine congrArg (fun z : EReal => xs (ix2 (0 : Fin 1) (0 : Fin 1)) + z) ?_
  refine (shapeCast_a_1a_apply _ _ (0 : Fin 1) (0 : Fin 1)).trans ?_
  refine (redRows _ _ _ _).trans ?_
  refine Finset.sum_congr rfl fun p _ => ?_
  refine (castCol _ _ p (0 : Fin 1)).trans ?_
  refine (redLanes _ _ _ _ p).trans ?_
  rfl

/-- The final quotient: the first accumulator over the second, the latter at least one. -/
theorem pay3_read (a b : Vec Ideal S1x1 .f32) :
    k0_pay3 (F := Ideal) a b (ix2 (0 : Fin 1) (0 : Fin 1))
      = Ideal.div (a (ix2 (0 : Fin 1) (0 : Fin 1))) (max (b (ix2 (0 : Fin 1) (0 : Fin 1))) wOne) := rfl

/-- The first accumulator starts from zero … -/
theorem pay4_read : k0_pay4 (F := Ideal) (ix2 (0 : Fin 1) (0 : Fin 1)) = (0 : EReal) := by
  simp only [k0_pay4]
  refine (congrFun (shapeCast_self _ _) _).trans ?_
  exact zeroWord

/-- … and so does the second. -/
theorem pay5_read : k0_pay5 (F := Ideal) (ix2 (0 : Fin 1) (0 : Fin 1)) = (0 : EReal) := by
  simp only [k0_pay5]
  refine (congrFun (shapeCast_self _ _) _).trans ?_
  exact zeroWord

/-! ## The elementwise operations on words, and the square root, at an index -/

section WordOps
variable {s : Shape} {w : Nat}
theorem ori_apply (x y : IVec s w) (i : s.Idx) : ori x y i = IntOp.ori (x i) (y i) := rfl
theorem andi_apply (x y : IVec s w) (i : s.Idx) : andi x y i = IntOp.andi (x i) (y i) := rfl
theorem xori_apply (x y : IVec s w) (i : s.Idx) : xori x y i = IntOp.xori (x i) (y i) := rfl
theorem addi_apply (x y : IVec s w) (i : s.Idx) : addi x y i = IntOp.addi (x i) (y i) := rfl
theorem cmpi_apply (c : CmpIPredicate) (x y : IVec s w) (i : s.Idx) : cmpi c x y i = IntOp.cmpi c (x i) (y i) := rfl
theorem sqrtf_apply {φ : FTy} (x : FVec Ideal s φ) (i : s.Idx) : sqrt x i = Ideal.sqrt (x i) := rfl
end WordOps

/-- The global index word: block number times 512 plus the offset, with no wrapping to speak of. -/
theorem idxWord (i p : ℕ) : BitVec.ofNat 32 i * 512#32 + BitVec.ofNat 32 p = BitVec.ofNat 32 (i * 512 + p) := by
  rw [BitVec.ofNat_add, BitVec.ofNat_mul]

/-! ## The identity casts of the twelve blocks -/

section Casts
theorem pay6_eq (x : Vec Ideal S512x1 .i32) : k0_pay6 (F := Ideal) x = x := shapeCast_self _ _
theorem pay7_eq (x : Vec Ideal S512x1 .i32) : k0_pay7 (F := Ideal) x = x := shapeCast_self _ _
theorem pay8_eq (x : Vec Ideal S512x1 .f32) : k0_pay8 (F := Ideal) x = x := shapeCast_self _ _
theorem pay9_eq (x : Vec Ideal S512x1 .f32) : k0_pay9 (F := Ideal) x = x := shapeCast_self _ _
theorem pay10_eq (x : Vec Ideal S512x1 .f32) : k0_pay10 (F := Ideal) x = x := shapeCast_self _ _
theorem pay11_eq (x : Vec Ideal S512x1 .f32) : k0_pay11 (F := Ideal) x = x := shapeCast_self _ _
theorem pay12_eq (x : Vec Ideal S1x512 .i32) : k0_pay12 (F := Ideal) x = x := shapeCast_self _ _
theorem pay13_eq (x : Vec Ideal S1x512 .i32) : k0_pay13 (F := Ideal) x = x := shapeCast_self _ _
theorem pay14_eq (x : Vec Ideal S1x512 .f32) : k0_pay14 (F := Ideal) x = x := shapeCast_self _ _
theorem pay15_eq (x : Vec Ideal S1x512 .f32) : k0_pay15 (F := Ideal) x = x := shapeCast_self _ _
theorem pay16_eq (x : Vec Ideal S1x512 .f32) : k0_pay16 (F := Ideal) x = x := shapeCast_self _ _
theorem pay17_eq (x : Vec Ideal S1x512 .f32) : k0_pay17 (F := Ideal) x = x := shapeCast_self _ _
end Casts

/-! ## The stages of the body at an index -/

section Stages
variable (v6 v8 : IVec S512x1 32) (v18 v20 : IVec S1x512 32)
variable (v10 v12 v14 v16 : FVec Ideal S512x1 .f32) (v22 v24 v26 v28 : FVec Ideal S1x512 .f32)
variable (p q : Fin 512)

theorem pay18_apply :
    k0_pay18 v6 v8 v18 v20 (ix2 p q)
      = adj (v6 (ix2 p (0 : Fin 1))) (v8 (ix2 p (0 : Fin 1))) (v18 (ix2 (0 : Fin 1) q)) (v20 (ix2 (0 : Fin 1) q)) := by
  simp only [k0_pay18, ori_apply, cmpi_apply, bcRow, bcCol]
  rfl

/-- The row counter of a column block reads the row. -/
theorem iotaRow (h : S512x1.Iotas .tc 32 [0]) (u : Fin 1) :
    iota .tc S512x1 32 [0] h (ix2 p u) = BitVec.ofNat 32 p.val :=
  iota_single_apply .tc S512x1 32 0 h (ix2 p u)

/-- The lane counter of a row block reads the lane. -/
theorem iotaCol (h : S1x512.Iotas .tc 32 [1]) (u : Fin 1) :
    iota .tc S1x512 32 [1] h (ix2 u q) = BitVec.ofNat 32 q.val :=
  iota_single_apply .tc S1x512 32 1 h (ix2 u q)

theorem pay19_apply (a0 a1 : BitVec 32) :
    k0_pay19 a0 a1 512#32 (ix2 p q)
      = IntOp.cmpi .sgt (a1 * 512#32 + BitVec.ofNat 32 q.val) (a0 * 512#32 + BitVec.ofNat 32 p.val) := by
  simp only [k0_pay19, cmpi_apply, addi_apply, bcRow, bcCol, broadcast_apply]
  rw [iotaRow, iotaCol]
  rfl

theorem pay21_apply (u : Fin 1) : k0_pay21 v14 v16 (ix2 p u) = aa (v14 (ix2 p u)) (v16 (ix2 p u)) := rfl
theorem pay22_apply (u : Fin 1) : k0_pay22 v14 v16 (ix2 p u) = hl (v14 (ix2 p u)) (v16 (ix2 p u)) := rfl
theorem pay23_apply (u : Fin 1) :
    k0_pay23 v10 v12 v14 v16 (ix2 p u) = dp (v10 (ix2 p u)) (v12 (ix2 p u)) (v14 (ix2 p u)) (v16 (ix2 p u)) := rfl
theorem pay25_apply (u : Fin 1) : k0_pay25 v26 v28 (ix2 u q) = aa (v26 (ix2 u q)) (v28 (ix2 u q)) := rfl
theorem pay26_apply (u : Fin 1) : k0_pay26 v26 v28 (ix2 u q) = hl (v26 (ix2 u q)) (v28 (ix2 u q)) := rfl
theorem pay27_apply (u : Fin 1) :
    k0_pay27 v22 v24 v26 v28 (ix2 u q) = dp (v22 (ix2 u q)) (v24 (ix2 u q)) (v26 (ix2 u q)) (v28 (ix2 u q)) := rfl
theorem pay28_apply (u : Fin 1) : k0_pay28 v10 v14 (ix2 p u) = mid (v10 (ix2 p u)) (v14 (ix2 p u)) := rfl
theorem pay29_apply (u : Fin 1) : k0_pay29 v16 (ix2 p u) = wHalf * v16 (ix2 p u) := rfl

theorem pay30_apply (v51 v54 : IVec S512x512 1) (v62 : FVec Ideal S512x1 .f32) (v73 : FVec Ideal S1x512 .f32)
    (v79 v81 : FVec Ideal S512x1 .f32) :
    k0_pay30 (F := Ideal) v12 v22 v24 v26 v28 v51 v54 v62 v73 v79 v81 (ix2 p q)
      = IntOp.andi (IntOp.andi (IntOp.xori (v51 (ix2 p q)) 1#1) (v54 (ix2 p q)))
          (FloatOps.cmpf (F := Ideal) (φ := .f32) .olt
            (Ideal.sqrt
              ((v79 (ix2 p (0 : Fin 1)) - mid (v22 (ix2 (0 : Fin 1) q)) (v26 (ix2 (0 : Fin 1) q)))
                  * (v79 (ix2 p (0 : Fin 1)) - mid (v22 (ix2 (0 : Fin 1) q)) (v26 (ix2 (0 : Fin 1) q)))
                + ((v12 (ix2 p (0 : Fin 1)) + v81 (ix2 p (0 : Fin 1))) - mid (v24 (ix2 (0 : Fin 1) q)) (v28 (ix2 (0 : Fin 1) q)))
                  * ((v12 (ix2 p (0 : Fin 1)) + v81 (ix2 p (0 : Fin 1))) - mid (v24 (ix2 (0 : Fin 1) q)) (v28 (ix2 (0 : Fin 1) q)))))
            (v62 (ix2 p (0 : Fin 1)) + v73 (ix2 (0 : Fin 1) q) + wMargin)) := by
  simp only [k0_pay30, andi_apply, xori_apply, cmpf_apply, constantI_apply, sqrtf_apply, addf_apply, subf_apply, mulf_apply,
    broadcast_apply, bcRow, bcCol]
  rfl

theorem pay31_apply :
    k0_pay31 v14 v16 v26 v28 (ix2 p q)
      = bb (v14 (ix2 p (0 : Fin 1))) (v16 (ix2 p (0 : Fin 1))) (v26 (ix2 (0 : Fin 1) q)) (v28 (ix2 (0 : Fin 1) q)) := by
  simp only [k0_pay31, addf_apply, mulf_apply, bcRow, bcCol]
  rfl

theorem pay32_apply (v65 : FVec Ideal S512x1 .f32) :
    k0_pay32 v14 v16 v22 v24 v65 (ix2 p q)
      = v65 (ix2 p (0 : Fin 1))
          - (v14 (ix2 p (0 : Fin 1)) * v22 (ix2 (0 : Fin 1) q) + v16 (ix2 p (0 : Fin 1)) * v24 (ix2 (0 : Fin 1) q)) := by
  simp only [k0_pay32, addf_apply, subf_apply, mulf_apply, bcRow, bcCol]

theorem pay33_apply (v76 : FVec Ideal S1x512 .f32) :
    k0_pay33 v10 v12 v26 v28 v76 (ix2 p q)
      = (v10 (ix2 p (0 : Fin 1)) * v26 (ix2 (0 : Fin 1) q) + v12 (ix2 p (0 : Fin 1)) * v28 (ix2 (0 : Fin 1) q))
          - v76 (ix2 (0 : Fin 1) q) := by
  simp only [k0_pay33, addf_apply, subf_apply, mulf_apply, bcRow, bcCol]

theorem pay34_apply (v59 : FVec Ideal S512x1 .f32) (v70 : FVec Ideal S1x512 .f32) :
    k0_pay34 v14 v16 v26 v28 v59 v70 (ix2 p q)
      = v59 (ix2 p (0 : Fin 1)) * v70 (ix2 (0 : Fin 1) q)
          - bb (v14 (ix2 p (0 : Fin 1))) (v16 (ix2 p (0 : Fin 1))) (v26 (ix2 (0 : Fin 1) q)) (v28 (ix2 (0 : Fin 1) q))
            * bb (v14 (ix2 p (0 : Fin 1))) (v16 (ix2 p (0 : Fin 1))) (v26 (ix2 (0 : Fin 1) q)) (v28 (ix2 (0 : Fin 1) q)) := by
  simp only [k0_pay34, subf_apply, mulf_apply, bcRow, bcCol, pay31_apply]

end Stages

section Pay35
variable (v10 v12 v14 v16 : FVec Ideal S512x1 .f32) (v22 v24 v26 v28 : FVec Ideal S1x512 .f32)
variable (p q : Fin 512)

/-- The last stage at an index, over any values of the six quantities it is handed: the three clamped parameters, the
    gap vector, and the threshold minus its length. -/
theorem pay35_apply (v59 : FVec Ideal S512x1 .f32) (v70 : FVec Ideal S1x512 .f32) (v114 v123 v132 v137 : FVec Ideal S512x512 .f32) :
    k0_pay35 (F := Ideal) v10 v12 v14 v16 v22 v24 v26 v28 v59 v70 v114 v123 v132 v137 (ix2 p q)
      = (let B := v114 (ix2 p q)
         let C := v123 (ix2 p q)
         let G := v132 (ix2 p q)
         let D := max (v137 (ix2 p q)) wTiny
         let S1 := clip01 (Ideal.div (B * G - C * v70 (ix2 (0 : Fin 1) q)) D)
         let T1 := clip01 (Ideal.div (B * S1 + G) (v70 (ix2 (0 : Fin 1) q)))
         let S2 := clip01 (Ideal.div (B * T1 - C) (v59 (ix2 p (0 : Fin 1))))
         let gx := (v10 (ix2 p (0 : Fin 1)) - v22 (ix2 (0 : Fin 1) q)) + S2 * v14 (ix2 p (0 : Fin 1)) - T1 * v26 (ix2 (0 : Fin 1) q)
         let gy := (v12 (ix2 p (0 : Fin 1)) - v24 (ix2 (0 : Fin 1) q)) + S2 * v16 (ix2 p (0 : Fin 1)) - T1 * v28 (ix2 (0 : Fin 1) q)
         wEps - Ideal.sqrt (gx * gx + gy * gy)) := by
  simp only [k0_pay35, sqrtf_apply, addf_apply, subf_apply, mulf_apply, divf_apply, maximumf_apply, minimumf_apply,
    broadcast_apply, bcRow, bcCol]
  rfl

end Pay35

/-! ## The tile -/

section Tile
variable (x0 x1 : Vec Ideal S512x1 .i32) (x2 x3 x4 x5 : Vec Ideal S512x1 .f32) (x6 x7 : Vec Ideal S1x512 .i32) (x8 x9 x10 x11 : Vec Ideal S1x512 .f32)

/-- the selection mask of the tile at grid coordinates `a0 a1`, as one term of the twelve blocks -/
def tileMask (a0 a1 : BitVec 32) : IVec S512x512 1 :=
  k0_pay30 (F := Ideal) (k0_pay9 x3) (k0_pay14 x8) (k0_pay15 x9) (k0_pay16 x10) (k0_pay17 x11)
    (k0_pay18 (k0_pay6 (F := Ideal) x0) (k0_pay7 (F := Ideal) x1) (k0_pay12 (F := Ideal) x6) (k0_pay13 (F := Ideal) x7))
    (k0_pay19 a0 a1 512#32) (k0_pay22 (k0_pay10 x4) (k0_pay11 x5)) (k0_pay26 (k0_pay16 x10) (k0_pay17 x11))
    (k0_pay28 (k0_pay8 x2) (k0_pay10 x4)) (k0_pay29 (k0_pay11 x5))

/-- the threshold minus the closest-approach distance on the tile, as one term of the blocks -/
def tileVal : FVec Ideal S512x512 .f32 :=
  k0_pay35 (F := Ideal) (k0_pay8 x2) (k0_pay9 x3) (k0_pay10 x4) (k0_pay11 x5) (k0_pay14 x8) (k0_pay15 x9) (k0_pay16 x10) (k0_pay17 x11)
    (k0_pay21 (k0_pay10 x4) (k0_pay11 x5)) (k0_pay25 (k0_pay16 x10) (k0_pay17 x11))
    (k0_pay31 (k0_pay10 x4) (k0_pay11 x5) (k0_pay16 x10) (k0_pay17 x11))
    (k0_pay32 (k0_pay10 x4) (k0_pay11 x5) (k0_pay14 x8) (k0_pay15 x9) (k0_pay23 (k0_pay8 x2) (k0_pay9 x3) (k0_pay10 x4) (k0_pay11 x5)))
    (k0_pay33 (k0_pay8 x2) (k0_pay9 x3) (k0_pay16 x10) (k0_pay17 x11) (k0_pay27 (k0_pay14 x8) (k0_pay15 x9) (k0_pay16 x10) (k0_pay17 x11)))
    (k0_pay34 (k0_pay10 x4) (k0_pay11 x5) (k0_pay16 x10) (k0_pay17 x11) (k0_pay21 (k0_pay10 x4) (k0_pay11 x5)) (k0_pay25 (k0_pay16 x10) (k0_pay17 x11)))

theorem tileMask_apply (i0 i1 : ℕ) (h0 : i0 < 8) (h1 : i1 < 8) (p q : Fin 512) :
    tileMask x0 x1 x2 x3 x4 x5 x6 x7 x8 x9 x10 x11 (BitVec.ofNat 32 i0) (BitVec.ofNat 32 i1) (ix2 p q)
      = mask (x0 (ix2 p (0 : Fin 1))) (x1 (ix2 p (0 : Fin 1))) (x2 (ix2 p (0 : Fin 1))) (x3 (ix2 p (0 : Fin 1))) (x4 (ix2 p (0 : Fin 1))) (x5 (ix2 p (0 : Fin 1)))
          (x6 (ix2 (0 : Fin 1) q)) (x7 (ix2 (0 : Fin 1) q)) (x8 (ix2 (0 : Fin 1) q)) (x9 (ix2 (0 : Fin 1) q)) (x10 (ix2 (0 : Fin 1) q)) (x11 (ix2 (0 : Fin 1) q))
          (BitVec.ofNat 32 (i0 * 512 + p.val)) (BitVec.ofNat 32 (i1 * 512 + q.val)) := by
  unfold tileMask
  rw [pay30_apply, pay18_apply, pay19_apply, pay22_apply, pay26_apply, pay28_apply, pay29_apply, idxWord, idxWord]
  simp only [pay6_eq, pay7_eq, pay8_eq, pay9_eq, pay10_eq, pay11_eq, pay12_eq, pay13_eq, pay14_eq, pay15_eq, pay16_eq, pay17_eq]
  rfl

theorem tileVal_apply (p q : Fin 512) :
    tileVal x2 x3 x4 x5 x8 x9 x10 x11 (ix2 p q)
      = wEps - dist (x2 (ix2 p (0 : Fin 1))) (x3 (ix2 p (0 : Fin 1))) (x4 (ix2 p (0 : Fin 1))) (x5 (ix2 p (0 : Fin 1)))
                    (x8 (ix2 (0 : Fin 1) q)) (x9 (ix2 (0 : Fin 1) q)) (x10 (ix2 (0 : Fin 1) q)) (x11 (ix2 (0 : Fin 1) q)) := by
  unfold tileVal
  rw [pay35_apply, pay31_apply, pay32_apply, pay33_apply, pay34_apply, pay21_apply, pay25_apply, pay23_apply, pay27_apply]
  simp only [pay8_eq, pay9_eq, pay10_eq, pay11_eq, pay14_eq, pay15_eq, pay16_eq, pay17_eq]
  rfl

end Tile

/-! ## The tile's sums are the sums of the pairs' terms -/

section TileSums
variable (x0 x1 : Vec Ideal S512x1 .i32) (x2 x3 x4 x5 : Vec Ideal S512x1 .f32) (x6 x7 : Vec Ideal S1x512 .i32) (x8 x9 x10 x11 : Vec Ideal S1x512 .f32)

/-- The first accumulator after the tile at grid position `(i0, i1)`: the old value plus the sum of the loss terms of the
    tile's pairs. -/
theorem tile_sum (i0 i1 : ℕ) (h0 : i0 < 8) (h1 : i1 < 8) (xs : Vec Ideal S1x1 .f32) :
    k0_pay1 (F := Ideal) (tileMask x0 x1 x2 x3 x4 x5 x6 x7 x8 x9 x10 x11 (BitVec.ofNat 32 i0) (BitVec.ofNat 32 i1))
        (tileVal x2 x3 x4 x5 x8 x9 x10 x11) (Scalar.ofBits (F := Ideal) .f32 0x00000000#32) xs (ix2 (0 : Fin 1) (0 : Fin 1))
      = xs (ix2 (0 : Fin 1) (0 : Fin 1)) + ∑ p : Fin 512, ∑ q : Fin 512,
          term (x0 (ix2 p (0 : Fin 1))) (x1 (ix2 p (0 : Fin 1))) (x2 (ix2 p (0 : Fin 1))) (x3 (ix2 p (0 : Fin 1))) (x4 (ix2 p (0 : Fin 1))) (x5 (ix2 p (0 : Fin 1)))
            (x6 (ix2 (0 : Fin 1) q)) (x7 (ix2 (0 : Fin 1) q)) (x8 (ix2 (0 : Fin 1) q)) (x9 (ix2 (0 : Fin 1) q)) (x10 (ix2 (0 : Fin 1) q)) (x11 (ix2 (0 : Fin 1) q))
            (BitVec.ofNat 32 (i0 * 512 + p.val)) (BitVec.ofNat 32 (i1 * 512 + q.val)) := by
  refine (pay1_read _ _ xs).trans ?_
  refine congrArg (fun z : EReal => xs (ix2 (0 : Fin 1) (0 : Fin 1)) + z) ?_
  refine Finset.sum_congr rfl fun p _ => Finset.sum_congr rfl fun q _ => ?_
  rw [tileMask_apply x0 x1 x2 x3 x4 x5 x6 x7 x8 x9 x10 x11 i0 i1 h0 h1 p q, tileVal_apply x2 x3 x4 x5 x8 x9 x10 x11 p q]
  rfl

/-- The second accumulator after the tile at grid position `(i0, i1)`: the old value plus the number of selected pairs of
    the tile, as a sum of zeros and ones. -/
theorem tile_cnt (i0 i1 : ℕ) (h0 : i0 < 8) (h1 : i1 < 8) (xs : Vec Ideal S1x1 .f32) :
    k0_pay2 (F := Ideal) (tileMask x0 x1 x2 x3 x4 x5 x6 x7 x8 x9 x10 x11 (BitVec.ofNat 32 i0) (BitVec.ofNat 32 i1))
        xs (ix2 (0 : Fin 1) (0 : Fin 1))
      = xs (ix2 (0 : Fin 1) (0 : Fin 1)) + ∑ p : Fin 512, ∑ q : Fin 512,
          cnt (x0 (ix2 p (0 : Fin 1))) (x1 (ix2 p (0 : Fin 1))) (x2 (ix2 p (0 : Fin 1))) (x3 (ix2 p (0 : Fin 1))) (x4 (ix2 p (0 : Fin 1))) (x5 (ix2 p (0 : Fin 1)))
            (x6 (ix2 (0 : Fin 1) q)) (x7 (ix2 (0 : Fin 1) q)) (x8 (ix2 (0 : Fin 1) q)) (x9 (ix2 (0 : Fin 1) q)) (x10 (ix2 (0 : Fin 1) q)) (x11 (ix2 (0 : Fin 1) q))
            (BitVec.ofNat 32 (i0 * 512 + p.val)) (BitVec.ofNat 32 (i1 * 512 + q.val)) := by
  refine (pay2_read _ xs).trans ?_
  refine congrArg (fun z : EReal => xs (ix2 (0 : Fin 1) (0 : Fin 1)) + z) ?_
  refine Finset.sum_congr rfl fun p _ => Finset.sum_congr rfl fun q _ => ?_
  rw [tileMask_apply x0 x1 x2 x3 x4 x5 x6 x7 x8 x9 x10 x11 i0 i1 h0 h1 p q]
  rfl

end TileSums

end Cert.KernelIdeal.Tile

end
-- ==== Proof.KBlocks.lean ====
/-
  Which array elements a block holds.

  The grid has 8 x 8 points; point t has coordinates (t / 8, t % 8). Six windows cut a column array of
  4096 rows into blocks of 512 rows, the block at point t being block t / 8; six windows cut a row array
  of 4096 columns into blocks of 512 columns, the block at point t being block t % 8. Hence row p of a
  column block at point t is row (t / 8) * 512 + p of the array, and column q of a row block at point t is
  column (t % 8) * 512 + q of the array. The block index of every window at every point is decided over the
  64 points; the position of a block's element in the array is the block index times the block's extent
  plus the element's own coordinate.
-/
import proofs.«132866_j46480136077416_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.ValueIdx Idealize.SL.Sem

/-! ## The grid's coordinates and the windows' block indices, decided over the 64 points -/

/-- The first coordinate of point t is t / 8. -/
theorem coords0 : ∀ t : Fin cfg0.N, (grid0.coords t 0).val = t.val / 8 :=
  (by decide +kernel : ∀ t : Fin grid0.N, _)

/-- The second coordinate of point t is t % 8. -/
theorem coords1 : ∀ t : Fin cfg0.N, (grid0.coords t 1).val = t.val % 8 :=
  (by decide +kernel : ∀ t : Fin grid0.N, _)

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx5 : ∀ t : Fin cfg0.N, win0_5.index t (0 : Fin 2) = t.val / 8 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val % 8 :=
  (by decide +kernel : ∀ t : Fin grid0.N, _)
theorem idx7 : ∀ t : Fin cfg0.N, win0_7.index t (0 : Fin 2) = 0 ∧ win0_7.index t (1 : Fin 2) = t.val % 8 :=
  (by decide +kernel : ∀ t : Fin grid0.N, _)
theorem idx8 : ∀ t : Fin cfg0.N, win0_8.index t (0 : Fin 2) = 0 ∧ win0_8.index t (1 : Fin 2) = t.val % 8 :=
  (by decide +kernel : ∀ t : Fin grid0.N, _)
theorem idx9 : ∀ t : Fin cfg0.N, win0_9.index t (0 : Fin 2) = 0 ∧ win0_9.index t (1 : Fin 2) = t.val % 8 :=
  (by decide +kernel : ∀ t : Fin grid0.N, _)
theorem idx10 : ∀ t : Fin cfg0.N, win0_10.index t (0 : Fin 2) = 0 ∧ win0_10.index t (1 : Fin 2) = t.val % 8 :=
  (by decide +kernel : ∀ t : Fin grid0.N, _)
theorem idx11 : ∀ t : Fin cfg0.N, win0_11.index t (0 : Fin 2) = 0 ∧ win0_11.index t (1 : Fin 2) = t.val % 8 :=
  (by decide +kernel : ∀ t : Fin grid0.N, _)

/-! ## Equal positions give equal elements -/

theorem col_congr {α : Type} (A : S4096x1.Idx → α) {a b : Fin 4096} (h : a.val = b.val) :
    A (ix2 a (0 : Fin 1)) = A (ix2 b (0 : Fin 1)) := by
  rw [Fin.ext h]

theorem row_congr {α : Type} (A : S1x4096.Idx → α) {a b : Fin 4096} (h : a.val = b.val) :
    A (ix2 (0 : Fin 1) a) = A (ix2 (0 : Fin 1) b) := by
  rw [Fin.ext h]

/-! ## A block read off an arbitrary array -/

/-- Window 0: row p of the block at point t is row (t / 8) * 512 + p of any array read through the block. -/
theorem read_blk0 (t : Fin cfg0.N) (A : ((cfg0.win 0).blk t).view.ty.Contents (Elt Ideal)) (p : Fin 512) :
    (((cfg0.win 0).blk t).view.read (Elt Ideal) A : S512x1.Idx → BitVec 32) (ix2 p (0 : Fin 1))
      = (A : S4096x1.Idx → BitVec 32) (ix2 ⟨t.val / 8 * 512 + p.val, by have := t.isLt; have : cfg0.N = 64 := N_0; omega⟩ (0 : Fin 1)) := by
  obtain ⟨e0, e1⟩ := idx0 t
  rw [View.read_apply]
  show (A : S4096x1.Idx → BitVec 32) _ = (A : S4096x1.Idx → BitVec 32) _
  refine congrArg (A : S4096x1.Idx → BitVec 32) ?_
  funext a; apply Fin.ext
  match a with
  | ⟨0, _⟩ => show win0_0.index t (0 : Fin 2) * 512 + 1 * p.val = t.val / 8 * 512 + p.val; rw [e0]; omega
  | ⟨1, _⟩ => show win0_0.index t (1 : Fin 2) * 1 + 1 * 0 = 0; rw [e1]

/-- Window 1: row p of the block at point t is row (t / 8) * 512 + p of any array read through the block. -/
theorem read_blk1 (t : Fin cfg0.N) (A : ((cfg0.win 1).blk t).view.ty.Contents (Elt Ideal)) (p : Fin 512) :
    (((cfg0.win 1).blk t).view.read (Elt Ideal) A : S512x1.Idx → BitVec 32) (ix2 p (0 : Fin 1))
      = (A : S4096x1.Idx → BitVec 32) (ix2 ⟨t.val / 8 * 512 + p.val, by have := t.isLt; have : cfg0.N = 64 := N_0; omega⟩ (0 : Fin 1)) := by
  obtain ⟨e0, e1⟩ := idx1 t
  rw [View.read_apply]
  show (A : S4096x1.Idx → BitVec 32) _ = (A : S4096x1.Idx → BitVec 32) _
  refine congrArg (A : S4096x1.Idx → BitVec 32) ?_
  funext a; apply Fin.ext
  match a with
  | ⟨0, _⟩ => show win0_1.index t (0 : Fin 2) * 512 + 1 * p.val = t.val / 8 * 512 + p.val; rw [e0]; omega
  | ⟨1, _⟩ => show win0_1.index t (1 : Fin 2) * 1 + 1 * 0 = 0; rw [e1]

/-- Window 2: row p of the block at point t is row (t / 8) * 512 + p of any array read through the block. -/
theorem read_blk2 (t : Fin cfg0.N) (A : ((cfg0.win 2).blk t).view.ty.Contents (Elt Ideal)) (p : Fin 512) :
    (((cfg0.win 2).blk t).view.read (Elt Ideal) A : S512x1.Idx → EReal) (ix2 p (0 : Fin 1))
      = (A : S4096x1.Idx → EReal) (ix2 ⟨t.val / 8 * 512 + p.val, by have := t.isLt; have : cfg0.N = 64 := N_0; omega⟩ (0 : Fin 1)) := by
  obtain ⟨e0, e1⟩ := idx2 t
  rw [View.read_apply]
  show (A : S4096x1.Idx → EReal) _ = (A : S4096x1.Idx → EReal) _
  refine congrArg (A : S4096x1.Idx → EReal) ?_
  funext a; apply Fin.ext
  match a with
  | ⟨0, _⟩ => show win0_2.index t (0 : Fin 2) * 512 + 1 * p.val = t.val / 8 * 512 + p.val; rw [e0]; omega
  | ⟨1, _⟩ => show win0_2.index t (1 : Fin 2) * 1 + 1 * 0 = 0; rw [e1]

/-- Window 3: row p of the block at point t is row (t / 8) * 512 + p of any array read through the block. -/
theorem read_blk3 (t : Fin cfg0.N) (A : ((cfg0.win 3).blk t).view.ty.Contents (Elt Ideal)) (p : Fin 512) :
    (((cfg0.win 3).blk t).view.read (Elt Ideal) A : S512x1.Idx → EReal) (ix2 p (0 : Fin 1))
      = (A : S4096x1.Idx → EReal) (ix2 ⟨t.val / 8 * 512 + p.val, by have := t.isLt; have : cfg0.N = 64 := N_0; omega⟩ (0 : Fin 1)) := by
  obtain ⟨e0, e1⟩ := idx3 t
  rw [View.read_apply]
  show (A : S4096x1.Idx → EReal) _ = (A : S4096x1.Idx → EReal) _
  refine congrArg (A : S4096x1.Idx → EReal) ?_
  funext a; apply Fin.ext
  match a with
  | ⟨0, _⟩ => show win0_3.index t (0 : Fin 2) * 512 + 1 * p.val = t.val / 8 * 512 + p.val; rw [e0]; omega
  | ⟨1, _⟩ => show win0_3.index t (1 : Fin 2) * 1 + 1 * 0 = 0; rw [e1]

/-- Window 4: row p of the block at point t is row (t / 8) * 512 + p of any array read through the block. -/
theorem read_blk4 (t : Fin cfg0.N) (A : ((cfg0.win 4).blk t).view.ty.Contents (Elt Ideal)) (p : Fin 512) :
    (((cfg0.win 4).blk t).view.read (Elt Ideal) A : S512x1.Idx → EReal) (ix2 p (0 : Fin 1))
      = (A : S4096x1.Idx → EReal) (ix2 ⟨t.val / 8 * 512 + p.val, by have := t.isLt; have : cfg0.N = 64 := N_0; omega⟩ (0 : Fin 1)) := by
  obtain ⟨e0, e1⟩ := idx4 t
  rw [View.read_apply]
  show (A : S4096x1.Idx → EReal) _ = (A : S4096x1.Idx → EReal) _
  refine congrArg (A : S4096x1.Idx → EReal) ?_
  funext a; apply Fin.ext
  match a with
  | ⟨0, _⟩ => show win0_4.index t (0 : Fin 2) * 512 + 1 * p.val = t.val / 8 * 512 + p.val; rw [e0]; omega
  | ⟨1, _⟩ => show win0_4.index t (1 : Fin 2) * 1 + 1 * 0 = 0; rw [e1]

/-- Window 5: row p of the block at point t is row (t / 8) * 512 + p of any array read through the block. -/
theorem read_blk5 (t : Fin cfg0.N) (A : ((cfg0.win 5).blk t).view.ty.Contents (Elt Ideal)) (p : Fin 512) :
    (((cfg0.win 5).blk t).view.read (Elt Ideal) A : S512x1.Idx → EReal) (ix2 p (0 : Fin 1))
      = (A : S4096x1.Idx → EReal) (ix2 ⟨t.val / 8 * 512 + p.val, by have := t.isLt; have : cfg0.N = 64 := N_0; omega⟩ (0 : Fin 1)) := by
  obtain ⟨e0, e1⟩ := idx5 t
  rw [View.read_apply]
  show (A : S4096x1.Idx → EReal) _ = (A : S4096x1.Idx → EReal) _
  refine congrArg (A : S4096x1.Idx → EReal) ?_
  funext a; apply Fin.ext
  match a with
  | ⟨0, _⟩ => show win0_5.index t (0 : Fin 2) * 512 + 1 * p.val = t.val / 8 * 512 + p.val; rw [e0]; omega
  | ⟨1, _⟩ => show win0_5.index t (1 : Fin 2) * 1 + 1 * 0 = 0; rw [e1]

/-- Window 6: column q of the block at point t is column (t % 8) * 512 + q of any array read through the block. -/
theorem read_blk6 (t : Fin cfg0.N) (A : ((cfg0.win 6).blk t).view.ty.Contents (Elt Ideal)) (q : Fin 512) :
    (((cfg0.win 6).blk t).view.read (Elt Ideal) A : S1x512.Idx → BitVec 32) (ix2 (0 : Fin 1) q)
      = (A : S1x4096.Idx → BitVec 32) (ix2 (0 : Fin 1) ⟨t.val % 8 * 512 + q.val, by omega⟩) := by
  obtain ⟨e0, e1⟩ := idx6 t
  rw [View.read_apply]
  show (A : S1x4096.Idx → BitVec 32) _ = (A : S1x4096.Idx → BitVec 32) _
  refine congrArg (A : S1x4096.Idx → BitVec 32) ?_
  funext a; apply Fin.ext
  match a with
  | ⟨0, _⟩ => show win0_6.index t (0 : Fin 2) * 1 + 1 * 0 = 0; rw [e0]
  | ⟨1, _⟩ => show win0_6.index t (1 : Fin 2) * 512 + 1 * q.val = t.val % 8 * 512 + q.val; rw [e1]; omega

/-- Window 7: column q of the block at point t is column (t % 8) * 512 + q of any array read through the block. -/
theorem read_blk7 (t : Fin cfg0.N) (A : ((cfg0.win 7).blk t).view.ty.Contents (Elt Ideal)) (q : Fin 512) :
    (((cfg0.win 7).blk t).view.read (Elt Ideal) A : S1x512.Idx → BitVec 32) (ix2 (0 : Fin 1) q)
      = (A : S1x4096.Idx → BitVec 32) (ix2 (0 : Fin 1) ⟨t.val % 8 * 512 + q.val, by omega⟩) := by
  obtain ⟨e0, e1⟩ := idx7 t
  rw [View.read_apply]
  show (A : S1x4096.Idx → BitVec 32) _ = (A : S1x4096.Idx → BitVec 32) _
  refine congrArg (A : S1x4096.Idx → BitVec 32) ?_
  funext a; apply Fin.ext
  match a with
  | ⟨0, _⟩ => show win0_7.index t (0 : Fin 2) * 1 + 1 * 0 = 0; rw [e0]
  | ⟨1, _⟩ => show win0_7.index t (1 : Fin 2) * 512 + 1 * q.val = t.val % 8 * 512 + q.val; rw [e1]; omega

/-- Window 8: column q of the block at point t is column (t % 8) * 512 + q of any array read through the block. -/
theorem read_blk8 (t : Fin cfg0.N) (A : ((cfg0.win 8).blk t).view.ty.Contents (Elt Ideal)) (q : Fin 512) :
    (((cfg0.win 8).blk t).view.read (Elt Ideal) A : S1x512.Idx → EReal) (ix2 (0 : Fin 1) q)
      = (A : S1x4096.Idx → EReal) (ix2 (0 : Fin 1) ⟨t.val % 8 * 512 + q.val, by omega⟩) := by
  obtain ⟨e0, e1⟩ := idx8 t
  rw [View.read_apply]
  show (A : S1x4096.Idx → EReal) _ = (A : S1x4096.Idx → EReal) _
  refine congrArg (A : S1x4096.Idx → EReal) ?_
  funext a; apply Fin.ext
  match a with
  | ⟨0, _⟩ => show win0_8.index t (0 : Fin 2) * 1 + 1 * 0 = 0; rw [e0]
  | ⟨1, _⟩ => show win0_8.index t (1 : Fin 2) * 512 + 1 * q.val = t.val % 8 * 512 + q.val; rw [e1]; omega

/-- Window 9: column q of the block at point t is column (t % 8) * 512 + q of any array read through the block. -/
theorem read_blk9 (t : Fin cfg0.N) (A : ((cfg0.win 9).blk t).view.ty.Contents (Elt Ideal)) (q : Fin 512) :
    (((cfg0.win 9).blk t).view.read (Elt Ideal) A : S1x512.Idx → EReal) (ix2 (0 : Fin 1) q)
      = (A : S1x4096.Idx → EReal) (ix2 (0 : Fin 1) ⟨t.val % 8 * 512 + q.val, by omega⟩) := by
  obtain ⟨e0, e1⟩ := idx9 t
  rw [View.read_apply]
  show (A : S1x4096.Idx → EReal) _ = (A : S1x4096.Idx → EReal) _
  refine congrArg (A : S1x4096.Idx → EReal) ?_
  funext a; apply Fin.ext
  match a with
  | ⟨0, _⟩ => show win0_9.index t (0 : Fin 2) * 1 + 1 * 0 = 0; rw [e0]
  | ⟨1, _⟩ => show win0_9.index t (1 : Fin 2) * 512 + 1 * q.val = t.val % 8 * 512 + q.val; rw [e1]; omega

/-- Window 10: column q of the block at point t is column (t % 8) * 512 + q of any array read through the block. -/
theorem read_blk10 (t : Fin cfg0.N) (A : ((cfg0.win 10).blk t).view.ty.Contents (Elt Ideal)) (q : Fin 512) :
    (((cfg0.win 10).blk t).view.read (Elt Ideal) A : S1x512.Idx → EReal) (ix2 (0 : Fin 1) q)
      = (A : S1x4096.Idx → EReal) (ix2 (0 : Fin 1) ⟨t.val % 8 * 512 + q.val, by omega⟩) := by
  obtain ⟨e0, e1⟩ := idx10 t
  rw [View.read_apply]
  show (A : S1x4096.Idx → EReal) _ = (A : S1x4096.Idx → EReal) _
  refine congrArg (A : S1x4096.Idx → EReal) ?_
  funext a; apply Fin.ext
  match a with
  | ⟨0, _⟩ => show win0_10.index t (0 : Fin 2) * 1 + 1 * 0 = 0; rw [e0]
  | ⟨1, _⟩ => show win0_10.index t (1 : Fin 2) * 512 + 1 * q.val = t.val % 8 * 512 + q.val; rw [e1]; omega

/-- Window 11: column q of the block at point t is column (t % 8) * 512 + q of any array read through the block. -/
theorem read_blk11 (t : Fin cfg0.N) (A : ((cfg0.win 11).blk t).view.ty.Contents (Elt Ideal)) (q : Fin 512) :
    (((cfg0.win 11).blk t).view.read (Elt Ideal) A : S1x512.Idx → EReal) (ix2 (0 : Fin 1) q)
      = (A : S1x4096.Idx → EReal) (ix2 (0 : Fin 1) ⟨t.val % 8 * 512 + q.val, by omega⟩) := by
  obtain ⟨e0, e1⟩ := idx11 t
  rw [View.read_apply]
  show (A : S1x4096.Idx → EReal) _ = (A : S1x4096.Idx → EReal) _
  refine congrArg (A : S1x4096.Idx → EReal) ?_
  funext a; apply Fin.ext
  match a with
  | ⟨0, _⟩ => show win0_11.index t (0 : Fin 2) * 1 + 1 * 0 = 0; rw [e0]
  | ⟨1, _⟩ => show win0_11.index t (1 : Fin 2) * 512 + 1 * q.val = t.val % 8 * 512 + q.val; rw [e1]; omega

/-! ## The windows' blocks as elements of their arrays -/

variable (m : (ℓ : Loc nD τ sig) → Buf (Elt Ideal) ℓ)

/-- Row p of window 0's block at point t is row (t / 8) * 512 + p of its array. -/
theorem iblk0 (c : Dev nD) (t : Fin cfg0.N) (p : Fin 512) :
    (iblk m c 0 t : S512x1.Idx → BitVec 32) (ix2 p (0 : Fin 1))
      = (V m c main_v51 : S4096x1.Idx → BitVec 32) (ix2 ⟨t.val / 8 * 512 + p.val, by have := t.isLt; have : cfg0.N = 64 := N_0; omega⟩ (0 : Fin 1)) := by
  unfold iblk
  exact read_blk0 t _ p

/-- The same with the point's first grid coordinate in place of t / 8. -/
theorem iblk0_coords (c : Dev nD) (t : Fin cfg0.N) (p : Fin 512) :
    (iblk m c 0 t : S512x1.Idx → BitVec 32) (ix2 p (0 : Fin 1))
      = (V m c main_v51 : S4096x1.Idx → BitVec 32) (ix2 ⟨(grid0.coords t 0).val * 512 + p.val, by rw [coords0 t]; have := t.isLt; have : cfg0.N = 64 := N_0; omega⟩ (0 : Fin 1)) :=
  (iblk0 m c t p).trans (col_congr (V m c main_v51 : S4096x1.Idx → BitVec 32) (by show t.val / 8 * 512 + p.val = (grid0.coords t 0).val * 512 + p.val; rw [coords0 t]))

/-- Row p of window 1's block at point t is row (t / 8) * 512 + p of its array. -/
theorem iblk1 (c : Dev nD) (t : Fin cfg0.N) (p : Fin 512) :
    (iblk m c 1 t : S512x1.Idx → BitVec 32) (ix2 p (0 : Fin 1))
      = (V m c main_v52 : S4096x1.Idx → BitVec 32) (ix2 ⟨t.val / 8 * 512 + p.val, by have := t.isLt; have : cfg0.N = 64 := N_0; omega⟩ (0 : Fin 1)) := by
  unfold iblk
  exact read_blk1 t _ p

/-- The same with the point's first grid coordinate in place of t / 8. -/
theorem iblk1_coords (c : Dev nD) (t : Fin cfg0.N) (p : Fin 512) :
    (iblk m c 1 t : S512x1.Idx → BitVec 32) (ix2 p (0 : Fin 1))
      = (V m c main_v52 : S4096x1.Idx → BitVec 32) (ix2 ⟨(grid0.coords t 0).val * 512 + p.val, by rw [coords0 t]; have := t.isLt; have : cfg0.N = 64 := N_0; omega⟩ (0 : Fin 1)) :=
  (iblk1 m c t p).trans (col_congr (V m c main_v52 : S4096x1.Idx → BitVec 32) (by show t.val / 8 * 512 + p.val = (grid0.coords t 0).val * 512 + p.val; rw [coords0 t]))

/-- Row p of window 2's block at point t is row (t / 8) * 512 + p of its array. -/
theorem iblk2 (c : Dev nD) (t : Fin cfg0.N) (p : Fin 512) :
    (iblk m c 2 t : S512x1.Idx → EReal) (ix2 p (0 : Fin 1))
      = (V m c main_v53 : S4096x1.Idx → EReal) (ix2 ⟨t.val / 8 * 512 + p.val, by have := t.isLt; have : cfg0.N = 64 := N_0; omega⟩ (0 : Fin 1)) := by
  unfold iblk
  exact read_blk2 t _ p

/-- The same with the point's first grid coordinate in place of t / 8. -/
theorem iblk2_coords (c : Dev nD) (t : Fin cfg0.N) (p : Fin 512) :
    (iblk m c 2 t : S512x1.Idx → EReal) (ix2 p (0 : Fin 1))
      = (V m c main_v53 : S4096x1.Idx → EReal) (ix2 ⟨(grid0.coords t 0).val * 512 + p.val, by rw [coords0 t]; have := t.isLt; have : cfg0.N = 64 := N_0; omega⟩ (0 : Fin 1)) :=
  (iblk2 m c t p).trans (col_congr (V m c main_v53 : S4096x1.Idx → EReal) (by show t.val / 8 * 512 + p.val = (grid0.coords t 0).val * 512 + p.val; rw [coords0 t]))

/-- Row p of window 3's block at point t is row (t / 8) * 512 + p of its array. -/
theorem iblk3 (c : Dev nD) (t : Fin cfg0.N) (p : Fin 512) :
    (iblk m c 3 t : S512x1.Idx → EReal) (ix2 p (0 : Fin 1))
      = (V m c main_v54 : S4096x1.Idx → EReal) (ix2 ⟨t.val / 8 * 512 + p.val, by have := t.isLt; have : cfg0.N = 64 := N_0; omega⟩ (0 : Fin 1)) := by
  unfold iblk
  exact read_blk3 t _ p

/-- The same with the point's first grid coordinate in place of t / 8. -/
theorem iblk3_coords (c : Dev nD) (t : Fin cfg0.N) (p : Fin 512) :
    (iblk m c 3 t : S512x1.Idx → EReal) (ix2 p (0 : Fin 1))
      = (V m c main_v54 : S4096x1.Idx → EReal) (ix2 ⟨(grid0.coords t 0).val * 512 + p.val, by rw [coords0 t]; have := t.isLt; have : cfg0.N = 64 := N_0; omega⟩ (0 : Fin 1)) :=
  (iblk3 m c t p).trans (col_congr (V m c main_v54 : S4096x1.Idx → EReal) (by show t.val / 8 * 512 + p.val = (grid0.coords t 0).val * 512 + p.val; rw [coords0 t]))

/-- Row p of window 4's block at point t is row (t / 8) * 512 + p of its array. -/
theorem iblk4 (c : Dev nD) (t : Fin cfg0.N) (p : Fin 512) :
    (iblk m c 4 t : S512x1.Idx → EReal) (ix2 p (0 : Fin 1))
      = (V m c main_v55 : S4096x1.Idx → EReal) (ix2 ⟨t.val / 8 * 512 + p.val, by have := t.isLt; have : cfg0.N = 64 := N_0; omega⟩ (0 : Fin 1)) := by
  unfold iblk
  exact read_blk4 t _ p

/-- The same with the point's first grid coordinate in place of t / 8. -/
theorem iblk4_coords (c : Dev nD) (t : Fin cfg0.N) (p : Fin 512) :
    (iblk m c 4 t : S512x1.Idx → EReal) (ix2 p (0 : Fin 1))
      = (V m c main_v55 : S4096x1.Idx → EReal) (ix2 ⟨(grid0.coords t 0).val * 512 + p.val, by rw [coords0 t]; have := t.isLt; have : cfg0.N = 64 := N_0; omega⟩ (0 : Fin 1)) :=
  (iblk4 m c t p).trans (col_congr (V m c main_v55 : S4096x1.Idx → EReal) (by show t.val / 8 * 512 + p.val = (grid0.coords t 0).val * 512 + p.val; rw [coords0 t]))

/-- Row p of window 5's block at point t is row (t / 8) * 512 + p of its array. -/
theorem iblk5 (c : Dev nD) (t : Fin cfg0.N) (p : Fin 512) :
    (iblk m c 5 t : S512x1.Idx → EReal) (ix2 p (0 : Fin 1))
      = (V m c main_v56 : S4096x1.Idx → EReal) (ix2 ⟨t.val / 8 * 512 + p.val, by have := t.isLt; have : cfg0.N = 64 := N_0; omega⟩ (0 : Fin 1)) := by
  unfold iblk
  exact read_blk5 t _ p

/-- The same with the point's first grid coordinate in place of t / 8. -/
theorem iblk5_coords (c : Dev nD) (t : Fin cfg0.N) (p : Fin 512) :
    (iblk m c 5 t : S512x1.Idx → EReal) (ix2 p (0 : Fin 1))
      = (V m c main_v56 : S4096x1.Idx → EReal) (ix2 ⟨(grid0.coords t 0).val * 512 + p.val, by rw [coords0 t]; have := t.isLt; have : cfg0.N = 64 := N_0; omega⟩ (0 : Fin 1)) :=
  (iblk5 m c t p).trans (col_congr (V m c main_v56 : S4096x1.Idx → EReal) (by show t.val / 8 * 512 + p.val = (grid0.coords t 0).val * 512 + p.val; rw [coords0 t]))

/-- Column q of window 6's block at point t is column (t % 8) * 512 + q of its array. -/
theorem iblk6 (c : Dev nD) (t : Fin cfg0.N) (q : Fin 512) :
    (iblk m c 6 t : S1x512.Idx → BitVec 32) (ix2 (0 : Fin 1) q)
      = (V m c main_v57 : S1x4096.Idx → BitVec 32) (ix2 (0 : Fin 1) ⟨t.val % 8 * 512 + q.val, by omega⟩) := by
  unfold iblk
  exact read_blk6 t _ q

/-- The same with the point's second grid coordinate in place of t % 8. -/
theorem iblk6_coords (c : Dev nD) (t : Fin cfg0.N) (q : Fin 512) :
    (iblk m c 6 t : S1x512.Idx → BitVec 32) (ix2 (0 : Fin 1) q)
      = (V m c main_v57 : S1x4096.Idx → BitVec 32) (ix2 (0 : Fin 1) ⟨(grid0.coords t 1).val * 512 + q.val, by rw [coords1 t]; omega⟩) :=
  (iblk6 m c t q).trans (row_congr (V m c main_v57 : S1x4096.Idx → BitVec 32) (by show t.val % 8 * 512 + q.val = (grid0.coords t 1).val * 512 + q.val; rw [coords1 t]))

/-- Column q of window 7's block at point t is column (t % 8) * 512 + q of its array. -/
theorem iblk7 (c : Dev nD) (t : Fin cfg0.N) (q : Fin 512) :
    (iblk m c 7 t : S1x512.Idx → BitVec 32) (ix2 (0 : Fin 1) q)
      = (V m c main_v58 : S1x4096.Idx → BitVec 32) (ix2 (0 : Fin 1) ⟨t.val % 8 * 512 + q.val, by omega⟩) := by
  unfold iblk
  exact read_blk7 t _ q

/-- The same with the point's second grid coordinate in place of t % 8. -/
theorem iblk7_coords (c : Dev nD) (t : Fin cfg0.N) (q : Fin 512) :
    (iblk m c 7 t : S1x512.Idx → BitVec 32) (ix2 (0 : Fin 1) q)
      = (V m c main_v58 : S1x4096.Idx → BitVec 32) (ix2 (0 : Fin 1) ⟨(grid0.coords t 1).val * 512 + q.val, by rw [coords1 t]; omega⟩) :=
  (iblk7 m c t q).trans (row_congr (V m c main_v58 : S1x4096.Idx → BitVec 32) (by show t.val % 8 * 512 + q.val = (grid0.coords t 1).val * 512 + q.val; rw [coords1 t]))

/-- Column q of window 8's block at point t is column (t % 8) * 512 + q of its array. -/
theorem iblk8 (c : Dev nD) (t : Fin cfg0.N) (q : Fin 512) :
    (iblk m c 8 t : S1x512.Idx → EReal) (ix2 (0 : Fin 1) q)
      = (V m c main_v59 : S1x4096.Idx → EReal) (ix2 (0 : Fin 1) ⟨t.val % 8 * 512 + q.val, by omega⟩) := by
  unfold iblk
  exact read_blk8 t _ q

/-- The same with the point's second grid coordinate in place of t % 8. -/
theorem iblk8_coords (c : Dev nD) (t : Fin cfg0.N) (q : Fin 512) :
    (iblk m c 8 t : S1x512.Idx → EReal) (ix2 (0 : Fin 1) q)
      = (V m c main_v59 : S1x4096.Idx → EReal) (ix2 (0 : Fin 1) ⟨(grid0.coords t 1).val * 512 + q.val, by rw [coords1 t]; omega⟩) :=
  (iblk8 m c t q).trans (row_congr (V m c main_v59 : S1x4096.Idx → EReal) (by show t.val % 8 * 512 + q.val = (grid0.coords t 1).val * 512 + q.val; rw [coords1 t]))

/-- Column q of window 9's block at point t is column (t % 8) * 512 + q of its array. -/
theorem iblk9 (c : Dev nD) (t : Fin cfg0.N) (q : Fin 512) :
    (iblk m c 9 t : S1x512.Idx → EReal) (ix2 (0 : Fin 1) q)
      = (V m c main_v60 : S1x4096.Idx → EReal) (ix2 (0 : Fin 1) ⟨t.val % 8 * 512 + q.val, by omega⟩) := by
  unfold iblk
  exact read_blk9 t _ q

/-- The same with the point's second grid coordinate in place of t % 8. -/
theorem iblk9_coords (c : Dev nD) (t : Fin cfg0.N) (q : Fin 512) :
    (iblk m c 9 t : S1x512.Idx → EReal) (ix2 (0 : Fin 1) q)
      = (V m c main_v60 : S1x4096.Idx → EReal) (ix2 (0 : Fin 1) ⟨(grid0.coords t 1).val * 512 + q.val, by rw [coords1 t]; omega⟩) :=
  (iblk9 m c t q).trans (row_congr (V m c main_v60 : S1x4096.Idx → EReal) (by show t.val % 8 * 512 + q.val = (grid0.coords t 1).val * 512 + q.val; rw [coords1 t]))

/-- Column q of window 10's block at point t is column (t % 8) * 512 + q of its array. -/
theorem iblk10 (c : Dev nD) (t : Fin cfg0.N) (q : Fin 512) :
    (iblk m c 10 t : S1x512.Idx → EReal) (ix2 (0 : Fin 1) q)
      = (V m c main_v61 : S1x4096.Idx → EReal) (ix2 (0 : Fin 1) ⟨t.val % 8 * 512 + q.val, by omega⟩) := by
  unfold iblk
  exact read_blk10 t _ q

/-- The same with the point's second grid coordinate in place of t % 8. -/
theorem iblk10_coords (c : Dev nD) (t : Fin cfg0.N) (q : Fin 512) :
    (iblk m c 10 t : S1x512.Idx → EReal) (ix2 (0 : Fin 1) q)
      = (V m c main_v61 : S1x4096.Idx → EReal) (ix2 (0 : Fin 1) ⟨(grid0.coords t 1).val * 512 + q.val, by rw [coords1 t]; omega⟩) :=
  (iblk10 m c t q).trans (row_congr (V m c main_v61 : S1x4096.Idx → EReal) (by show t.val % 8 * 512 + q.val = (grid0.coords t 1).val * 512 + q.val; rw [coords1 t]))

/-- Column q of window 11's block at point t is column (t % 8) * 512 + q of its array. -/
theorem iblk11 (c : Dev nD) (t : Fin cfg0.N) (q : Fin 512) :
    (iblk m c 11 t : S1x512.Idx → EReal) (ix2 (0 : Fin 1) q)
      = (V m c main_v62 : S1x4096.Idx → EReal) (ix2 (0 : Fin 1) ⟨t.val % 8 * 512 + q.val, by omega⟩) := by
  unfold iblk
  exact read_blk11 t _ q

/-- The same with the point's second grid coordinate in place of t % 8. -/
theorem iblk11_coords (c : Dev nD) (t : Fin cfg0.N) (q : Fin 512) :
    (iblk m c 11 t : S1x512.Idx → EReal) (ix2 (0 : Fin 1) q)
      = (V m c main_v62 : S1x4096.Idx → EReal) (ix2 (0 : Fin 1) ⟨(grid0.coords t 1).val * 512 + q.val, by rw [coords1 t]; omega⟩) :=
  (iblk11 m c t q).trans (row_congr (V m c main_v62 : S1x4096.Idx → EReal) (by show t.val % 8 * 512 + q.val = (grid0.coords t 1).val * 512 + q.val; rw [coords1 t]))

end Cert.KernelIdeal.Blocks

end
-- ==== Proof.LibPairIdxGather.lean ====
/-
  A gather that reads ONE element of a matrix per result element, the row and the column both given by the start indices.

  The operand is a matrix `x : [N, C]`, the start indices an integer array `idx : [E, 2]` whose row `e` is a
  (row, column) pair, the result a vector `[E]`: both operand axes are collapsed (slice sizes `[1, 1]`), the start index
  map is `[0, 1]`, and the index vector lies along axis 1 of the start indices.  Result element `e` is then `x` at row
  `idx[e, 0]` and column `idx[e, 1]`, each read as a signed integer and clamped into its axis (`[0, N − 1]`, `[0, C − 1]`),
  the way a gather clamps every start index.
-/
import Idealize.ShloMosaic.Lib.ValueIdx

noncomputable section

namespace Cert.PairIdxGather

open Idealize.ShloMosaic Idealize.ShloMosaic.ValueIdx

variable {α : Type}

/-- The dimension numbers: operand `[N, C]`, start indices `[E, 2]`, result `[E]`; no offset axis, both operand axes
    collapsed, no batching, start index map `[0, 1]`, index vector along axis 1, slice sizes `[1, 1]`. -/
abbrev pairDims (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The row the gather reads for result element `y`: the word `idx[y, 0]`, signed, clamped into `[0, N − 1]`. -/
theorem operandIdx_row {N C E w : Nat}
    (wf : GatherDims.WF ⟨2, ![N, C]⟩ ⟨2, ![E, 2]⟩ ⟨1, ![E]⟩ [] [0, 1] [] [0, 1] [] 1 ![1, 1])
    (idx : IVec ⟨2, ![E, 2]⟩ w) (y : (⟨1, ![E]⟩ : Shape).Idx) :
    ((pairDims N C E wf).operandIdx y idx 0).val = min (idx (ix2 (y 0) (0 : Fin 2))).toInt.toNat (N - 1) := by
  show (pairDims N C E wf).start y idx 0 + (pairDims N C E wf).batchCoord y 0 + (pairDims N C E wf).offCoord y 0 = _
  have h0 : (0 : Fin 2) ∈ ([0, 1] : List (Fin 2)) := by decide
  rw [GatherDims.batchCoord_eq_zero _ _ _ List.not_mem_nil,
    GatherDims.offCoord_eq_zero _ _ _ (fun h => ((GatherDims.mem_sKept _ _).mp h).1 h0)]
  simp only [Nat.add_zero]
  unfold GatherDims.start
  rw [dif_pos (show (0 : Fin 2) ∈ (pairDims N C E wf).startIndexMap from h0)]
  have hsi : (pairDims N C E wf).siIdx y ⟨List.idxOf (0 : Fin 2) (pairDims N C E wf).startIndexMap,
      List.idxOf_lt_length_iff.2 h0⟩ = ix2 (y 0) (0 : Fin 2) := by
    funext b; refine Fin.ext ?_
    match b with
    | ⟨0, _⟩ => rfl
    | ⟨1, _⟩ => rfl
  rw [hsi]
  rfl

/-- The column the gather reads for result element `y`: the word `idx[y, 1]`, signed, clamped into `[0, C − 1]`. -/
theorem operandIdx_col {N C E w : Nat}
    (wf : GatherDims.WF ⟨2, ![N, C]⟩ ⟨2, ![E, 2]⟩ ⟨1, ![E]⟩ [] [0, 1] [] [0, 1] [] 1 ![1, 1])
    (idx : IVec ⟨2, ![E, 2]⟩ w) (y : (⟨1, ![E]⟩ : Shape).Idx) :
    ((pairDims N C E wf).operandIdx y idx 1).val = min (idx (ix2 (y 0) (1 : Fin 2))).toInt.toNat (C - 1) := by
  show (pairDims N C E wf).start y idx 1 + (pairDims N C E wf).batchCoord y 1 + (pairDims N C E wf).offCoord y 1 = _
  have h1 : (1 : Fin 2) ∈ ([0, 1] : List (Fin 2)) := by decide
  rw [GatherDims.batchCoord_eq_zero _ _ _ List.not_mem_nil,
    GatherDims.offCoord_eq_zero _ _ _ (fun h => ((GatherDims.mem_sKept _ _).mp h).1 h1)]
  simp only [Nat.add_zero]
  unfold GatherDims.start
  rw [dif_pos (show (1 : Fin 2) ∈ (pairDims N C E wf).startIndexMap from h1)]
  have hsi : (pairDims N C E wf).siIdx y ⟨List.idxOf (1 : Fin 2) (pairDims N C E wf).startIndexMap,
      List.idxOf_lt_length_iff.2 h1⟩ = ix2 (y 0) (1 : Fin 2) := by
    funext b; refine Fin.ext ?_
    match b with
    | ⟨0, _⟩ => rfl
    | ⟨1, _⟩ => rfl
  rw [hsi]
  rfl

/-- THE GATHER READ AT `y`: the matrix at the row `idx[y, 0]` and the column `idx[y, 1]`, each read signed and clamped
    into its axis. -/
theorem gather_pair_apply {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (y : (⟨1, ![E]⟩ : Shape).Idx) :
    Host.gather (pairDims N C E wf) x idx y
      = x (ix2 (⟨min (idx (ix2 (y 0) (0 : Fin 2))).toInt.toNat (N - 1), by omega⟩ : Fin N)
            (⟨min (idx (ix2 (y 0) (1 : Fin 2))).toInt.toNat (C - 1), by omega⟩ : Fin C)) := by
  unfold Host.gather
  congr 1
  funext a
  refine Fin.ext ?_
  match a with
  | ⟨0, _⟩ => exact operandIdx_row wf idx y
  | ⟨1, _⟩ => exact operandIdx_col wf idx y

/-- The same with the row and the column NAMED: whenever `r` is the clamped word `idx[y, 0]` and `c` the clamped word
    `idx[y, 1]`, the gather's element `y` is the matrix at `(r, c)`. -/
theorem gather_pair_read {N C E w : Nat}
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (y : (⟨1, ![E]⟩ : Shape).Idx) (r : Fin N) (c : Fin C)
    (hr : min (idx (ix2 (y 0) (0 : Fin 2))).toInt.toNat (N - 1) = r.val)
    (hc : min (idx (ix2 (y 0) (1 : Fin 2))).toInt.toNat (C - 1) = c.val) :
    Host.gather (pairDims N C E wf) x idx y = x (ix2 r c) := by
  unfold Host.gather
  congr 1
  funext a
  refine Fin.ext ?_
  match a with
  | ⟨0, _⟩ => exact (operandIdx_row wf idx y).trans hr
  | ⟨1, _⟩ => exact (operandIdx_col wf idx y).trans hc

end Cert.PairIdxGather

end
-- ==== Proof.KHost.lean ====
/-
  The arrays the kernel program hands to its tiled region, read at an index.

  Before the region the program turns its arguments — node positions `pos[0, n, k]` and an edge list `ei[r, e]` — into
  six vectors over the 4096 edges, each laid out once as a column `[4096, 1]` and once as a row `[1, 4096]`: the source
  and the destination word of an edge, the two coordinates of the source node's position, and the two coordinates of
  the destination node's position minus the source node's.  A node word is turned into a row of the position matrix
  by a gather whose start index is the pair (word with 4096 added when negative, column 0 or 1), read signed and
  clamped into the matrix.  Read at edge `e`, the twelve arrays are therefore the fields `s d px py dx dy` of the
  segments `segsOf pos ei` at `e`.

  The first part names the closed terms over `pos` and `ei` and reads each at an index, one operation kind at a time;
  the second part says that each of the twelve arrays, as the region finds it, is its closed term of the program's
  arguments; the third part puts the two together.
-/
import proofs.«132866_j46480136077416_1_alg».proof.Proof.Gen.KernelIdeal.Frame
import proofs.«132866_j46480136077416_1_alg».proof.Proof.PairTerm
import proofs.«132866_j46480136077416_1_alg».proof.Proof.LibPairIdxGather
import Idealize.ShloMosaic.Lib.Pipeline.Value
import Idealize.ShloMosaic.Lib.ValueIdx

noncomputable section

namespace Cert.KernelIdeal.HostRead

open Cert.KernelIdeal Cert.KernelIdeal.Gen Cert.PairTerm Idealize.ShloMosaic Idealize.ShloMosaic.ValueIdx Idealize.SL.Sem
open Idealize.ShloMosaic.StableHlo

/-! ## The closed terms, and each read at an index -/

section Terms
variable {α : Type}

/-- the positions as a matrix `[4096, 2]` -/
def kPos (pos : S1x4096x2.Idx → EReal) : S4096x2.Idx → EReal := shapeCast S4096x2 pos shapeCasts_S1x4096x2_S4096x2
/-- the source words: row 0 of the edge list, as a vector -/
def kSrc (ei : S2x4096.Idx → BitVec 32) : S4096.Idx → BitVec 32 :=
  shapeCast S4096 (extractStridedSlice S1x4096 ![0, 0] ei slices_S2x4096_S1x4096_0_0) shapeCasts_S1x4096_S4096
/-- the destination words: row 1 of the edge list, as a vector -/
def kDst (ei : S2x4096.Idx → BitVec 32) : S4096.Idx → BitVec 32 :=
  shapeCast S4096 (extractStridedSlice S1x4096 ![1, 0] ei slices_S2x4096_S1x4096_1_0) shapeCasts_S1x4096_S4096
/-- a vector of words with 4096 added to the negative ones -/
def kWrap (w : S4096.Idx → BitVec 32) : S4096.Idx → BitVec 32 :=
  select (cmpi .slt w (broadcastInDim S4096 ![] bcast_S_S4096 (constantI S_ 32 0#32)))
    (addi w (broadcastInDim S4096 ![] bcast_S_S4096 (constantI S_ 32 4096#32))) w
/-- the start indices `[4096, 2]`: column 0 the wrapped words, column 1 the constant `k` -/
def kStart (w : S4096.Idx → BitVec 32) (k : BitVec 32) : S4096x2.Idx → BitVec 32 :=
  concatenate S4096x2 1
    [⟨S4096x1, broadcastInDim S4096x1 ![0] bcast_S4096_S4096x1_0 (kWrap w)⟩,
     ⟨S4096x1, broadcastInDim S4096x1 ![0] bcast_S4096_S4096x1_0
        (id (broadcastInDim S4096 ![] bcast_S_S4096 (constantI S_ 32 k)))⟩]
    concatenates_S4096x1_S4096x1_S4096x2_d1
/-- coordinate `k` of the positions of the nodes the words name -/
def kGather (pos : S1x4096x2.Idx → EReal) (w : S4096.Idx → BitVec 32) (k : BitVec 32) : S4096.Idx → EReal :=
  Host.gather gather_S4096x2_S4096x2_S4096_n_01_n_n_01_1_11 (kPos pos) (kStart w k)
/-- coordinate `k` of destination position minus source position -/
def kDir (pos : S1x4096x2.Idx → EReal) (ei : S2x4096.Idx → BitVec 32) (k : BitVec 32) : S4096.Idx → EReal :=
  subf (F := Ideal) (φ := .f32) (kGather pos (kDst ei) k) (kGather pos (kSrc ei) k)
/-- a vector as a column -/
def kCol (x : S4096.Idx → α) : S4096x1.Idx → α := shapeCast S4096x1 x shapeCasts_S4096_S4096x1
/-- a vector as a row -/
def kRow (x : S4096.Idx → α) : S1x4096.Idx → α := shapeCast S1x4096 x shapeCasts_S4096_S1x4096

theorem kPos_apply (pos : S1x4096x2.Idx → EReal) (n : Fin 4096) (k : Fin 2) :
    kPos pos (ix2 n k) = pos (ix3 (0 : Fin 1) n k) := by
  unfold kPos
  exact shapeCast_apply pos shapeCasts_S1x4096x2_S4096x2 (ix2 n k) (ix3 (0 : Fin 1) n k)
    (by rewrite [Shape.rowMajor_val_three, Shape.rowMajor_val_two]
        show (0 * 4096 + n.val) * 2 + k.val = n.val * 2 + k.val; omega)

theorem kSrc_apply (ei : S2x4096.Idx → BitVec 32) (e : Fin 4096) :
    kSrc ei (ix1 e) = ei (ix2 (0 : Fin 2) e) := by
  unfold kSrc
  refine (shapeCast_apply _ shapeCasts_S1x4096_S4096 (ix1 e) (ix2 (0 : Fin 1) e)
    (by rewrite [Shape.rowMajor_val_two, Shape.rowMajor_val_one]
        show 0 * 4096 + e.val = e.val; omega)).trans ?_
  exact extractStridedSlice_apply ![0, 0] ei slices_S2x4096_S1x4096_0_0 (ix2 (0 : Fin 1) e) (ix2 (0 : Fin 2) e)
    (fun a => match a with
      | ⟨0, _⟩ => by show 0 = 0 + 0; rfl
      | ⟨1, _⟩ => by show e.val = 0 + e.val; omega)

theorem kDst_apply (ei : S2x4096.Idx → BitVec 32) (e : Fin 4096) :
    kDst ei (ix1 e) = ei (ix2 (1 : Fin 2) e) := by
  unfold kDst
  refine (shapeCast_apply _ shapeCasts_S1x4096_S4096 (ix1 e) (ix2 (0 : Fin 1) e)
    (by rewrite [Shape.rowMajor_val_two, Shape.rowMajor_val_one]
        show 0 * 4096 + e.val = e.val; omega)).trans ?_
  exact extractStridedSlice_apply ![1, 0] ei slices_S2x4096_S1x4096_1_0 (ix2 (0 : Fin 1) e) (ix2 (1 : Fin 2) e)
    (fun a => match a with
      | ⟨0, _⟩ => by show 1 = 1 + 0; rfl
      | ⟨1, _⟩ => by show e.val = 0 + e.val; omega)

theorem kWrap_apply (w : S4096.Idx → BitVec 32) (i : S4096.Idx) : kWrap w i = wrap (w i) := rfl

theorem kStart_apply_zero (w : S4096.Idx → BitVec 32) (k : BitVec 32) (e : Fin 4096) :
    kStart w k (ix2 e (0 : Fin 2)) = wrap (w (ix1 e)) := by
  unfold kStart
  refine (concatenate_pair_apply_left (t := S4096x2) (s₁ := S4096x1) (s₂ := S4096x1) (1 : Fin 2) _ _ concatenates_S4096x1_S4096x1_S4096x2_d1 (ix2 e (0 : Fin 2)) rfl
    (ix2 e (0 : Fin 1)) (fun b => match b with
      | ⟨0, _⟩ => rfl
      | ⟨1, _⟩ => rfl)).trans ?_
  refine (broadcastInDim_apply _ bcast_S4096_S4096x1_0 _ (ix2 e (0 : Fin 1)) (ix1 e) (fun a => match a with
    | ⟨0, _⟩ => by show e.val = if (4096 : Nat) = 1 then 0 else e.val; rw [if_neg (by decide)])).trans ?_
  exact kWrap_apply w _

theorem kStart_apply_one (w : S4096.Idx → BitVec 32) (k : BitVec 32) (e : Fin 4096) :
    kStart w k (ix2 e (1 : Fin 2)) = k := by
  unfold kStart
  refine (concatenate_pair_apply_right (t := S4096x2) (s₁ := S4096x1) (s₂ := S4096x1) (1 : Fin 2) _ _ concatenates_S4096x1_S4096x1_S4096x2_d1 (ix2 e (1 : Fin 2)) rfl rfl
    (ix2 e (0 : Fin 1)) (fun b => match b with
      | ⟨0, _⟩ => fun _ => rfl
      | ⟨1, _⟩ => fun h => absurd rfl h) rfl).trans ?_
  rfl

/-- The gather at edge `e`: the position of the node the word names, at the column the constant names. -/
theorem kGather_apply (pos : S1x4096x2.Idx → EReal) (w : S4096.Idx → BitVec 32) (kk : BitVec 32) (k : Fin 2)
    (hk : min kk.toInt.toNat (2 - 1) = k.val) (e : Fin 4096) :
    kGather pos w kk (ix1 e) = pos (ix3 (0 : Fin 1) (node (w (ix1 e))) k) := by
  unfold kGather
  refine (Cert.PairIdxGather.gather_pair_read (N := 4096) (C := 2) (E := 4096)
    gather_S4096x2_S4096x2_S4096_n_01_n_n_01_1_11_wf (kPos pos) (kStart w kk) (ix1 e) (node (w (ix1 e))) k ?_ ?_).trans ?_
  · show min (kStart w kk (ix2 e (0 : Fin 2))).toInt.toNat (4096 - 1) = min (wrap (w (ix1 e))).toInt.toNat 4095
    rw [kStart_apply_zero]
  · show min (kStart w kk (ix2 e (1 : Fin 2))).toInt.toNat (2 - 1) = k.val
    rw [kStart_apply_one]; exact hk
  · exact kPos_apply pos _ _

theorem kCol_apply (x : S4096.Idx → α) (e : Fin 4096) : kCol x (ix2 e (0 : Fin 1)) = x (ix1 e) := by
  unfold kCol
  exact shapeCast_apply x shapeCasts_S4096_S4096x1 (ix2 e (0 : Fin 1)) (ix1 e)
    (by rewrite [Shape.rowMajor_val_one, Shape.rowMajor_val_two]
        show e.val = e.val * 1 + 0; omega)

theorem kRow_apply (x : S4096.Idx → α) (e : Fin 4096) : kRow x (ix2 (0 : Fin 1) e) = x (ix1 e) := by
  unfold kRow
  exact shapeCast_apply x shapeCasts_S4096_S1x4096 (ix2 (0 : Fin 1) e) (ix1 e)
    (by rewrite [Shape.rowMajor_val_one, Shape.rowMajor_val_two]
        show e.val = 0 * 4096 + e.val; omega)

/-! ### The six vectors at edge `e` are the segments' fields -/

variable (pos : S1x4096x2.Idx → EReal) (ei : S2x4096.Idx → BitVec 32) (e : Fin 4096)

theorem src_read : kSrc ei (ix1 e) = (segsOf pos ei).s e := kSrc_apply ei e
theorem dst_read : kDst ei (ix1 e) = (segsOf pos ei).d e := kDst_apply ei e
theorem px_read : kGather pos (kSrc ei) 0#32 (ix1 e) = (segsOf pos ei).px e := by
  rw [kGather_apply pos _ 0#32 (0 : Fin 2) (by decide), kSrc_apply]; rfl
theorem py_read : kGather pos (kSrc ei) 1#32 (ix1 e) = (segsOf pos ei).py e := by
  rw [kGather_apply pos _ 1#32 (1 : Fin 2) (by decide), kSrc_apply]; rfl
theorem dx_read : kDir pos ei 0#32 (ix1 e) = (segsOf pos ei).dx e := by
  show kGather pos (kDst ei) 0#32 (ix1 e) - kGather pos (kSrc ei) 0#32 (ix1 e) = _
  rw [kGather_apply pos _ 0#32 (0 : Fin 2) (by decide), kGather_apply pos _ 0#32 (0 : Fin 2) (by decide),
    kSrc_apply, kDst_apply]; rfl
theorem dy_read : kDir pos ei 1#32 (ix1 e) = (segsOf pos ei).dy e := by
  show kGather pos (kDst ei) 1#32 (ix1 e) - kGather pos (kSrc ei) 1#32 (ix1 e) = _
  rw [kGather_apply pos _ 1#32 (1 : Fin 2) (by decide), kGather_apply pos _ 1#32 (1 : Fin 2) (by decide),
    kSrc_apply, kDst_apply]; rfl

end Terms

/-! ## Each array, as the region finds it, is its closed term of the program's arguments -/

variable (m : (ℓ : Loc nD τ sig) → Buf (Elt Ideal) ℓ)

theorem V_v51_eq (c : Dev nD) :
    (V m c main_v51 : S4096x1.Idx → BitVec 32) = kCol (kSrc (m ((c.tc : Thread nD τ).loc main_arg2))) := by
  show StableHlo.after hostOps0 (fun b => m (c, b)) (Proc.devRef .tc main_v51) = _
  after_results_simp
  rfl

theorem V_v52_eq (c : Dev nD) :
    (V m c main_v52 : S4096x1.Idx → BitVec 32) = kCol (kDst (m ((c.tc : Thread nD τ).loc main_arg2))) := by
  show StableHlo.after hostOps0 (fun b => m (c, b)) (Proc.devRef .tc main_v52) = _
  after_results_simp
  rfl

theorem V_v53_eq (c : Dev nD) :
    (V m c main_v53 : S4096x1.Idx → EReal) = kCol (kGather (m ((c.tc : Thread nD τ).loc main_arg0)) (kSrc (m ((c.tc : Thread nD τ).loc main_arg2))) 0#32) := by
  show StableHlo.after hostOps0 (fun b => m (c, b)) (Proc.devRef .tc main_v53) = _
  after_results_simp
  rfl

theorem V_v54_eq (c : Dev nD) :
    (V m c main_v54 : S4096x1.Idx → EReal) = kCol (kGather (m ((c.tc : Thread nD τ).loc main_arg0)) (kSrc (m ((c.tc : Thread nD τ).loc main_arg2))) 1#32) := by
  show StableHlo.after hostOps0 (fun b => m (c, b)) (Proc.devRef .tc main_v54) = _
  after_results_simp
  rfl

theorem V_v55_eq (c : Dev nD) :
    (V m c main_v55 : S4096x1.Idx → EReal) = kCol (kDir (m ((c.tc : Thread nD τ).loc main_arg0)) (m ((c.tc : Thread nD τ).loc main_arg2)) 0#32) := by
  show StableHlo.after hostOps0 (fun b => m (c, b)) (Proc.devRef .tc main_v55) = _
  after_results_simp
  rfl

theorem V_v56_eq (c : Dev nD) :
    (V m c main_v56 : S4096x1.Idx → EReal) = kCol (kDir (m ((c.tc : Thread nD τ).loc main_arg0)) (m ((c.tc : Thread nD τ).loc main_arg2)) 1#32) := by
  show StableHlo.after hostOps0 (fun b => m (c, b)) (Proc.devRef .tc main_v56) = _
  after_results_simp
  rfl

theorem V_v57_eq (c : Dev nD) :
    (V m c main_v57 : S1x4096.Idx → BitVec 32) = kRow (kSrc (m ((c.tc : Thread nD τ).loc main_arg2))) := by
  show StableHlo.after hostOps0 (fun b => m (c, b)) (Proc.devRef .tc main_v57) = _
  after_results_simp
  rfl

theorem V_v58_eq (c : Dev nD) :
    (V m c main_v58 : S1x4096.Idx → BitVec 32) = kRow (kDst (m ((c.tc : Thread nD τ).loc main_arg2))) := by
  show StableHlo.after hostOps0 (fun b => m (c, b)) (Proc.devRef .tc main_v58) = _
  after_results_simp
  rfl

theorem V_v59_eq (c : Dev nD) :
    (V m c main_v59 : S1x4096.Idx → EReal) = kRow (kGather (m ((c.tc : Thread nD τ).loc main_arg0)) (kSrc (m ((c.tc : Thread nD τ).loc main_arg2))) 0#32) := by
  show StableHlo.after hostOps0 (fun b => m (c, b)) (Proc.devRef .tc main_v59) = _
  after_results_simp
  rfl

theorem V_v60_eq (c : Dev nD) :
    (V m c main_v60 : S1x4096.Idx → EReal) = kRow (kGather (m ((c.tc : Thread nD τ).loc main_arg0)) (kSrc (m ((c.tc : Thread nD τ).loc main_arg2))) 1#32) := by
  show StableHlo.after hostOps0 (fun b => m (c, b)) (Proc.devRef .tc main_v60) = _
  after_results_simp
  rfl

theorem V_v61_eq (c : Dev nD) :
    (V m c main_v61 : S1x4096.Idx → EReal) = kRow (kDir (m ((c.tc : Thread nD τ).loc main_arg0)) (m ((c.tc : Thread nD τ).loc main_arg2)) 0#32) := by
  show StableHlo.after hostOps0 (fun b => m (c, b)) (Proc.devRef .tc main_v61) = _
  after_results_simp
  rfl

theorem V_v62_eq (c : Dev nD) :
    (V m c main_v62 : S1x4096.Idx → EReal) = kRow (kDir (m ((c.tc : Thread nD τ).loc main_arg0)) (m ((c.tc : Thread nD τ).loc main_arg2)) 1#32) := by
  show StableHlo.after hostOps0 (fun b => m (c, b)) (Proc.devRef .tc main_v62) = _
  after_results_simp
  rfl

/-! ## The twelve arrays read at an edge -/

/-- the segments drawn by the program's arguments on core `c` -/
def segsK (c : Dev nD) : Segs :=
  segsOf (m ((c.tc : Thread nD τ).loc main_arg0)) (m ((c.tc : Thread nD τ).loc main_arg2))

theorem V_v51 (c : Dev nD) (e : Fin 4096) :
    (V m c main_v51 : S4096x1.Idx → BitVec 32) (ix2 e (0 : Fin 1)) = (segsK m c).s e := by
  rw [V_v51_eq]
  exact (kCol_apply _ e).trans (src_read (m ((c.tc : Thread nD τ).loc main_arg0)) (m ((c.tc : Thread nD τ).loc main_arg2)) e)

theorem V_v52 (c : Dev nD) (e : Fin 4096) :
    (V m c main_v52 : S4096x1.Idx → BitVec 32) (ix2 e (0 : Fin 1)) = (segsK m c).d e := by
  rw [V_v52_eq]
  exact (kCol_apply _ e).trans (dst_read (m ((c.tc : Thread nD τ).loc main_arg0)) (m ((c.tc : Thread nD τ).loc main_arg2)) e)

theorem V_v53 (c : Dev nD) (e : Fin 4096) :
    (V m c main_v53 : S4096x1.Idx → EReal) (ix2 e (0 : Fin 1)) = (segsK m c).px e := by
  rw [V_v53_eq]
  exact (kCol_apply _ e).trans (px_read (m ((c.tc : Thread nD τ).loc main_arg0)) (m ((c.tc : Thread nD τ).loc main_arg2)) e)

theorem V_v54 (c : Dev nD) (e : Fin 4096) :
    (V m c main_v54 : S4096x1.Idx → EReal) (ix2 e (0 : Fin 1)) = (segsK m c).py e := by
  rw [V_v54_eq]
  exact (kCol_apply _ e).trans (py_read (m ((c.tc : Thread nD τ).loc main_arg0)) (m ((c.tc : Thread nD τ).loc main_arg2)) e)

theorem V_v55 (c : Dev nD) (e : Fin 4096) :
    (V m c main_v55 : S4096x1.Idx → EReal) (ix2 e (0 : Fin 1)) = (segsK m c).dx e := by
  rw [V_v55_eq]
  exact (kCol_apply _ e).trans (dx_read (m ((c.tc : Thread nD τ).loc main_arg0)) (m ((c.tc : Thread nD τ).loc main_arg2)) e)

theorem V_v56 (c : Dev nD) (e : Fin 4096) :
    (V m c main_v56 : S4096x1.Idx → EReal) (ix2 e (0 : Fin 1)) = (segsK m c).dy e := by
  rw [V_v56_eq]
  exact (kCol_apply _ e).trans (dy_read (m ((c.tc : Thread nD τ).loc main_arg0)) (m ((c.tc : Thread nD τ).loc main_arg2)) e)

theorem V_v57 (c : Dev nD) (e : Fin 4096) :
    (V m c main_v57 : S1x4096.Idx → BitVec 32) (ix2 (0 : Fin 1) e) = (segsK m c).s e := by
  rw [V_v57_eq]
  exact (kRow_apply _ e).trans (src_read (m ((c.tc : Thread nD τ).loc main_arg0)) (m ((c.tc : Thread nD τ).loc main_arg2)) e)

theorem V_v58 (c : Dev nD) (e : Fin 4096) :
    (V m c main_v58 : S1x4096.Idx → BitVec 32) (ix2 (0 : Fin 1) e) = (segsK m c).d e := by
  rw [V_v58_eq]
  exact (kRow_apply _ e).trans (dst_read (m ((c.tc : Thread nD τ).loc main_arg0)) (m ((c.tc : Thread nD τ).loc main_arg2)) e)

theorem V_v59 (c : Dev nD) (e : Fin 4096) :
    (V m c main_v59 : S1x4096.Idx → EReal) (ix2 (0 : Fin 1) e) = (segsK m c).px e := by
  rw [V_v59_eq]
  exact (kRow_apply _ e).trans (px_read (m ((c.tc : Thread nD τ).loc main_arg0)) (m ((c.tc : Thread nD τ).loc main_arg2)) e)

theorem V_v60 (c : Dev nD) (e : Fin 4096) :
    (V m c main_v60 : S1x4096.Idx → EReal) (ix2 (0 : Fin 1) e) = (segsK m c).py e := by
  rw [V_v60_eq]
  exact (kRow_apply _ e).trans (py_read (m ((c.tc : Thread nD τ).loc main_arg0)) (m ((c.tc : Thread nD τ).loc main_arg2)) e)

theorem V_v61 (c : Dev nD) (e : Fin 4096) :
    (V m c main_v61 : S1x4096.Idx → EReal) (ix2 (0 : Fin 1) e) = (segsK m c).dx e := by
  rw [V_v61_eq]
  exact (kRow_apply _ e).trans (dx_read (m ((c.tc : Thread nD τ).loc main_arg0)) (m ((c.tc : Thread nD τ).loc main_arg2)) e)

theorem V_v62 (c : Dev nD) (e : Fin 4096) :
    (V m c main_v62 : S1x4096.Idx → EReal) (ix2 (0 : Fin 1) e) = (segsK m c).dy e := by
  rw [V_v62_eq]
  exact (kRow_apply _ e).trans (dy_read (m ((c.tc : Thread nD τ).loc main_arg0)) (m ((c.tc : Thread nD τ).loc main_arg2)) e)

end Cert.KernelIdeal.HostRead

end
-- ==== Proof.LibGridSum.lean ====
/-
  Sums over a square cut into square tiles, over any additive commutative monoid (no subtraction and no cancellation is
  used, so every statement holds where infinite values are allowed).

  An index below 4096 is a tile number a below 8 and a position p below 512, I = a·512 + p; a point t below 64 of an
  8 x 8 grid is the pair (t / 8, t % 8).  So a double sum over 4096 x 4096 index pairs is the sum over the 64 grid points
  of the double sum over the 512 x 512 pairs of the point's tile.  An accumulator that starts from zero and adds one
  tile's sum per grid point holds, after the last point, that whole double sum.
-/
import Mathlib.Algebra.BigOperators.Fin
import Mathlib.Algebra.BigOperators.Group.Finset.Basic
import Mathlib.Logic.Equiv.Fin.Basic

open scoped BigOperators

namespace Cert.GridSum

variable {M : Type*} [AddCommMonoid M]

/-- position p of tile a lies below 4096 -/
theorem tile_lt (a : Fin 8) (p : Fin 512) : a.val * 512 + p.val < 4096 := by
  have := a.isLt; have := p.isLt; omega

/-- a sum over 4096 indices is the sum over 8 tiles of 512 -/
theorem sum_split (f : Fin 4096 → M) :
    ∑ I, f I = ∑ a : Fin 8, ∑ p : Fin 512, f ⟨a.val * 512 + p.val, tile_lt a p⟩ := by
  rw [← Equiv.sum_comp (finProdFinEquiv : Fin 8 × Fin 512 ≃ Fin 4096) f, Fintype.sum_prod_type]
  refine Finset.sum_congr rfl fun a _ => Finset.sum_congr rfl fun p _ => congrArg f (Fin.ext ?_)
  show (finProdFinEquiv (a, p)).val = a.val * 512 + p.val
  rw [finProdFinEquiv_apply_val]
  show p.val + 512 * a.val = a.val * 512 + p.val
  omega

/-- the two coordinates of a grid point lie below 8 -/
theorem div_lt (t : Fin 64) : t.val / 8 < 8 := by have := t.isLt; omega
theorem mod_lt (t : Fin 64) : t.val % 8 < 8 := by omega

/-- a sum over the 64 grid points is the double sum over the two coordinates -/
theorem sum_grid (g : Fin 8 → Fin 8 → M) :
    ∑ t : Fin 64, g ⟨t.val / 8, div_lt t⟩ ⟨t.val % 8, mod_lt t⟩ = ∑ a : Fin 8, ∑ b : Fin 8, g a b := by
  rw [← Equiv.sum_comp (finProdFinEquiv : Fin 8 × Fin 8 ≃ Fin 64) (fun t => g ⟨t.val / 8, div_lt t⟩ ⟨t.val % 8, mod_lt t⟩),
    Fintype.sum_prod_type]
  refine Finset.sum_congr rfl fun a _ => Finset.sum_congr rfl fun b _ => ?_
  have h : (finProdFinEquiv (a, b) : Fin 64).val = b.val + 8 * a.val := finProdFinEquiv_apply_val (a, b)
  have ha : (finProdFinEquiv (a, b) : Fin 64).val / 8 = a.val := by rw [h]; have := b.isLt; omega
  have hb : (finProdFinEquiv (a, b) : Fin 64).val % 8 = b.val := by rw [h]; have := b.isLt; omega
  congr 1
  · exact Fin.ext ha
  · exact Fin.ext hb

/-- position p of the tile row of point t, and position q of its tile column, lie below 4096 -/
theorem row_lt (t : Fin 64) (p : Fin 512) : t.val / 8 * 512 + p.val < 4096 := by
  have := t.isLt; have := p.isLt; omega
theorem col_lt (t : Fin 64) (q : Fin 512) : t.val % 8 * 512 + q.val < 4096 := by
  have := p_dummy t q; omega
where p_dummy (t : Fin 64) (q : Fin 512) : q.val < 512 := q.isLt

/-- THE SQUARE IN TILES: the double sum over 4096 x 4096 is the sum over the 64 grid points of the point's tile. -/
theorem sum_square (f : Fin 4096 → Fin 4096 → M) :
    ∑ I, ∑ J, f I J
      = ∑ t : Fin 64, ∑ p : Fin 512, ∑ q : Fin 512, f ⟨t.val / 8 * 512 + p.val, row_lt t p⟩ ⟨t.val % 8 * 512 + q.val, col_lt t q⟩ := by
  rw [sum_split (fun I => ∑ J, f I J)]
  have h1 : ∀ (a : Fin 8) (p : Fin 512), ∑ J, f ⟨a.val * 512 + p.val, tile_lt a p⟩ J
      = ∑ b : Fin 8, ∑ q : Fin 512, f ⟨a.val * 512 + p.val, tile_lt a p⟩ ⟨b.val * 512 + q.val, tile_lt b q⟩ :=
    fun a p => sum_split _
  simp only [h1]
  have h2 : ∀ a : Fin 8, ∑ p : Fin 512, ∑ b : Fin 8, ∑ q : Fin 512, f ⟨a.val * 512 + p.val, tile_lt a p⟩ ⟨b.val * 512 + q.val, tile_lt b q⟩
      = ∑ b : Fin 8, ∑ p : Fin 512, ∑ q : Fin 512, f ⟨a.val * 512 + p.val, tile_lt a p⟩ ⟨b.val * 512 + q.val, tile_lt b q⟩ :=
    fun a => Finset.sum_comm
  simp only [h2]
  exact (sum_grid (fun a b => ∑ p : Fin 512, ∑ q : Fin 512, f ⟨a.val * 512 + p.val, tile_lt a p⟩ ⟨b.val * 512 + q.val, tile_lt b q⟩)).symm

/-- A RUNNING TOTAL: if A 0 is 0 plus S 0 and, below the bound N, A (n + 1) is A n plus S (n + 1), then for n below N,
    A n is the sum of S over 0 … n. -/
theorem running_total (N : ℕ) (S A : ℕ → M) (h0 : A 0 = 0 + S 0) (hs : ∀ n, n + 1 < N → A (n + 1) = A n + S (n + 1))
    (n : ℕ) (hn : n < N) : A n = ∑ j ∈ Finset.range (n + 1), S j := by
  induction n with
  | zero => rw [h0, zero_add, Finset.sum_range_one]
  | succ n ih =>
    rw [hs n hn, ih (Nat.lt_of_succ_lt hn)]
    exact (Finset.sum_range_succ S (n + 1)).symm

/-- the sum of S over 0 … 63 is the sum over the 64 grid points -/
theorem range_64 (S : ℕ → M) : ∑ j ∈ Finset.range (63 + 1), S j = ∑ t : Fin 64, S t.val :=
  (Fin.sum_univ_eq_sum_range S 64).symm

end Cert.GridSum
-- ==== Proof.KAccum.lean ====
/-
  The kernel's accumulators over the grid.

  Grid point t (0 … 63) is the tile with tile row t / 8 and tile column t % 8: the 512 x 512 segment pairs (I, J) with
  I = (t / 8)·512 + p, J = (t % 8)·512 + q.  One run of the body adds to the sum accumulator the sum of the pair terms
  of that tile, and to the count accumulator the sum of the pair counts of that tile (the body's arithmetic read at an
  index, the blocks read where they sit in the per-segment arrays, the per-segment arrays read off the arguments).
  The accumulators start from zero at point 0, so after point n they hold the sums over the tiles 0 … n (induction on
  the point), after point 63 the double sums over all 4096 x 4096 pairs (a square cut into 64 tiles), and the output
  the last point stores is the loss of the drawing.
-/
import proofs.«132866_j46480136077416_1_alg».proof.Proof.KPieces
import proofs.«132866_j46480136077416_1_alg».proof.Proof.KTile
import proofs.«132866_j46480136077416_1_alg».proof.Proof.KBlocks
import proofs.«132866_j46480136077416_1_alg».proof.Proof.KHost
import proofs.«132866_j46480136077416_1_alg».proof.Proof.LibGridSum

set_option pp.maxSteps 40000
set_option pp.deepTerms false

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.PairTerm Cert.KernelIdeal.Pieces Cert.KernelIdeal.Tile
  Cert.KernelIdeal.Blocks Cert.KernelIdeal.HostRead

variable (m : (ℓ : Loc nD τ sig) → Buf (Elt Ideal) ℓ)

theorem N64 : cfg0.N = 64 := N_0

/-- the segment index of position p in the tile row of point t -/
def rowOf (t : Fin cfg0.N) (p : Fin 512) : Fin 4096 :=
  ⟨t.val / 8 * 512 + p.val, by have := t.isLt; have : cfg0.N = 64 := N_0; have := p.isLt; omega⟩
/-- the segment index of position q in the tile column of point t -/
def colOf (t : Fin cfg0.N) (q : Fin 512) : Fin 4096 :=
  ⟨t.val % 8 * 512 + q.val, by have := q.isLt; omega⟩

/-- what the tile of point t adds to the sum accumulator -/
def tsum (c : Dev nD) (t : Fin cfg0.N) : EReal :=
  ∑ p : Fin 512, ∑ q : Fin 512, pairTerm (segsK m c) (rowOf t p) (colOf t q)
/-- what the tile of point t adds to the count accumulator -/
def tcnt (c : Dev nD) (t : Fin cfg0.N) : EReal :=
  ∑ p : Fin 512, ∑ q : Fin 512, pairCnt (segsK m c) (rowOf t p) (colOf t q)

/-- the grid coordinates of point t -/
theorem coord0 : ∀ t : Fin cfg0.N, (grid0.coords t 0).val = t.val / 8 :=
  (by decide +kernel : ∀ t : Fin grid0.N, (grid0.coords t 0).val = t.val / 8)
theorem coord1 : ∀ t : Fin cfg0.N, (grid0.coords t 1).val = t.val % 8 :=
  (by decide +kernel : ∀ t : Fin grid0.N, (grid0.coords t 1).val = t.val % 8)

/-- ONE RUN OF THE BODY, THE SUM: the accumulator's entry plus the tile's pair terms. -/
theorem upd_sum (c : Dev nD) (t : Fin cfg0.N) (xs : Vec Ideal S1x1 .f32) :
    k0_pay1 (F := Ideal)
        (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
        (bodyVal (F := Ideal) (iblk m c 2 t) (iblk m c 3 t) (iblk m c 4 t) (iblk m c 5 t) (iblk m c 8 t) (iblk m c 9 t) (iblk m c 10 t) (iblk m c 11 t)) (Scalar.ofBits .f32 0x00000000#32) xs (ix2 (0 : Fin 1) (0 : Fin 1))
      = xs (ix2 (0 : Fin 1) (0 : Fin 1)) + tsum m c t := by
  have hN : t.val < 64 := lt_of_lt_of_eq t.isLt N_0
  refine (tile_sum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (grid0.coords t 0).val (grid0.coords t 1).val
    (by rw [coord0]; omega) (by rw [coord1]; omega) xs).trans ?_
  refine congrArg (xs (ix2 (0 : Fin 1) (0 : Fin 1)) + ·) ?_
  refine Finset.sum_congr rfl fun p _ => Finset.sum_congr rfl fun q _ => ?_
  rw [iblk0 m c t p, iblk1 m c t p, iblk2 m c t p, iblk3 m c t p, iblk4 m c t p, iblk5 m c t p,
    iblk6 m c t q, iblk7 m c t q, iblk8 m c t q, iblk9 m c t q, iblk10 m c t q, iblk11 m c t q,
    V_v51, V_v52, V_v53, V_v54, V_v55, V_v56, V_v57, V_v58, V_v59, V_v60, V_v61, V_v62, coord0, coord1]
  rfl

/-- ONE RUN OF THE BODY, THE COUNT. -/
theorem upd_cnt (c : Dev nD) (t : Fin cfg0.N) (xs : Vec Ideal S1x1 .f32) :
    k0_pay2 (F := Ideal)
        (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
        xs (ix2 (0 : Fin 1) (0 : Fin 1))
      = xs (ix2 (0 : Fin 1) (0 : Fin 1)) + tcnt m c t := by
  have hN : t.val < 64 := lt_of_lt_of_eq t.isLt N_0
  refine (tile_cnt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (grid0.coords t 0).val (grid0.coords t 1).val
    (by rw [coord0]; omega) (by rw [coord1]; omega) xs).trans ?_
  refine congrArg (xs (ix2 (0 : Fin 1) (0 : Fin 1)) + ·) ?_
  refine Finset.sum_congr rfl fun p _ => Finset.sum_congr rfl fun q _ => ?_
  rw [iblk0 m c t p, iblk1 m c t p, iblk2 m c t p, iblk3 m c t p, iblk4 m c t p, iblk5 m c t p,
    iblk6 m c t q, iblk7 m c t q, iblk8 m c t q, iblk9 m c t q, iblk10 m c t q, iblk11 m c t q,
    V_v51, V_v52, V_v53, V_v54, V_v55, V_v56, V_v57, V_v58, V_v59, V_v60, V_v61, V_v62, coord0, coord1]
  rfl

/-! ## What the accumulators and the output hold after point t, case by case -/

theorem sum_A (c : Dev nD) (t : Fin cfg0.N) (h0 : t.val % 64 = 0) (h1 : ¬t.val % 64 = 63) :
    (outsAt0 m c t.val t.isLt).2.1 = k0_pay1 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (bodyVal (F := Ideal) (iblk m c 2 t) (iblk m c 3 t) (iblk m c 4 t) (iblk m c 5 t) (iblk m c 8 t) (iblk m c 9 t) (iblk m c 10 t) (iblk m c 11 t)) (Scalar.ofBits (F := Ideal) .f32 0x00000000#32) (k0_pay4 (F := Ideal)) := by
  rw [outsAt0_A m c t h0 h1]
  exact sumA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem cnt_A (c : Dev nD) (t : Fin cfg0.N) (h0 : t.val % 64 = 0) (h1 : ¬t.val % 64 = 63) :
    (outsAt0 m c t.val t.isLt).2.2 = k0_pay2 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay5 (F := Ideal)) := by
  rw [outsAt0_A m c t h0 h1]
  exact cntA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem sum_B (c : Dev nD) (t : Fin cfg0.N) (h0 : ¬t.val % 64 = 0) (h1 : ¬t.val % 64 = 63) :
    (outsAt0 m c t.val t.isLt).2.1 = k0_pay1 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (bodyVal (F := Ideal) (iblk m c 2 t) (iblk m c 3 t) (iblk m c 4 t) (iblk m c 5 t) (iblk m c 8 t) (iblk m c 9 t) (iblk m c 10 t) (iblk m c 11 t)) (Scalar.ofBits (F := Ideal) .f32 0x00000000#32) (outsAt0 m c (t.val - 1) (Nat.lt_of_le_of_lt (Nat.sub_le _ _) t.isLt)).2.1 := by
  rw [outsAt0_B m c t h0 h1]
  exact sumB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2

theorem cnt_B (c : Dev nD) (t : Fin cfg0.N) (h0 : ¬t.val % 64 = 0) (h1 : ¬t.val % 64 = 63) :
    (outsAt0 m c t.val t.isLt).2.2 = k0_pay2 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (outsAt0 m c (t.val - 1) (Nat.lt_of_le_of_lt (Nat.sub_le _ _) t.isLt)).2.2 := by
  rw [outsAt0_B m c t h0 h1]
  exact cntB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2

theorem sum_C (c : Dev nD) (t : Fin cfg0.N) (h0 : ¬t.val % 64 = 0) (h1 : t.val % 64 = 63) :
    (outsAt0 m c t.val t.isLt).2.1 = k0_pay1 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (bodyVal (F := Ideal) (iblk m c 2 t) (iblk m c 3 t) (iblk m c 4 t) (iblk m c 5 t) (iblk m c 8 t) (iblk m c 9 t) (iblk m c 10 t) (iblk m c 11 t)) (Scalar.ofBits (F := Ideal) .f32 0x00000000#32) (outsAt0 m c (t.val - 1) (Nat.lt_of_le_of_lt (Nat.sub_le _ _) t.isLt)).2.1 := by
  rw [outsAt0_C m c t h0 h1]
  exact sumC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2

theorem cnt_C (c : Dev nD) (t : Fin cfg0.N) (h0 : ¬t.val % 64 = 0) (h1 : t.val % 64 = 63) :
    (outsAt0 m c t.val t.isLt).2.2 = k0_pay2 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (outsAt0 m c (t.val - 1) (Nat.lt_of_le_of_lt (Nat.sub_le _ _) t.isLt)).2.2 := by
  rw [outsAt0_C m c t h0 h1]
  exact cntC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2

theorem out_C (c : Dev nD) (t : Fin cfg0.N) (h0 : ¬t.val % 64 = 0) (h1 : t.val % 64 = 63) :
    (outsAt0 m c t.val t.isLt).1
      = k0_pay3 (F := Ideal) (k0_pay1 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (bodyVal (F := Ideal) (iblk m c 2 t) (iblk m c 3 t) (iblk m c 4 t) (iblk m c 5 t) (iblk m c 8 t) (iblk m c 9 t) (iblk m c 10 t) (iblk m c 11 t)) (Scalar.ofBits (F := Ideal) .f32 0x00000000#32) (outsAt0 m c (t.val - 1) (Nat.lt_of_le_of_lt (Nat.sub_le _ _) t.isLt)).2.1) (k0_pay2 (F := Ideal) (bodyMask (F := Ideal) (BitVec.ofNat 32 (grid0.coords t 0).val) (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (outsAt0 m c (t.val - 1) (Nat.lt_of_le_of_lt (Nat.sub_le _ _) t.isLt)).2.2) := by
  rw [outsAt0_C m c t h0 h1]
  exact outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2

/-- the tile sums by point number, zero past the grid -/
def tsumN (c : Dev nD) (j : ℕ) : EReal := if h : j < cfg0.N then tsum m c ⟨j, h⟩ else 0
def tcntN (c : Dev nD) (j : ℕ) : EReal := if h : j < cfg0.N then tcnt m c ⟨j, h⟩ else 0
theorem tsumN_of_lt (c : Dev nD) (j : ℕ) (h : j < cfg0.N) : tsumN m c j = tsum m c ⟨j, h⟩ := dif_pos h
theorem tcntN_of_lt (c : Dev nD) (j : ℕ) (h : j < cfg0.N) : tcntN m c j = tcnt m c ⟨j, h⟩ := dif_pos h

/-- THE ACCUMULATORS AFTER POINT n: the sums of the tiles 0 … n — by induction on the point. -/
theorem acc_eq (c : Dev nD) : ∀ (n : ℕ) (hn : n < cfg0.N),
    (outsAt0 m c n hn).2.1 (ix2 (0 : Fin 1) (0 : Fin 1)) = ∑ j ∈ Finset.range (n + 1), tsumN m c j
    ∧ (outsAt0 m c n hn).2.2 (ix2 (0 : Fin 1) (0 : Fin 1)) = ∑ j ∈ Finset.range (n + 1), tcntN m c j
  | 0, hn => by
    have h0 : (⟨0, hn⟩ : Fin cfg0.N).val % 64 = 0 := rfl
    have h1 : ¬(⟨0, hn⟩ : Fin cfg0.N).val % 64 = 63 := by dsimp only; omega
    have es := sum_A m c ⟨0, hn⟩ h0 h1
    have ec := cnt_A m c ⟨0, hn⟩ h0 h1
    dsimp only at es ec
    rw [es, ec, upd_sum m c ⟨0, hn⟩ (k0_pay4 (F := Ideal)), upd_cnt m c ⟨0, hn⟩ (k0_pay5 (F := Ideal)), pay4_read, pay5_read, Finset.sum_range_one,
      Finset.sum_range_one, zero_add, zero_add, tsumN_of_lt m c 0 hn, tcntN_of_lt m c 0 hn]
    exact ⟨rfl, rfl⟩
  | n + 1, hn => by
    have hN : cfg0.N = 64 := N_0
    have h0 : ¬(⟨n + 1, hn⟩ : Fin cfg0.N).val % 64 = 0 := by dsimp only; omega
    obtain ⟨ihs, ihc⟩ := acc_eq c n (Nat.lt_of_succ_lt hn)
    rw [Finset.sum_range_succ _ (n + 1), Finset.sum_range_succ _ (n + 1), ← ihs, ← ihc, tsumN_of_lt m c (n + 1) hn,
      tcntN_of_lt m c (n + 1) hn]
    by_cases h1 : (⟨n + 1, hn⟩ : Fin cfg0.N).val % 64 = 63
    · have es := sum_C m c ⟨n + 1, hn⟩ h0 h1
      have ec := cnt_C m c ⟨n + 1, hn⟩ h0 h1
      dsimp only at es ec
      rw [es, ec, upd_sum m c ⟨n + 1, hn⟩ _, upd_cnt m c ⟨n + 1, hn⟩ _]
      exact ⟨rfl, rfl⟩
    · have es := sum_B m c ⟨n + 1, hn⟩ h0 h1
      have ec := cnt_B m c ⟨n + 1, hn⟩ h0 h1
      dsimp only at es ec
      rw [es, ec, upd_sum m c ⟨n + 1, hn⟩ _, upd_cnt m c ⟨n + 1, hn⟩ _]
      exact ⟨rfl, rfl⟩

/-- all 64 tiles together are the whole square -/
theorem total_sum (c : Dev nD) : ∑ j ∈ Finset.range (63 + 1), tsumN m c j = lossSum (segsK m c) := by
  rw [Cert.GridSum.range_64]
  unfold lossSum
  rw [Cert.GridSum.sum_square]
  refine Finset.sum_congr rfl fun t _ => ?_
  have ht : t.val < cfg0.N := lt_of_lt_of_eq t.isLt N_0.symm
  rw [tsumN_of_lt m c t.val ht]
  rfl

theorem total_cnt (c : Dev nD) : ∑ j ∈ Finset.range (63 + 1), tcntN m c j = lossCnt (segsK m c) := by
  rw [Cert.GridSum.range_64]
  unfold lossCnt
  rw [Cert.GridSum.sum_square]
  refine Finset.sum_congr rfl fun t _ => ?_
  have ht : t.val < cfg0.N := lt_of_lt_of_eq t.isLt N_0.symm
  rw [tcntN_of_lt m c t.val ht]
  rfl

/-- THE OUTPUT: what the last point stores is the loss of the drawing.  (The point is kept a variable: only its number
    modulo 64 is used.) -/
theorem out_eq (c : Dev nD) (t : Fin cfg0.N) (h1 : t.val % 64 = 63) :
    (outsAt0 m c t.val t.isLt).1 (ix2 (0 : Fin 1) (0 : Fin 1)) = loss (segsK m c) := by
  have hN : cfg0.N = 64 := N_0
  obtain ⟨tv, htlt⟩ := t
  dsimp only at h1
  cases tv with
  | zero => omega
  | succ n =>
    have h0 : ¬(⟨n + 1, htlt⟩ : Fin cfg0.N).val % 64 = 0 := by dsimp only; omega
    obtain ⟨ihs, ihc⟩ := acc_eq m c n (Nat.lt_of_succ_lt htlt)
    have eo := out_C m c ⟨n + 1, htlt⟩ h0 h1
    dsimp only at eo
    rw [eo, pay3_read, upd_sum m c ⟨n + 1, htlt⟩ _, upd_cnt m c ⟨n + 1, htlt⟩ _]
    have es : (outsAt0 m c n (Nat.lt_of_succ_lt htlt)).2.1 (ix2 (0 : Fin 1) (0 : Fin 1)) + tsum m c ⟨n + 1, htlt⟩
        = lossSum (segsK m c) := by
      rw [ihs, ← tsumN_of_lt m c (n + 1) htlt, ← Finset.sum_range_succ (tsumN m c) (n + 1), ← total_sum m c]
      have hn : n = 62 := by omega
      rw [hn]
    have ec : (outsAt0 m c n (Nat.lt_of_succ_lt htlt)).2.2 (ix2 (0 : Fin 1) (0 : Fin 1)) + tcnt m c ⟨n + 1, htlt⟩
        = lossCnt (segsK m c) := by
      rw [ihc, ← tcntN_of_lt m c (n + 1) htlt, ← Finset.sum_range_succ (tcntN m c) (n + 1), ← total_cnt m c]
      have hn : n = 62 := by omega
      rw [hn]
    exact (congrArg₂ (fun a b => Ideal.div a (max b wOne)) es ec)

end Cert.KernelIdeal.Accum

end
-- ==== Proof.KRun.lean ====
/-
  The kernel program's run, read: its result is the loss of the drawing its arguments make.

  The output array [1,1] is written back once, after the last grid point, with what that point stored: the loss.  Its
  one block is the whole array, so after the region the array holds the loss at its one entry; the host operation after
  the region reshapes [1,1] to a scalar, which reads that entry.
-/
import proofs.«132866_j46480136077416_1_alg».proof.Proof.KAccum
import Idealize.ShloMosaic.Lib.StableHlo.Run

set_option pp.maxSteps 40000
set_option pp.deepTerms false

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.PairTerm Cert.KernelIdeal.HostRead Cert.KernelIdeal.Accum

variable (m : (ℓ : Loc nD τ sig) → Buf (Elt Ideal) ℓ) (ρ : Dev nD → PrngReg)

/-- the [1,1] output array after the region: the loss at its one entry -/
abbrev outArr (c : Dev nD) : Buf (Elt Ideal) ((c : Thread nD τ).loc main_v63) := fun _ => loss (segsK m c)

/-- a [1,1] index is (0, 0) -/
theorem idx11 (y : S1x1.Idx) : y = ix2 (0 : Fin 1) (0 : Fin 1) := by
  have h0 : (y 0).val = 0 := by have := idx2_lt0 y; omega
  have h1 : (y 1).val = 0 := by have := idx2_lt1 y; omega
  funext a
  match a with
  | ⟨0, _⟩ => exact Fin.ext h0
  | ⟨1, _⟩ => exact Fin.ext h1

/-- the last grid point -/
abbrev tLast : Fin cfg0.N := ⟨63, by rw [show cfg0.N = 64 from N_0]; decide⟩

/-- Window 12's block at every point is the whole [1,1] array: any array read through it, at the block's one index,
    is the array's one entry. -/
theorem read_blk12 (t : Fin cfg0.N) (A : ((cfg0.win 12).blk t).view.ty.Contents (Elt Ideal)) (y : S1x1.Idx) :
    (((cfg0.win 12).blk t).view.read (Elt Ideal) A : S1x1.Idx → EReal) y
      = (A : S1x1.Idx → EReal) (ix2 (0 : Fin 1) (0 : Fin 1)) := by
  rw [View.read_apply]
  show (A : S1x1.Idx → EReal) _ = (A : S1x1.Idx → EReal) _
  exact congrArg (A : S1x1.Idx → EReal) (idx11 _)

/-- What a point writes back is the first piece the body left there. -/
theorem flushed_piece (c : Dev nD) (t : Fin cfg0.N) :
    (dats m 0 c).flushed 12 t = (cfg0.win 12).cut (grid0.coords t) (outsAt0 m c t.val t.isLt).1 := by
  show (cfg0.win 12).cut (grid0.coords t) ((dats m 0 c).after 12 t) = _
  rw [after0_12]

/-- The one write-back, after the last point, writes the loss. -/
theorem flushed_eq (c : Dev nD) (t : Fin cfg0.N) (hf : (cfg0.win 12).flush t = true) :
    (dats m 0 c).flushed 12 t = ((cfg0.win 12).blk t).view.read (Elt Ideal) (outArr m c) := by
  have h1 : t.val % 64 = 63 := (flush0_12 t).mp hf
  rw [flushed_piece m c t]
  funext y
  refine Eq.trans ?_ (read_blk12 t (outArr m c) y).symm
  show (outsAt0 m c t.val t.isLt).1 ((cfg0.win 12).xinj (grid0.coords t) y) = loss (segsK m c)
  rw [idx11 ((cfg0.win 12).xinj (grid0.coords t) y)]
  exact out_eq m c t h1

/-- So the output array ends holding the loss: the last point's block is the whole array. -/
theorem final_out (c : Dev nD) : (dats m 0 c).arrAt 12 cfg0.N = outArr m c :=
  (dats m 0 c).arrAt_eq_of_cover 12 (outArr m c) (flushed_eq m c) fun i =>
    ⟨tLast, (flush0_12 tLast).mpr rfl, by
      show i ∈ ((View.whole main_v63).slice (win0_12.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_12.index tLast 0 * win0_12.size 0 ≤ (i 0 : Nat) ∧ (i 0 : Nat) < win0_12.index tLast 0 * win0_12.size 0 + win0_12.xsize (grid0.coords tLast) 0
                  rw [show win0_12.index tLast 0 * win0_12.size 0 = 0 from by decide +kernel, show win0_12.xsize (grid0.coords tLast) 0 = 1 from by decide +kernel]; omega
      | ⟨1, _⟩ => show win0_12.index tLast 1 * win0_12.size 1 ≤ (i 1 : Nat) ∧ (i 1 : Nat) < win0_12.index tLast 1 * win0_12.size 1 + win0_12.xsize (grid0.coords tLast) 1
                  rw [show win0_12.index tLast 1 * win0_12.size 1 = 0 from by decide +kernel, show win0_12.xsize (grid0.coords tLast) 1 = 1 from by decide +kernel]; omega⟩

/-- the program's result: the loss, as a scalar array -/
abbrev result (c : Dev nD) : Buf (Elt Ideal) ((c : Thread nD τ).loc main_v64) := fun _ => loss (segsK m c)

/-- The host operation after the region reads the output array's one entry. -/
theorem tail_eq (c : Dev nD) :
    Pipeline.afterTail₀ cfgs (dats m) 0 (V0 m) [hostOps1] c main_v64 = result m c := by
  unfold Pipeline.afterTail₀
  show StableHlo.after hostOps1 _ (Proc.devRef .tc main_v64) = _
  after_results
  have e : Pipeline.withArrays (cfgs 0).spec c (V0 m c) (fun w => (dats m 0 c).arrAt w (cfgs 0).N) (Proc.tc.devRef main_v63)
      = outArr m c :=
    (Pipeline.withArrays_arr spec0 launch0.win.arr_inj c (V0 m c) (fun w => (dats m 0 c).arrAt w cfg0.N) 12).trans (final_out m c)
  rw [e]
  funext y
  rfl

/-- THE RUN, READ: every weakly fair execution terminates with the result at the loss of the drawing and the
    arguments unchanged. -/
theorem run : θ_run defs (onTc (τ := τ) (main (F := Ideal))) ⟨m, fun _ => 0, ρ⟩ fun r => ∀ c : Dev nD,
      r.2.mem ((c.tc : Thread nD τ).loc main_v64) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v64 (Pipeline.mem_restRefs_of main_v64 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.LibEdgeSum.lean ====
/-
  Sums over the edges of a graph, as a row gather followed by a scatter-add, over the extended reals.

  General facts, no program in them:
  * a nonnegative real factor passes through a finite sum of extended reals (`sum_mul_of_nonneg_of_ne_top`:
    the extended reals do not distribute in general, but (y + z)·c = y·c + z·c for 0 ≤ c < ⊤);
  * which operand element a ROW GATHER reads (operand [N, C], one start index per row e of the result [E, C]:
    row = the index read signed and clamped into [0, N − 1], column kept), and which a VECTOR gather reads
    (operand [N], result [E]);
  * where a ROW SCATTER puts an update row (operand [N, C], updates [E, C]): if update (e, c) lands at (n, c')
    then the scatter index of e, read signed, is n, and c = c' (an update whose index is outside lands nowhere);
  * the EDGE-SUM LAW (`edge_sum_law`): gathering rows already scaled by a per-row factor, summing them at their
    targets and scaling the target row by its factor equals gathering the unscaled rows, scaling each by the
    product of the source's and the target's factors, and summing — provided the factors are nonnegative reals
    and an edge that lands at row n reads the target factor at n.
-/
import Idealize.ShloMosaic.PureOps.Ideal
import Idealize.ShloMosaic.PureOps.Ideal.Laws
import Idealize.ShloMosaic.Lib.ValueIdx

noncomputable section

open scoped BigOperators

namespace Cert.EdgeSum

open Idealize.ShloMosaic Idealize.ShloMosaic.ValueIdx

/-! ## A nonnegative real factor and a finite sum -/

/-- (Σ f)·c = Σ (f·c) over the extended reals when 0 ≤ c < ⊤. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-! ## A row gather: operand [N, C], start indices [E, 1], result [E, C] -/

/-- The dimension numbers of `x[idx]` for a matrix `x : [N, C]` and a vector of E row indices kept as [E, 1]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a row gather reads for result row `j 0`: the start index, signed, clamped into [0, N − 1]. -/
theorem rowGather_row {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 0).val
      = min (idx (ix2 (j 0) (0 : Fin 1))).toInt.toNat (N - 1) := by
  show (rowGatherDims N E C wf).start j idx 0 + (rowGatherDims N E C wf).batchCoord j 0
    + (rowGatherDims N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column a row gather reads: the result's own column. -/
theorem rowGather_col {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 1).val = (j 1).val := by
  show (rowGatherDims N E C wf).start j idx 1 + (rowGatherDims N E C wf).batchCoord j 1
    + (rowGatherDims N E C wf).offCoord j 1 = _
  rw [GatherDims.batchCoord_eq_zero _ _ _ List.not_mem_nil]
  have hs : (rowGatherDims N E C wf).start j idx 1 = 0 := by
    unfold GatherDims.start
    rw [dif_neg (show ¬ (1 : Fin 2) ∈ [(0 : Fin 2)] by decide)]
  rw [hs]
  simp only [Nat.add_zero, Nat.zero_add]
  unfold GatherDims.offCoord
  rw [dif_pos (show (1 : Fin 2) ∈ (rowGatherDims N E C wf).sKept from
    (GatherDims.mem_sKept _ _).mpr ⟨(show ¬ (1 : Fin 2) ∈ [(0 : Fin 2)] by decide), List.not_mem_nil⟩)]
  rfl

/-! ## A vector gather: operand [N], start indices [E, 1], result [E] -/

/-- The dimension numbers of `v[idx]` for a vector `v : [N]` and E indices kept as [E, 1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element a vector gather reads for result element `j 0`: the start index, signed, clamped into [0, N − 1]. -/
theorem vecGather_elt {N E w : Nat}
    (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (((vecGatherDims N E wf).operandIdx j idx) 0).val
      = min (idx (ix2 (j 0) (0 : Fin 1))).toInt.toNat (N - 1) := by
  show (vecGatherDims N E wf).start j idx 0 + (vecGatherDims N E wf).batchCoord j 0
    + (vecGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A row scatter: operand [N, C], scatter indices [E, 1], updates [E, C] -/

/-- The dimension numbers of `x.at[idx].add(u)` for a matrix `x : [N, C]`, E row indices kept as [E, 1] and update
    rows `u : [E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

theorem rowScatter_start0 :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window0 : (rowScatterDims N E C wf).window j 0 = 0 := by
  unfold ScatterDims.window
  rw [dif_neg (show ¬ (0 : Fin 2) ∈ (rowScatterDims N E C wf).sKept by simp [ScatterDims.sKept, Shape.kept])]

theorem rowScatter_start1 : (rowScatterDims N E C wf).start j idx 1 = 0 := by
  unfold ScatterDims.start
  rw [dif_neg (show ¬ (1 : Fin 2) ∈ [(0 : Fin 2)] by decide)]

theorem rowScatter_window1 : (rowScatterDims N E C wf).window j 1 = (j 1).val := by
  unfold ScatterDims.window
  rw [dif_pos (show (1 : Fin 2) ∈ (rowScatterDims N E C wf).sKept by simp [ScatterDims.sKept, Shape.kept])]
  rfl

/-- WHERE AN UPDATE LANDS: if update (e, c) lands at operand index `i`, the scatter index of row e, read signed,
    is `i`'s row, and the column is the update's own. -/
theorem rowScatter_lands (i : (⟨2, ![N, C]⟩ : Shape).Idx)
    (h : (rowScatterDims N E C wf).resultIdx? j idx = some i) :
    (idx (ix2 (j 0) (0 : Fin 1))).toInt = ((i 0).val : Int) ∧ (j 1).val = (i 1).val := by
  unfold ScatterDims.resultIdx? at h
  split at h
  · rename_i hall
    have hi := Option.some.inj h
    have h0 := congrArg Fin.val (congrFun hi 0)
    have h1 := congrArg Fin.val (congrFun hi 1)
    have a0 := hall 0
    have a1 := hall 1
    simp only [rowScatter_start0, rowScatter_window0, rowScatter_start1, rowScatter_window1] at h0 h1 a0 a1
    constructor
    · omega
    · omega
  · exact absurd h (by simp)

end RowScatter

/-! ## The normalising factor, and numpy's negative indices -/

/-- The f32 word of 1.0 denotes the real 1. -/
theorem one_word : Ideal.ofBits .f32 0x3F800000#32 = ((1 : ℝ) : EReal) := by
  simp [Ideal.ofBits, Ideal.ieee]
  norm_cast
  norm_num

/-- The inverse square root of anything bounded below by a positive quantity is a nonnegative real: the maximum is a
    positive real or +∞, whose inverse square roots are a nonnegative real and 0. -/
theorem rsqrt_max_nonneg (d one : EReal) (h1 : 0 < one) :
    0 ≤ Ideal.rsqrt (max d one) ∧ Ideal.rsqrt (max d one) ≠ ⊤ := by
  have hy : 0 < max d one := lt_max_of_lt_right h1
  generalize max d one = y at hy
  induction y using EReal.rec with
  | bot => exact absurd hy (by simp)
  | coe r =>
    have hr : 0 < r := by exact_mod_cast hy
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩
  | top => exact ⟨le_of_eq rfl, by show (0 : EReal) ≠ ⊤; exact EReal.zero_ne_top⟩

/-- A 32-bit index whose signed value is a natural number n below N is left alone by "add N if negative", and
    clamping it into [0, N − 1] gives n back. -/
theorem wrap_clamp_of_toInt (N : Nat) (w : BitVec 32) (x : BitVec 32) (n : Nat) (hn : n < N) (hx : x.toInt = (n : Int)) :
    min (Scalar.select (IntOp.cmpi .slt x 0#32) (IntOp.addi x w) x).toInt.toNat (N - 1) = n := by
  have hs : IntOp.cmpi .slt x 0#32 = 0#1 := by
    show BitVec.ofBool (x.slt 0#32) = 0#1
    have : x.slt 0#32 = false := by
      rw [BitVec.slt_eq_decide]
      simp [hx]
    rw [this]; rfl
  rw [hs, select_zero, hx]
  simp only [Int.toNat_natCast]
  omega

/-! ## The edge-sum law -/

/-- THE EDGE-SUM LAW. `H` holds one row per node, `dis` one factor per node, a nonnegative real; `idxS` names the
    source row of each edge, `idxD` its target row as the scatter reads it (signed, dropped when outside) and `idxDw`
    its target row as a gather reads it (clamped); `hD`: whenever the scatter lands an edge at row n, the gather reads
    row n too. Then
        (Σ over edges landing at row i₀ of H[src]·dis[src]) · dis[i₀]
      = Σ over edges landing at row i₀ of H[src]·(dis[src]·dis[target]),
    entry by entry, both sums started from an all-zero array: the factor dis[i₀] is the same for every edge of the sum
    (`hD`), a nonnegative real passes through a finite sum of extended reals, and the product is associative. -/
theorem edge_sum_law {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    Ideal.hostScatterAdd (rowScatterDims N E C wfs) Z idxD
        (Host.gather (rowGatherDims N E C wfg) (fun r => H r * dis (ix1 (r 0))) idxS) i * dis (ix1 (i 0))
      = Ideal.hostScatterAdd (rowScatterDims N E C wfs) Z idxD
        (fun j => Host.gather (rowGatherDims N E C wfg) H idxS j
          * (Host.gather (vecGatherDims N E wfv) dis idxS (ix1 (j 0))
              * Host.gather (vecGatherDims N E wfv) dis idxDw (ix1 (j 0)))) i := by
  unfold Ideal.hostScatterAdd
  obtain ⟨h0, ht⟩ := hdis (ix1 (i 0))
  rw [hZ i, zero_add, zero_add, sum_mul_of_nonneg_of_ne_top _ _ h0 ht]
  refine Finset.sum_congr rfl fun j hj => ?_
  have hl := (Finset.mem_filter.mp hj).2
  obtain ⟨hrow, -⟩ := rowScatter_lands wfs j idxD i hl
  have e1 : ix1 (((rowGatherDims N E C wfg).operandIdx j idxS) 0)
      = (vecGatherDims N E wfv).operandIdx (ix1 (j 0)) idxS := funext fun a => Fin.ext (by
    match a with
    | ⟨0, _⟩ => exact (rowGather_row wfg j idxS).trans (vecGather_elt wfv (ix1 (j 0)) idxS).symm)
  have e2 : ix1 (i 0) = (vecGatherDims N E wfv).operandIdx (ix1 (j 0)) idxDw := funext fun a => Fin.ext (by
    match a with
    | ⟨0, _⟩ => exact ((vecGather_elt wfv (ix1 (j 0)) idxDw).trans (hD (j 0) (i 0) hrow)).symm)
  show H ((rowGatherDims N E C wfg).operandIdx j idxS)
        * dis (ix1 (((rowGatherDims N E C wfg).operandIdx j idxS) 0)) * dis (ix1 (i 0))
      = H ((rowGatherDims N E C wfg).operandIdx j idxS)
        * (dis ((vecGatherDims N E wfv).operandIdx (ix1 (j 0)) idxS)
            * dis ((vecGatherDims N E wfv).operandIdx (ix1 (j 0)) idxDw))
  rw [mul_assoc]
  exact congrArg (H ((rowGatherDims N E C wfg).operandIdx j idxS) * ·)
    (congrArg₂ (· * ·) (congrArg dis e1) (congrArg dis e2))

/-- The same law with the sum written as the host's accumulating scatter at the ideal instance (it is that sum). -/
theorem edge_sum_law_host {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    (Host.scatterAdd (F := Ideal) (φ := .f32) (rowScatterDims N E C wfs) Z idxD
        (Host.gather (α := EReal) (rowGatherDims N E C wfg) (fun r => H r * dis (ix1 (r 0))) idxS) i : EReal)
        * dis (ix1 (i 0))
      = Host.scatterAdd (F := Ideal) (φ := .f32) (rowScatterDims N E C wfs) Z idxD
        (fun j => Host.gather (α := EReal) (rowGatherDims N E C wfg) H idxS j
          * (Host.gather (α := EReal) (vecGatherDims N E wfv) dis idxS (ix1 (j 0))
              * Host.gather (α := EReal) (vecGatherDims N E wfv) dis idxDw (ix1 (j 0)))) i :=
  edge_sum_law wfg wfv wfs H dis hdis Z hZ idxS idxD idxDw hD i

end Cert.EdgeSum

end
-- ==== Proof.RefEdge.lean ====
/-
  The per-segment stages of the reference program, read at an index.

  The reference takes node positions pos[0, n, k] and an edge list ei[r, e].  It reads the source and destination
  words of every edge, turns a negative word into a nonnegative one by adding 4096, gathers the two end points of the
  edge from the positions (the gather reads a start index signed and clamps it into [0, 4095]), and from them forms
  the direction (end minus start), the midpoint, half the length, the floored squared length, and the product
  direction · start.  This file shows that each of these stages, read at an edge e (and a coordinate k), is the
  corresponding field of the segments of the drawing, or the corresponding per-segment function of those fields.

  Only the midpoint needs the positions to be finite reals: the program forms one half of (start + end), the
  specification start + one half of (end − start), and the two agree for reals.
-/
import proofs.«132866_j46480136077416_1_alg».proof.Proof.RefReadP
import proofs.«132866_j46480136077416_1_alg».proof.Proof.PairTerm
import proofs.«132866_j46480136077416_1_alg».proof.Proof.LibEdgeSum

noncomputable section

open scoped BigOperators

namespace Cert.ReferenceIdeal.Edge

open Cert.ReferenceIdeal Cert.ReferenceIdeal.Gen Cert.ReferenceIdeal.Read Cert.PairTerm Cert.EdgeSum
  Idealize.ShloMosaic Idealize.ShloMosaic.ValueIdx

variable (x0 : (⟨S1x4096x2, .f32⟩ : BufTy).Contents (Elt Ideal)) (x2 : (⟨S2x4096, .i32⟩ : BufTy).Contents (Elt Ideal))

/-! ## The edge words -/

theorem read_src (e : Fin 4096) : val_main_v2 (F := Ideal) x2 (ix1 e) = x2 (ix2 (0 : Fin 2) e) := by
  rw [val_main_v2_apply, val_main_v1_apply]
  refine congrArg x2 (funext fun a => Fin.ext ?_)
  match a with
  | ⟨0, _⟩ => rfl
  | ⟨1, _⟩ => exact Nat.mod_eq_of_lt e.isLt

theorem read_dst (e : Fin 4096) : val_main_v4 (F := Ideal) x2 (ix1 e) = x2 (ix2 (1 : Fin 2) e) := by
  rw [val_main_v4_apply, val_main_v3_apply]
  refine congrArg x2 (funext fun a => Fin.ext ?_)
  match a with
  | ⟨0, _⟩ => rfl
  | ⟨1, _⟩ => exact Nat.mod_eq_of_lt e.isLt

/-- The source word of edge e is ei[0, e]. -/
theorem edge_src (e : Fin 4096) : val_main_v2 (F := Ideal) x2 (ix1 e) = (segsOf x0 x2).s e := read_src x2 e

/-- The destination word of edge e is ei[1, e]. -/
theorem edge_dst (e : Fin 4096) : val_main_v4 (F := Ideal) x2 (ix1 e) = (segsOf x0 x2).d e := read_dst x2 e

/-! ## The start indices of the two gathers: the words, with 4096 added to a negative one -/

theorem start_src (e : Fin 4096) :
    val_main_v10 (F := Ideal) x2 (ix2 e (0 : Fin 1)) = wrap (x2 (ix2 (0 : Fin 2) e)) := by
  have hi : idx_main_v10 (ix2 e (0 : Fin 1)) = ix1 e := funext fun a => match a with | ⟨0, _⟩ => rfl
  rw [val_main_v10_apply, hi, val_main_v9_apply, val_main_v6_apply, val_main_v8_apply, val_main_v5_apply,
    val_main_v7_apply, val_main_c_apply, val_main_c_0_apply, read_src x2 e]
  rfl

theorem start_dst (e : Fin 4096) :
    val_main_v17 (F := Ideal) x2 (ix2 e (0 : Fin 1)) = wrap (x2 (ix2 (1 : Fin 2) e)) := by
  have hi : idx_main_v17 (ix2 e (0 : Fin 1)) = ix1 e := funext fun a => match a with | ⟨0, _⟩ => rfl
  rw [val_main_v17_apply, hi, val_main_v16_apply, val_main_v13_apply, val_main_v15_apply, val_main_v12_apply,
    val_main_v14_apply, val_main_c_1_apply, val_main_c_2_apply, read_dst x2 e]
  rfl

/-! ## The gather of the positions by a column of row indices -/

/-- The program's gather is the row gather of a [4096, 2] matrix by 4096 row indices. -/
theorem gather_eq :
    gather_S4096x2_S4096x1_S4096x2_1_0_n_n_0_1_12
      = rowGatherDims 4096 4096 2 Facts₀.gather_S4096x2_S4096x1_S4096x2_1_0_n_n_0_1_12_wf := rfl

/-- The gather of the reshaped positions at (e, k) is the position of the node that the start index of row e names
    (read signed, clamped into [0, 4095]), coordinate k. -/
theorem gather_read (idx : IVec S4096x1 32) (e : Fin 4096) (k : Fin 2) (n : Fin 4096)
    (hn : n.val = min (idx (ix2 e (0 : Fin 1))).toInt.toNat 4095) :
    Host.gather gather_S4096x2_S4096x1_S4096x2_1_0_n_n_0_1_12 (val_main_v0 (F := Ideal) x0) idx (ix2 e k)
      = x0 (ix3 (0 : Fin 1) n k) := by
  have h0 : ((gather_S4096x2_S4096x1_S4096x2_1_0_n_n_0_1_12.operandIdx (ix2 e k) idx) 0).val
      = min (idx (ix2 e (0 : Fin 1))).toInt.toNat 4095 :=
    rowGather_row Facts₀.gather_S4096x2_S4096x1_S4096x2_1_0_n_n_0_1_12_wf (ix2 e k) idx
  have h1 : ((gather_S4096x2_S4096x1_S4096x2_1_0_n_n_0_1_12.operandIdx (ix2 e k) idx) 1).val = k.val :=
    rowGather_col Facts₀.gather_S4096x2_S4096x1_S4096x2_1_0_n_n_0_1_12_wf (ix2 e k) idx
  show val_main_v0 (F := Ideal) x0 (gather_S4096x2_S4096x1_S4096x2_1_0_n_n_0_1_12.operandIdx (ix2 e k) idx) = _
  rw [val_main_v0_apply]
  refine congrArg x0 (funext fun a => Fin.ext ?_)
  have hk := k.isLt
  have hnn := n.isLt
  match a with
  | ⟨0, _⟩ => rfl
  | ⟨1, _⟩ =>
    show (((gather_S4096x2_S4096x1_S4096x2_1_0_n_n_0_1_12.operandIdx (ix2 e k) idx) 0).val * 2
      + ((gather_S4096x2_S4096x1_S4096x2_1_0_n_n_0_1_12.operandIdx (ix2 e k) idx) 1).val) / 2 % 4096 = n.val
    rw [h0, h1, ← hn]
    omega
  | ⟨2, _⟩ =>
    show (((gather_S4096x2_S4096x1_S4096x2_1_0_n_n_0_1_12.operandIdx (ix2 e k) idx) 0).val * 2
      + ((gather_S4096x2_S4096x1_S4096x2_1_0_n_n_0_1_12.operandIdx (ix2 e k) idx) 1).val) % 2 = k.val
    rw [h1]
    omega

/-- The start point of edge e, coordinate k: the position of the node its source word names. -/
theorem read_ps (e : Fin 4096) (k : Fin 2) :
    val_main_v11 (F := Ideal) x0 x2 (ix2 e k) = x0 (ix3 (0 : Fin 1) (node (x2 (ix2 (0 : Fin 2) e))) k) := by
  unfold val_main_v11
  refine gather_read x0 _ e k _ ?_
  rw [start_src x2 e]
  rfl

/-- The end point of edge e, coordinate k: the position of the node its destination word names. -/
theorem read_pd (e : Fin 4096) (k : Fin 2) :
    val_main_v18 (F := Ideal) x0 x2 (ix2 e k) = x0 (ix3 (0 : Fin 1) (node (x2 (ix2 (1 : Fin 2) e))) k) := by
  unfold val_main_v18
  refine gather_read x0 _ e k _ ?_
  rw [start_dst x2 e]
  rfl

theorem edge_psx (e : Fin 4096) : val_main_v11 (F := Ideal) x0 x2 (ix2 e (0 : Fin 2)) = (segsOf x0 x2).px e :=
  read_ps x0 x2 e 0

theorem edge_psy (e : Fin 4096) : val_main_v11 (F := Ideal) x0 x2 (ix2 e (1 : Fin 2)) = (segsOf x0 x2).py e :=
  read_ps x0 x2 e 1

/-! ## The direction: end minus start -/

theorem read_d1 (e : Fin 4096) (k : Fin 2) :
    val_main_v19 (F := Ideal) x0 x2 (ix2 e k)
      = x0 (ix3 (0 : Fin 1) (node (x2 (ix2 (1 : Fin 2) e))) k) - x0 (ix3 (0 : Fin 1) (node (x2 (ix2 (0 : Fin 2) e))) k) := by
  rw [val_main_v19_apply, read_ps, read_pd]
  rfl

theorem edge_d1x (e : Fin 4096) : val_main_v19 (F := Ideal) x0 x2 (ix2 e (0 : Fin 2)) = (segsOf x0 x2).dx e :=
  read_d1 x0 x2 e 0

theorem edge_d1y (e : Fin 4096) : val_main_v19 (F := Ideal) x0 x2 (ix2 e (1 : Fin 2)) = (segsOf x0 x2).dy e :=
  read_d1 x0 x2 e 1

/-! ## The midpoint: one half of (start + end) is start + one half of (end − start), for reals -/

/-- The word of one half denotes the real 1/2. -/
theorem half_word : Ideal.ofBits .f32 0x3F000000#32 = ((1 / 2 : ℝ) : EReal) := by
  simp [Ideal.ofBits, Ideal.ieee]
  norm_cast
  norm_num

theorem mid_real (a b : ℝ) : wHalf * ((a : EReal) + (b : EReal)) = mid (a : EReal) ((b : EReal) - (a : EReal)) := by
  unfold mid wHalf
  rw [half_word, ← EReal.coe_add, ← EReal.coe_sub, ← EReal.coe_mul, ← EReal.coe_mul, ← EReal.coe_add]
  exact congrArg _ (by ring)

theorem read_mid (hfin : ∀ i, ∃ r : ℝ, x0 i = (r : EReal)) (e : Fin 4096) (k : Fin 2) :
    val_main_v53 (F := Ideal) x0 x2 (ix2 e k)
      = mid (x0 (ix3 (0 : Fin 1) (node (x2 (ix2 (0 : Fin 2) e))) k))
          (x0 (ix3 (0 : Fin 1) (node (x2 (ix2 (1 : Fin 2) e))) k) - x0 (ix3 (0 : Fin 1) (node (x2 (ix2 (0 : Fin 2) e))) k)) := by
  obtain ⟨a, ha⟩ := hfin (ix3 (0 : Fin 1) (node (x2 (ix2 (0 : Fin 2) e))) k)
  obtain ⟨b, hb⟩ := hfin (ix3 (0 : Fin 1) (node (x2 (ix2 (1 : Fin 2) e))) k)
  rw [val_main_v53_apply, val_main_v52_apply, val_main_cst_apply, val_main_v51_apply, read_ps, read_pd, ha, hb]
  exact mid_real a b

theorem edge_midx (hfin : ∀ i, ∃ r : ℝ, x0 i = (r : EReal)) (e : Fin 4096) :
    val_main_v53 (F := Ideal) x0 x2 (ix2 e (0 : Fin 2)) = mid ((segsOf x0 x2).px e) ((segsOf x0 x2).dx e) :=
  read_mid x0 x2 hfin e 0

theorem edge_midy (hfin : ∀ i, ∃ r : ℝ, x0 i = (r : EReal)) (e : Fin 4096) :
    val_main_v53 (F := Ideal) x0 x2 (ix2 e (1 : Fin 2)) = mid ((segsOf x0 x2).py e) ((segsOf x0 x2).dy e) :=
  read_mid x0 x2 hfin e 1

/-! ## The sums over the two coordinates -/

/-- The squared length of the direction, as the program first sums it. -/
theorem read_sq55 (e : Fin 4096) :
    val_main_v55 (F := Ideal) x0 x2 (ix1 e) = sq ((segsOf x0 x2).dx e) ((segsOf x0 x2).dy e) := by
  have i0 : idx_main_v55 (ix1 e) (0 : Fin 2) = ix2 e (0 : Fin 2) :=
    funext fun a => match a with | ⟨0, _⟩ => rfl | ⟨1, _⟩ => rfl
  have i1 : idx_main_v55 (ix1 e) (1 : Fin 2) = ix2 e (1 : Fin 2) :=
    funext fun a => match a with | ⟨0, _⟩ => rfl | ⟨1, _⟩ => rfl
  rw [val_main_v55_apply, Fin.sum_univ_two, val_main_cst_3_apply, i0, i1, val_main_v54_apply, val_main_v54_apply,
    edge_d1x, edge_d1y]
  show Ideal.ofBits .f32 0x00000000#32 + _ = _
  rw [Ideal.ofBits_zero_f32, zero_add]
  rfl

/-- The squared length of the direction, as the program sums it the second time. -/
theorem read_sq91 (e : Fin 4096) :
    val_main_v91 (F := Ideal) x0 x2 (ix1 e) = sq ((segsOf x0 x2).dx e) ((segsOf x0 x2).dy e) := by
  have i0 : idx_main_v91 (ix1 e) (0 : Fin 2) = ix2 e (0 : Fin 2) :=
    funext fun a => match a with | ⟨0, _⟩ => rfl | ⟨1, _⟩ => rfl
  have i1 : idx_main_v91 (ix1 e) (1 : Fin 2) = ix2 e (1 : Fin 2) :=
    funext fun a => match a with | ⟨0, _⟩ => rfl | ⟨1, _⟩ => rfl
  rw [val_main_v91_apply, Fin.sum_univ_two, val_main_cst_6_apply, i0, i1, val_main_v90_apply, val_main_v90_apply,
    edge_d1x, edge_d1y]
  show Ideal.ofBits .f32 0x00000000#32 + _ = _
  rw [Ideal.ofBits_zero_f32, zero_add]
  rfl

/-- Half the length of segment e. -/
theorem edge_half (e : Fin 4096) :
    val_main_v58 (F := Ideal) x0 x2 (ix1 e) = hl ((segsOf x0 x2).dx e) ((segsOf x0 x2).dy e) := by
  rw [val_main_v58_apply, val_main_v57_apply, val_main_cst_4_apply, val_main_v56_apply, read_sq55]
  rfl

/-- The floored squared length of segment e. -/
theorem edge_a (e : Fin 4096) :
    val_main_v93 (F := Ideal) x0 x2 (ix1 e) = aa ((segsOf x0 x2).dx e) ((segsOf x0 x2).dy e) := by
  rw [val_main_v93_apply, val_main_v92_apply, val_main_cst_7_apply, read_sq91]
  rfl

/-- Direction · start point of segment e. -/
theorem edge_dps (e : Fin 4096) :
    val_main_v97 (F := Ideal) x0 x2 (ix1 e)
      = dp ((segsOf x0 x2).px e) ((segsOf x0 x2).py e) ((segsOf x0 x2).dx e) ((segsOf x0 x2).dy e) := by
  have i0 : idx_main_v97 (ix1 e) (0 : Fin 2) = ix2 e (0 : Fin 2) :=
    funext fun a => match a with | ⟨0, _⟩ => rfl | ⟨1, _⟩ => rfl
  have i1 : idx_main_v97 (ix1 e) (1 : Fin 2) = ix2 e (1 : Fin 2) :=
    funext fun a => match a with | ⟨0, _⟩ => rfl | ⟨1, _⟩ => rfl
  rw [val_main_v97_apply, Fin.sum_univ_two, val_main_cst_8_apply, i0, i1, val_main_v96_apply, val_main_v96_apply,
    edge_d1x, edge_d1y, edge_psx, edge_psy]
  show Ideal.ofBits .f32 0x00000000#32 + _ = _
  rw [Ideal.ofBits_zero_f32, zero_add]
  rfl

end Cert.ReferenceIdeal.Edge

end
-- ==== Proof.RefPair.lean ====
/-
  The reference program's pair selection, read at one ordered pair of segments.

  The reference lays its per-segment arrays out over a 4096 x 4096 grid by broadcasting: a row copy reads the
  segment of the row coordinate, a column copy the segment of the column coordinate.  Read at the grid point
  (I, J) each such copy is the per-segment quantity of segment I or of segment J, and the pointwise stages on
  the grid are then the per-pair functions of those quantities.  This file reads the stages that decide
  whether a pair is selected: the shared-node test, the order test J after I, and the midpoint proximity
  test; their conjunction is the selection bit of the pair.

  The per-segment stages themselves (source and destination words, start point, direction, midpoint, half
  length, floored squared length, direction . start) are taken as hypotheses about an arbitrary family of
  segments.
-/
import proofs.«132866_j46480136077416_1_alg».proof.Proof.RefReadP
import proofs.«132866_j46480136077416_1_alg».proof.Proof.PairTerm

noncomputable section

open scoped BigOperators

namespace Cert.ReferenceIdeal.Pair

open Cert.ReferenceIdeal Cert.ReferenceIdeal.Read Cert.PairTerm Idealize.ShloMosaic Idealize.ShloMosaic.ValueIdx

/-- Reduce "f i = y" to the known "f j = y" when the rank-1 indices i and j have the same coordinate. -/
macro "via1 " t:term : tactic =>
  `(tactic| (
      refine Eq.trans ?_ $t
      refine congrArg _ ?_
      funext a
      match a with
      | ⟨0, _⟩ => (first | rfl | exact Fin.ext (Nat.div_one _))))

/-- Reduce "f i = y" to the known "f j = y" when the rank-2 indices i and j have the same coordinates. -/
macro "via2 " t:term : tactic =>
  `(tactic| (
      refine Eq.trans ?_ $t
      refine congrArg _ ?_
      funext a
      match a with
      | ⟨0, _⟩ => (first | rfl | exact Fin.ext (Nat.div_one _))
      | ⟨1, _⟩ => (first | rfl | exact Fin.ext (Nat.div_one _))))

variable (x0 : (⟨S1x4096x2, .f32⟩ : BufTy).Contents (Elt Ideal)) (x2 : (⟨S2x4096, .i32⟩ : BufTy).Contents (Elt Ideal)) (g : Segs)

/-- The per-segment stages of the reference are the quantities of the segments g. -/
structure EdgeFacts : Prop where
  src : ∀ e : Fin 4096, val_main_v2 (F := Ideal) x2 (ix1 e) = g.s e
  dst : ∀ e : Fin 4096, val_main_v4 (F := Ideal) x2 (ix1 e) = g.d e
  psx : ∀ e : Fin 4096, val_main_v11 (F := Ideal) x0 x2 (ix2 e (0 : Fin 2)) = g.px e
  psy : ∀ e : Fin 4096, val_main_v11 (F := Ideal) x0 x2 (ix2 e (1 : Fin 2)) = g.py e
  d1x : ∀ e : Fin 4096, val_main_v19 (F := Ideal) x0 x2 (ix2 e (0 : Fin 2)) = g.dx e
  d1y : ∀ e : Fin 4096, val_main_v19 (F := Ideal) x0 x2 (ix2 e (1 : Fin 2)) = g.dy e
  midx : ∀ e : Fin 4096, val_main_v53 (F := Ideal) x0 x2 (ix2 e (0 : Fin 2)) = mid (g.px e) (g.dx e)
  midy : ∀ e : Fin 4096, val_main_v53 (F := Ideal) x0 x2 (ix2 e (1 : Fin 2)) = mid (g.py e) (g.dy e)
  half : ∀ e : Fin 4096, val_main_v58 (F := Ideal) x0 x2 (ix1 e) = hl (g.dx e) (g.dy e)
  a    : ∀ e : Fin 4096, val_main_v93 (F := Ideal) x0 x2 (ix1 e) = aa (g.dx e) (g.dy e)
  dps  : ∀ e : Fin 4096, val_main_v97 (F := Ideal) x0 x2 (ix1 e) = dp (g.px e) (g.py e) (g.dx e) (g.dy e)

variable {x0 x2 g}

/-! ## The node words over the grid -/

theorem srcRow22 (h : EdgeFacts x0 x2 g) (I J : Fin 4096) : val_main_v22 (F := Ideal) x2 (ix2 I J) = g.s I := by
  rw [val_main_v22_apply, val_main_v20_apply]; via1 (h.src I)
theorem srcCol23 (h : EdgeFacts x0 x2 g) (I J : Fin 4096) : val_main_v23 (F := Ideal) x2 (ix2 I J) = g.s J := by
  rw [val_main_v23_apply, val_main_v21_apply]; via1 (h.src J)
theorem srcRow27 (h : EdgeFacts x0 x2 g) (I J : Fin 4096) : val_main_v27 (F := Ideal) x2 (ix2 I J) = g.s I := by
  rw [val_main_v27_apply, val_main_v25_apply]; via1 (h.src I)
theorem dstCol28 (h : EdgeFacts x0 x2 g) (I J : Fin 4096) : val_main_v28 (F := Ideal) x2 (ix2 I J) = g.d J := by
  rw [val_main_v28_apply, val_main_v26_apply]; via1 (h.dst J)
theorem dstRow33 (h : EdgeFacts x0 x2 g) (I J : Fin 4096) : val_main_v33 (F := Ideal) x2 (ix2 I J) = g.d I := by
  rw [val_main_v33_apply, val_main_v31_apply]; via1 (h.dst I)
theorem srcCol34 (h : EdgeFacts x0 x2 g) (I J : Fin 4096) : val_main_v34 (F := Ideal) x2 (ix2 I J) = g.s J := by
  rw [val_main_v34_apply, val_main_v32_apply]; via1 (h.src J)
theorem dstRow39 (h : EdgeFacts x0 x2 g) (I J : Fin 4096) : val_main_v39 (F := Ideal) x2 (ix2 I J) = g.d I := by
  rw [val_main_v39_apply, val_main_v37_apply]; via1 (h.dst I)
theorem dstCol40 (h : EdgeFacts x0 x2 g) (I J : Fin 4096) : val_main_v40 (F := Ideal) x2 (ix2 I J) = g.d J := by
  rw [val_main_v40_apply, val_main_v38_apply]; via1 (h.dst J)

/-- The shared-node bit: the reference nests its three "or"s to the left, the per-pair function pairs them. -/
theorem ref_adj (h : EdgeFacts x0 x2 g) (I J : Fin 4096) :
    val_main_v42 (F := Ideal) x2 (ix2 I J) = adj (g.s I) (g.d I) (g.s J) (g.d J) := by
  rw [val_main_v42_apply, val_main_v36_apply, val_main_v30_apply, val_main_v24_apply, val_main_v29_apply,
    val_main_v35_apply, val_main_v41_apply, srcRow22 h I J, srcCol23 h I J, srcRow27 h I J, dstCol28 h I J,
    dstRow33 h I J, srcCol34 h I J, dstRow39 h I J, dstCol40 h I J]
  unfold adj
  simp only [IntOp.ori]
  exact BitVec.or_assoc _ _ _

/-! ## The order test: the column number against the row number -/

theorem iotaCol (I J : Fin 4096) : val_main_v47 (F := Ideal) (ix2 I J) = BitVec.ofNat 32 J.val := by
  rw [val_main_v47_apply, val_main_v45_apply, val_main_v43_apply] <;> rfl
theorem iotaRow (I J : Fin 4096) : val_main_v48 (F := Ideal) (ix2 I J) = BitVec.ofNat 32 I.val := by
  rw [val_main_v48_apply, val_main_v46_apply, val_main_v43_apply] <;> rfl

/-! ## The proximity test -/

theorem midxRow (h : EdgeFacts x0 x2 g) (I J : Fin 4096) :
    val_main_v65 (F := Ideal) x0 x2 (ix2 I J) = mid (g.px I) (g.dx I) := by
  rw [val_main_v65_apply, val_main_v61_apply, val_main_v60_apply, val_main_v59_apply]; via2 (h.midx I)
theorem midxCol (h : EdgeFacts x0 x2 g) (I J : Fin 4096) :
    val_main_v66 (F := Ideal) x0 x2 (ix2 I J) = mid (g.px J) (g.dx J) := by
  rw [val_main_v66_apply, val_main_v64_apply, val_main_v63_apply, val_main_v62_apply]; via2 (h.midx J)
theorem midyRow (h : EdgeFacts x0 x2 g) (I J : Fin 4096) :
    val_main_v74 (F := Ideal) x0 x2 (ix2 I J) = mid (g.py I) (g.dy I) := by
  rw [val_main_v74_apply, val_main_v70_apply, val_main_v69_apply, val_main_v68_apply]; via2 (h.midy I)
theorem midyCol (h : EdgeFacts x0 x2 g) (I J : Fin 4096) :
    val_main_v75 (F := Ideal) x0 x2 (ix2 I J) = mid (g.py J) (g.dy J) := by
  rw [val_main_v75_apply, val_main_v73_apply, val_main_v72_apply, val_main_v71_apply]; via2 (h.midy J)

/-- The distance of the two midpoints. -/
theorem ref_midDist (h : EdgeFacts x0 x2 g) (I J : Fin 4096) :
    val_main_v80 (F := Ideal) x0 x2 (ix2 I J)
      = midDist (g.px I) (g.py I) (g.dx I) (g.dy I) (g.px J) (g.py J) (g.dx J) (g.dy J) := by
  rw [val_main_v80_apply, val_main_v79_apply, val_main_v77_apply, val_main_v78_apply, val_main_v67_apply,
    val_main_v76_apply, midxRow h I J, midxCol h I J, midyRow h I J, midyCol h I J]
  rfl

theorem halfRow (h : EdgeFacts x0 x2 g) (I J : Fin 4096) :
    val_main_v83 (F := Ideal) x0 x2 (ix2 I J) = hl (g.dx I) (g.dy I) := by
  rw [val_main_v83_apply, val_main_v81_apply]; via1 (h.half I)
theorem halfCol (h : EdgeFacts x0 x2 g) (I J : Fin 4096) :
    val_main_v84 (F := Ideal) x0 x2 (ix2 I J) = hl (g.dx J) (g.dy J) := by
  rw [val_main_v84_apply, val_main_v82_apply]; via1 (h.half J)
theorem marginAt (I J : Fin 4096) : val_main_v86 (F := Ideal) (ix2 I J) = wMargin := by
  rw [val_main_v86_apply, val_main_cst_5_apply]; rfl

/-- The reach: the two half lengths and the margin. -/
theorem ref_reach (h : EdgeFacts x0 x2 g) (I J : Fin 4096) :
    val_main_v87 (F := Ideal) x0 x2 (ix2 I J) = hl (g.dx I) (g.dy I) + hl (g.dx J) (g.dy J) + wMargin := by
  rw [val_main_v87_apply, val_main_v85_apply, halfRow h I J, halfCol h I J, marginAt I J]
  rfl

theorem ref_prox (h : EdgeFacts x0 x2 g) (I J : Fin 4096) :
    val_main_v88 (F := Ideal) x0 x2 (ix2 I J)
      = prox (g.px I) (g.py I) (g.dx I) (g.dy I) (g.px J) (g.py J) (g.dx J) (g.dy J) := by
  rw [val_main_v88_apply, ref_midDist h I J, ref_reach h I J]
  rfl

/-! ## The selection bit -/

/-- On one bit, complementing is adding one. -/
theorem not_eq_xori_one (b : BitVec 1) : ~~~b = IntOp.xori b 1#1 := by
  rcases BitVec.eq_zero_or_eq_one b with hb | hb <;> subst hb <;> decide

variable (x0 x2 g)

/-- The reference's selection stage at the pair (I, J) is the selection bit of the pair. -/
theorem ref_mask (h : EdgeFacts x0 x2 g) (I J : Fin 4096) :
    val_main_v89 (F := Ideal) x0 x2 (ix2 I J) = pairMask g I J := by
  rw [val_main_v89_apply, val_main_v50_apply, val_main_v44_apply, val_main_v49_apply, ref_adj h I J,
    iotaCol I J, iotaRow I J, ref_prox h I J, not_eq_xori_one]
  rfl

end Cert.ReferenceIdeal.Pair

end
-- ==== Proof.RefPairB.lean ====
/-
  The reference program's pair term, read at one ordered pair of segments.

  For the pair (I, J) the reference computes, on its 4096 x 4096 grid, the inner products of the two
  directions and of each direction with the other segment's start (three matrix products, each a sum of two
  products), the determinant floored at a tiny constant, the three clamped parameters of the closest
  approach, the gap vector between the two closest points and its length, and from that length the hinge
  max (eps - length) 0, kept where the pair is selected and replaced by zero elsewhere.  Read at the grid
  point (I, J), each stage is the per-pair function of the quantities of segment I and segment J.
-/
import proofs.«132866_j46480136077416_1_alg».proof.Proof.RefPair

noncomputable section

open scoped BigOperators

namespace Cert.ReferenceIdeal.Pair

open Cert.ReferenceIdeal Cert.ReferenceIdeal.Read Cert.PairTerm Idealize.ShloMosaic Idealize.ShloMosaic.ValueIdx

variable {x0 : (⟨S1x4096x2, .f32⟩ : BufTy).Contents (Elt Ideal)} {x2 : (⟨S2x4096, .i32⟩ : BufTy).Contents (Elt Ideal)} {g : Segs}

/-! ## The three matrix products -/

/-- direction I . direction J -/
theorem ref_bb (h : EdgeFacts x0 x2 g) (I J : Fin 4096) :
    val_main_v95 (F := Ideal) x0 x2 (ix2 I J) = bb (g.dx I) (g.dy I) (g.dx J) (g.dy J) := by
  have l0 : val_main_v19 (F := Ideal) x0 x2 (lidx_main_v95 (ix2 I J) 0) = g.dx I := by via2 (h.d1x I)
  have l1 : val_main_v19 (F := Ideal) x0 x2 (lidx_main_v95 (ix2 I J) 1) = g.dy I := by via2 (h.d1y I)
  have r0 : val_main_v94 (F := Ideal) x0 x2 (ridx_main_v95 (ix2 I J) 0) = g.dx J := by
    rw [val_main_v94_apply]; via2 (h.d1x J)
  have r1 : val_main_v94 (F := Ideal) x0 x2 (ridx_main_v95 (ix2 I J) 1) = g.dy J := by
    rw [val_main_v94_apply]; via2 (h.d1y J)
  rw [val_main_v95_apply, Fin.sum_univ_two, l0, l1, r0, r1]
  rfl

/-- direction I . start J -/
theorem ref_dot100 (h : EdgeFacts x0 x2 g) (I J : Fin 4096) :
    val_main_v100 (F := Ideal) x0 x2 (ix2 I J) = g.dx I * g.px J + g.dy I * g.py J := by
  have l0 : val_main_v19 (F := Ideal) x0 x2 (lidx_main_v100 (ix2 I J) 0) = g.dx I := by via2 (h.d1x I)
  have l1 : val_main_v19 (F := Ideal) x0 x2 (lidx_main_v100 (ix2 I J) 1) = g.dy I := by via2 (h.d1y I)
  have r0 : val_main_v99 (F := Ideal) x0 x2 (ridx_main_v100 (ix2 I J) 0) = g.px J := by
    rw [val_main_v99_apply]; via2 (h.psx J)
  have r1 : val_main_v99 (F := Ideal) x0 x2 (ridx_main_v100 (ix2 I J) 1) = g.py J := by
    rw [val_main_v99_apply]; via2 (h.psy J)
  rw [val_main_v100_apply, Fin.sum_univ_two, l0, l1, r0, r1]

/-- start I . direction J -/
theorem ref_dot104 (h : EdgeFacts x0 x2 g) (I J : Fin 4096) :
    val_main_v104 (F := Ideal) x0 x2 (ix2 I J) = g.px I * g.dx J + g.py I * g.dy J := by
  have l0 : val_main_v11 (F := Ideal) x0 x2 (lidx_main_v104 (ix2 I J) 0) = g.px I := by via2 (h.psx I)
  have l1 : val_main_v11 (F := Ideal) x0 x2 (lidx_main_v104 (ix2 I J) 1) = g.py I := by via2 (h.psy I)
  have r0 : val_main_v103 (F := Ideal) x0 x2 (ridx_main_v104 (ix2 I J) 0) = g.dx J := by
    rw [val_main_v103_apply]; via2 (h.d1x J)
  have r1 : val_main_v103 (F := Ideal) x0 x2 (ridx_main_v104 (ix2 I J) 1) = g.dy J := by
    rw [val_main_v103_apply]; via2 (h.d1y J)
  rw [val_main_v104_apply, Fin.sum_univ_two, l0, l1, r0, r1]

/-! ## direction . start, and the floored squared lengths, over the grid -/

theorem dpsRow (h : EdgeFacts x0 x2 g) (I J : Fin 4096) :
    val_main_v101 (F := Ideal) x0 x2 (ix2 I J) = dp (g.px I) (g.py I) (g.dx I) (g.dy I) := by
  rw [val_main_v101_apply, val_main_v98_apply]; via1 (h.dps I)
theorem dpsCol (h : EdgeFacts x0 x2 g) (I J : Fin 4096) :
    val_main_v106 (F := Ideal) x0 x2 (ix2 I J) = dp (g.px J) (g.py J) (g.dx J) (g.dy J) := by
  rw [val_main_v106_apply, val_main_v105_apply]; via1 (h.dps J)
theorem aRow110 (h : EdgeFacts x0 x2 g) (I J : Fin 4096) :
    val_main_v110 (F := Ideal) x0 x2 (ix2 I J) = aa (g.dx I) (g.dy I) := by
  rw [val_main_v110_apply, val_main_v108_apply]; via1 (h.a I)
theorem aCol111 (h : EdgeFacts x0 x2 g) (I J : Fin 4096) :
    val_main_v111 (F := Ideal) x0 x2 (ix2 I J) = aa (g.dx J) (g.dy J) := by
  rw [val_main_v111_apply, val_main_v109_apply]; via1 (h.a J)
theorem aCol119 (h : EdgeFacts x0 x2 g) (I J : Fin 4096) :
    val_main_v119 (F := Ideal) x0 x2 (ix2 I J) = aa (g.dx J) (g.dy J) := by
  rw [val_main_v119_apply, val_main_v118_apply]; via1 (h.a J)
theorem aCol127 (h : EdgeFacts x0 x2 g) (I J : Fin 4096) :
    val_main_v127 (F := Ideal) x0 x2 (ix2 I J) = aa (g.dx J) (g.dy J) := by
  rw [val_main_v127_apply, val_main_v126_apply]; via1 (h.a J)
theorem aRow133 (h : EdgeFacts x0 x2 g) (I J : Fin 4096) :
    val_main_v133 (F := Ideal) x0 x2 (ix2 I J) = aa (g.dx I) (g.dy I) := by
  rw [val_main_v133_apply, val_main_v132_apply]; via1 (h.a I)

theorem ref_cc (h : EdgeFacts x0 x2 g) (I J : Fin 4096) :
    val_main_v102 (F := Ideal) x0 x2 (ix2 I J) = cc (g.px I) (g.py I) (g.dx I) (g.dy I) (g.px J) (g.py J) := by
  rw [val_main_v102_apply, dpsRow h I J, ref_dot100 h I J]
  rfl

theorem ref_ff (h : EdgeFacts x0 x2 g) (I J : Fin 4096) :
    val_main_v107 (F := Ideal) x0 x2 (ix2 I J) = ff (g.px I) (g.py I) (g.px J) (g.py J) (g.dx J) (g.dy J) := by
  rw [val_main_v107_apply, ref_dot104 h I J, dpsCol h I J]
  rfl

/-! ## The literals over the grid -/

theorem tinyAt (I J : Fin 4096) : val_main_v115 (F := Ideal) (ix2 I J) = wTiny := by
  rw [val_main_v115_apply, val_main_cst_9_apply]; rfl
theorem zero0At (I J : Fin 4096) : val_main_call0_v1 (F := Ideal) (ix2 I J) = wZero := by
  rw [val_main_call0_v1_apply, val_main_call0_v0_apply, val_main_cst_10_apply]; rfl
theorem one0At (I J : Fin 4096) : val_main_call0_v4 (F := Ideal) (ix2 I J) = wOne := by
  rw [val_main_call0_v4_apply, val_main_call0_v3_apply, val_main_cst_11_apply]; rfl
theorem zero1At (I J : Fin 4096) : val_main_call1_v1 (F := Ideal) (ix2 I J) = wZero := by
  rw [val_main_call1_v1_apply, val_main_call1_v0_apply, val_main_cst_12_apply]; rfl
theorem one1At (I J : Fin 4096) : val_main_call1_v4 (F := Ideal) (ix2 I J) = wOne := by
  rw [val_main_call1_v4_apply, val_main_call1_v3_apply, val_main_cst_13_apply]; rfl
theorem zero2At (I J : Fin 4096) : val_main_call2_v1 (F := Ideal) (ix2 I J) = wZero := by
  rw [val_main_call2_v1_apply, val_main_call2_v0_apply, val_main_cst_14_apply]; rfl
theorem one2At (I J : Fin 4096) : val_main_call2_v4 (F := Ideal) (ix2 I J) = wOne := by
  rw [val_main_call2_v4_apply, val_main_call2_v3_apply, val_main_cst_15_apply]; rfl
theorem epsAt (I J : Fin 4096) : val_main_v182 (F := Ideal) (ix2 I J) = wEps := by
  rw [val_main_v182_apply, val_main_cst_16_apply]; rfl
theorem zero3At (I J : Fin 4096) : val_main_call3_v0 (F := Ideal) (ix2 I J) = wZero := by
  rw [val_main_call3_v0_apply, val_main_call3_cst_apply]; rfl
theorem zero4At (I J : Fin 4096) : val_main_call4_v1 (F := Ideal) (ix2 I J) = wZero := by
  rw [val_main_call4_v1_apply, val_main_call4_v0_apply, val_main_cst_17_apply]; rfl

/-! ## The determinant and the three clamped parameters -/

theorem ref_den (h : EdgeFacts x0 x2 g) (I J : Fin 4096) :
    val_main_v116 (F := Ideal) x0 x2 (ix2 I J) = den (g.dx I) (g.dy I) (g.dx J) (g.dy J) := by
  rw [val_main_v116_apply, val_main_v114_apply, val_main_v112_apply, val_main_v113_apply, aRow110 h I J,
    aCol111 h I J, ref_bb h I J, tinyAt I J]
  rfl

theorem ref_s1 (h : EdgeFacts x0 x2 g) (I J : Fin 4096) :
    val_main_v123 (F := Ideal) x0 x2 (ix2 I J)
      = s1 (g.px I) (g.py I) (g.dx I) (g.dy I) (g.px J) (g.py J) (g.dx J) (g.dy J) := by
  rw [val_main_v123_apply, val_main_call0_v2_apply, val_main_v122_apply, val_main_v121_apply,
    val_main_v117_apply, val_main_v120_apply, one0At I J, zero0At I J, ref_bb h I J, ref_ff h I J,
    ref_cc h I J, aCol119 h I J, ref_den h I J]
  rfl

theorem ref_t1 (h : EdgeFacts x0 x2 g) (I J : Fin 4096) :
    val_main_v129 (F := Ideal) x0 x2 (ix2 I J)
      = t1 (g.px I) (g.py I) (g.dx I) (g.dy I) (g.px J) (g.py J) (g.dx J) (g.dy J) := by
  rw [val_main_v129_apply, val_main_call1_v2_apply, val_main_v128_apply, val_main_v125_apply,
    val_main_v124_apply, one1At I J, zero1At I J, ref_bb h I J, ref_s1 h I J, ref_ff h I J, aCol127 h I J]
  rfl

theorem ref_s2 (h : EdgeFacts x0 x2 g) (I J : Fin 4096) :
    val_main_v135 (F := Ideal) x0 x2 (ix2 I J)
      = s2 (g.px I) (g.py I) (g.dx I) (g.dy I) (g.px J) (g.py J) (g.dx J) (g.dy J) := by
  rw [val_main_v135_apply, val_main_call2_v2_apply, val_main_v134_apply, val_main_v131_apply,
    val_main_v130_apply, one2At I J, zero2At I J, ref_bb h I J, ref_t1 h I J, ref_cc h I J, aRow133 h I J]
  rfl

/-! ## The start points and directions over the grid, one coordinate at a time -/

theorem pxRow (h : EdgeFacts x0 x2 g) (I J : Fin 4096) : val_main_v142 (F := Ideal) x0 x2 (ix2 I J) = g.px I := by
  rw [val_main_v142_apply, val_main_v138_apply, val_main_v137_apply, val_main_v136_apply]; via2 (h.psx I)
theorem pxCol (h : EdgeFacts x0 x2 g) (I J : Fin 4096) : val_main_v143 (F := Ideal) x0 x2 (ix2 I J) = g.px J := by
  rw [val_main_v143_apply, val_main_v141_apply, val_main_v140_apply, val_main_v139_apply]; via2 (h.psx J)
theorem dxRow (h : EdgeFacts x0 x2 g) (I J : Fin 4096) : val_main_v148 (F := Ideal) x0 x2 (ix2 I J) = g.dx I := by
  rw [val_main_v148_apply, val_main_v147_apply, val_main_v146_apply, val_main_v145_apply]; via2 (h.d1x I)
theorem dxCol (h : EdgeFacts x0 x2 g) (I J : Fin 4096) : val_main_v154 (F := Ideal) x0 x2 (ix2 I J) = g.dx J := by
  rw [val_main_v154_apply, val_main_v153_apply, val_main_v152_apply, val_main_v151_apply]; via2 (h.d1x J)
theorem pyRow (h : EdgeFacts x0 x2 g) (I J : Fin 4096) : val_main_v163 (F := Ideal) x0 x2 (ix2 I J) = g.py I := by
  rw [val_main_v163_apply, val_main_v159_apply, val_main_v158_apply, val_main_v157_apply]; via2 (h.psy I)
theorem pyCol (h : EdgeFacts x0 x2 g) (I J : Fin 4096) : val_main_v164 (F := Ideal) x0 x2 (ix2 I J) = g.py J := by
  rw [val_main_v164_apply, val_main_v162_apply, val_main_v161_apply, val_main_v160_apply]; via2 (h.psy J)
theorem dyRow (h : EdgeFacts x0 x2 g) (I J : Fin 4096) : val_main_v169 (F := Ideal) x0 x2 (ix2 I J) = g.dy I := by
  rw [val_main_v169_apply, val_main_v168_apply, val_main_v167_apply, val_main_v166_apply]; via2 (h.d1y I)
theorem dyCol (h : EdgeFacts x0 x2 g) (I J : Fin 4096) : val_main_v175 (F := Ideal) x0 x2 (ix2 I J) = g.dy J := by
  rw [val_main_v175_apply, val_main_v174_apply, val_main_v173_apply, val_main_v172_apply]; via2 (h.d1y J)

/-! ## The gap between the closest points, its length, and the term -/

theorem ref_gapx (h : EdgeFacts x0 x2 g) (I J : Fin 4096) :
    val_main_v156 (F := Ideal) x0 x2 (ix2 I J)
      = gapx (g.px I) (g.py I) (g.dx I) (g.dy I) (g.px J) (g.py J) (g.dx J) (g.dy J) := by
  rw [val_main_v156_apply, val_main_v150_apply, val_main_v144_apply, val_main_v149_apply, val_main_v155_apply,
    pxRow h I J, pxCol h I J, ref_s2 h I J, dxRow h I J, ref_t1 h I J, dxCol h I J]
  rfl

theorem ref_gapy (h : EdgeFacts x0 x2 g) (I J : Fin 4096) :
    val_main_v177 (F := Ideal) x0 x2 (ix2 I J)
      = gapy (g.px I) (g.py I) (g.dx I) (g.dy I) (g.px J) (g.py J) (g.dx J) (g.dy J) := by
  rw [val_main_v177_apply, val_main_v171_apply, val_main_v165_apply, val_main_v170_apply, val_main_v176_apply,
    pyRow h I J, pyCol h I J, ref_s2 h I J, dyRow h I J, ref_t1 h I J, dyCol h I J]
  rfl

theorem ref_dist (h : EdgeFacts x0 x2 g) (I J : Fin 4096) :
    val_main_v181 (F := Ideal) x0 x2 (ix2 I J)
      = dist (g.px I) (g.py I) (g.dx I) (g.dy I) (g.px J) (g.py J) (g.dx J) (g.dy J) := by
  rw [val_main_v181_apply, val_main_v180_apply, val_main_v178_apply, val_main_v179_apply, ref_gapx h I J,
    ref_gapy h I J]
  rfl

variable (x0 x2 g)

/-- The reference's per-pair stage at the pair (I, J) is the loss term of the pair. -/
theorem ref_term (h : EdgeFacts x0 x2 g) (I J : Fin 4096) :
    val_main_v185 (F := Ideal) x0 x2 (ix2 I J) = pairTerm g I J := by
  rw [val_main_v185_apply, val_main_v184_apply, val_main_v183_apply, ref_mask x0 x2 g h I J, epsAt I J,
    ref_dist h I J, zero3At I J, zero4At I J]
  rfl

end Cert.ReferenceIdeal.Pair

end
-- ==== Proof.LibBitCount.lean ====
/-
  Counting ones with 32-bit words.

  Take finitely many one-bit words, fewer than 2^31 of them, and let n be the number of them that are 1.  Widening
  each to 32 bits (by zeros) and adding them up in 32-bit arithmetic, in any order, gives the word of n: the sum cannot
  wrap, so read as a signed integer it is n.  The signed maximum of that word and the word 1 is the word of max n 1.
  Read as extended reals: each widened bit is 0 or 1, their sum is n, and the real of the maximum word is
  max n 1.  Hence

    real (smax (32-bit sum of the widened bits) 1) = max (sum of the reals of the widened bits) 1.
-/
import Idealize.ShloMosaic.PureOps.Ideal
import Idealize.ShloMosaic.PureOps.Reduce
import Idealize.ShloMosaic.Lib.IdealHost

noncomputable section

open scoped BigOperators

namespace Cert.BitCount

open Idealize.ShloMosaic

variable {ι : Type} [DecidableEq ι]

/-- how many of the words at the positions `S` are 1 -/
def ones (S : Finset ι) (b : ι → BitVec 1) : ℕ := (S.filter fun i => b i = 1#1).card

theorem ones_le_card (S : Finset ι) (b : ι → BitVec 1) : ones S b ≤ S.card := Finset.card_filter_le _ _

/-- A one-bit word is 0 or 1. -/
theorem bit_cases (v : BitVec 1) : v = 0#1 ∨ v = 1#1 := by
  have h := v.isLt
  have h01 : v.toNat = 0 ∨ v.toNat = 1 := by omega
  rcases h01 with h0 | h1
  · exact Or.inl (BitVec.eq_of_toNat_eq (by simpa using h0))
  · exact Or.inr (BitVec.eq_of_toNat_eq (by simpa using h1))

theorem ones_insert_zero {a : ι} {S : Finset ι} (b : ι → BitVec 1) (h : b a = 0#1) :
    ones (insert a S) b = ones S b := by
  unfold ones
  rw [Finset.filter_insert, if_neg (by rw [h]; decide)]

theorem ones_insert_one {a : ι} {S : Finset ι} (b : ι → BitVec 1) (ha : a ∉ S) (h : b a = 1#1) :
    ones (insert a S) b = ones S b + 1 := by
  unfold ones
  rw [Finset.filter_insert, if_pos h, Finset.card_insert_of_notMem (fun hm => ha (Finset.mem_filter.1 hm).1)]

/-- The 32-bit sum of the widened bits, from any start and in any order, is the start plus the word of the count. -/
theorem fold_addi_setWidth (S : Finset ι) (b : ι → BitVec 1) (init : BitVec 32) :
    S.fold IntOp.addi init (fun i => (b i).setWidth 32) = init + BitVec.ofNat 32 (ones S b) := by
  induction S using Finset.induction_on with
  | empty => simp [ones]
  | insert a S ha ih =>
    rw [Finset.fold_insert ha, ih]
    rcases bit_cases (b a) with h | h
    · rw [ones_insert_zero b h, h]
      show (0#1).setWidth 32 + _ = _
      rw [show (0#1).setWidth 32 = 0#32 by decide, BitVec.zero_add]
    · rw [ones_insert_one b ha h, h]
      show (1#1).setWidth 32 + _ = _
      rw [show (1#1).setWidth 32 = 1#32 by decide, BitVec.ofNat_add, BitVec.add_comm (1#32), BitVec.add_assoc]

/-- A count below 2^31 is the signed value of its word. -/
theorem toInt_ofNat_of_lt {n : ℕ} (hn : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The signed maximum with the word 1 has signed value the maximum with 1. -/
theorem toInt_maxsi_one {n : ℕ} (hn : n < 2 ^ 31) :
    (IntOp.maxsi (BitVec.ofNat 32 n) 1#32).toInt = ((max n 1 : ℕ) : ℤ) := by
  have h1 : (1#32).toInt = 1 := by decide
  unfold IntOp.maxsi
  simp only [BitVec.slt, h1, toInt_ofNat_of_lt hn, decide_eq_true_eq]
  split_ifs with h
  · rw [toInt_ofNat_of_lt hn]; omega
  · rw [h1]; omega

/-- The extended real of a widened bit. -/
theorem sitofp_bit (v : BitVec 1) :
    FloatOps.sitofp (F := Ideal) .f32 (v.setWidth 32) = if v = 1#1 then (1 : EReal) else 0 := by
  show (((v.setWidth 32).toInt : ℝ) : EReal) = _
  rcases bit_cases v with h | h
  · rw [h, if_neg (by decide), show ((0#1).setWidth 32).toInt = 0 by decide]; norm_num
  · rw [h, if_pos rfl, show ((1#1).setWidth 32).toInt = 1 by decide]; norm_num

/-- The extended reals of the widened bits add up to the count. -/
theorem sum_sitofp_bits (S : Finset ι) (b : ι → BitVec 1) :
    ∑ i ∈ S, FloatOps.sitofp (F := Ideal) .f32 ((b i).setWidth 32) = (((ones S b : ℕ) : ℝ) : EReal) := by
  induction S using Finset.induction_on with
  | empty => simp [ones]
  | insert a S ha ih =>
    rw [Finset.sum_insert ha, ih, sitofp_bit]
    rcases bit_cases (b a) with h | h
    · rw [ones_insert_zero b h, h, if_neg (by decide), zero_add]
    · rw [ones_insert_one b ha h, h, if_pos rfl, Nat.cast_add, Nat.cast_one, EReal.coe_add, EReal.coe_one, add_comm]

/-- THE COUNT: fewer than 2^31 one-bit words; the real of the signed maximum of their 32-bit sum and 1 is the maximum
    of the sum of their reals and the real one (given by its word). -/
theorem sitofp_maxsi_fold (S : Finset ι) (b : ι → BitVec 1) (hS : S.card < 2 ^ 31) :
    FloatOps.sitofp (F := Ideal) .f32 (IntOp.maxsi (S.fold IntOp.addi 0#32 (fun i => (b i).setWidth 32)) 1#32)
      = max (∑ i ∈ S, FloatOps.sitofp (F := Ideal) .f32 ((b i).setWidth 32)) (Ideal.ofBits .f32 0x3F800000#32) := by
  have hn : ones S b < 2 ^ 31 := lt_of_le_of_lt (ones_le_card S b) hS
  rw [fold_addi_setWidth, BitVec.zero_add, sum_sitofp_bits, Ideal.ofBits_one_f32]
  show (((IntOp.maxsi (BitVec.ofNat 32 (ones S b)) 1#32).toInt : ℝ) : EReal) = _
  rw [toInt_maxsi_one hn, ← EReal.coe_one, ← EReal.coe_strictMono.monotone.map_max]
  norm_cast

end Cert.BitCount

end
-- ==== Proof.RefTotal.lean ====
/-
  The last stages of the reference: from the selection bits and the per-pair terms to the loss.

  The reference adds the per-pair terms over all 4096 x 4096 ordered pairs, starting from the zero word: that is the
  double sum of the terms.  It widens every selection bit to a 32-bit word, adds those in 32-bit arithmetic from the
  word 0, takes the signed maximum with the word 1 and converts the result to a real.  There are 2^24 pairs, fewer
  than 2^31, so the 32-bit sum does not wrap and the converted maximum is the maximum of the double sum of the
  (real) widened bits and the real one.  The quotient of the two is the loss.
-/
import proofs.«132866_j46480136077416_1_alg».proof.Proof.RefReadP
import proofs.«132866_j46480136077416_1_alg».proof.Proof.PairTerm
import proofs.«132866_j46480136077416_1_alg».proof.Proof.LibBitCount
import Idealize.ShloMosaic.Lib.ReduceAll
import Idealize.ShloMosaic.Lib.IdealHost

noncomputable section

open scoped BigOperators

namespace Cert.ReferenceIdeal.Total

open Cert.ReferenceIdeal Cert.ReferenceIdeal.Read Cert.PairTerm Idealize.ShloMosaic Idealize.ShloMosaic.ValueIdx

/-- A reduction by 32-bit addition into a shape with no axes runs over every index of the operand: it is the fold of
    the addition, from the initial word, over all of them (in any order). -/
theorem reduce_addi_all {s u : Shape} {axes : List (Fin s.rank)} (y : s.Idx → BitVec 32) (init : u.Idx → BitVec 32)
    (h : s.ReducesTo axes S_) (hu : 0 < u.numel) (j : S_.Idx) :
    Host.reduce IntOp.addi y init h hu j = (Finset.univ : Finset s.Idx).fold IntOp.addi (init (Shape.Idx.first hu)) y := by
  rw [Host.reduce_eq_fold, Finset.filter_true_of_mem fun i _ => funext fun b => b.elim0]

/-- There are 2^24 ordered pairs, fewer than 2^31. -/
theorem card_pairs_lt : (Finset.univ : Finset S4096x4096.Idx).card < 2 ^ 31 := by
  rw [Finset.card_univ, Shape.card_idx]
  show ∏ a : Fin 2, (![4096, 4096] : Fin 2 → ℕ) a < 2 ^ 31
  rw [Fin.prod_univ_two]
  norm_num

variable (x0 : (⟨S1x4096x2, .f32⟩ : BufTy).Contents (Elt Ideal)) (x2 : (⟨S2x4096, .i32⟩ : BufTy).Contents (Elt Ideal))

/-- The integer sum of the widened selection bits is their fold by 32-bit addition from the word 0. -/
theorem v187_eq :
    val_main_v187 (F := Ideal) x0 x2 ix0
      = (Finset.univ : Finset S4096x4096.Idx).fold IntOp.addi 0#32 (fun i => (val_main_v89 (F := Ideal) x0 x2 i).setWidth 32) := by
  unfold val_main_v187
  exact reduce_addi_all (val_main_v186 (F := Ideal) x0 x2) (val_main_c_18 (F := Ideal)) _ _ ix0

/-- The converted count is the maximum of the sum of the real widened bits over all index pairs and the real one. -/
theorem v190_eq :
    val_main_v190 (F := Ideal) x0 x2 ix0
      = max (∑ I : Fin 4096, ∑ J : Fin 4096,
              FloatOps.sitofp (F := Ideal) .f32 ((val_main_v89 (F := Ideal) x0 x2 (ix2 I J)).setWidth 32)) wOne := by
  rw [val_main_v190_apply, val_main_v188_apply, v187_eq]
  generalize val_main_v89 (F := Ideal) x0 x2 = m
  refine (Cert.BitCount.sitofp_maxsi_fold Finset.univ m card_pairs_lt).trans ?_
  rw [sum_idx2 (fun i => FloatOps.sitofp (F := Ideal) .f32 ((m i).setWidth 32))]
  rfl

/-- The float sum of the terms, from the zero word, is their double sum. -/
theorem v189_eq :
    val_main_v189 (F := Ideal) x0 x2 ix0 = ∑ I : Fin 4096, ∑ J : Fin 4096, val_main_v185 (F := Ideal) x0 x2 (ix2 I J) := by
  rw [val_main_v189_apply]
  generalize val_main_v185 (F := Ideal) x0 x2 = y
  rw [sum_idx2 y]
  show Ideal.ofBits .f32 0x00000000#32 + _ = _
  rw [Ideal.ofBits_zero_f32, zero_add]

/-- THE RESULT OF THE REFERENCE is the loss of the segments, given that its selection bits and its per-pair terms are
    those of the segments. -/
theorem ref_total (g : Segs)
    (hmask : ∀ I J : Fin 4096, val_main_v89 (F := Ideal) x0 x2 (ix2 I J) = pairMask g I J)
    (hterm : ∀ I J : Fin 4096, val_main_v185 (F := Ideal) x0 x2 (ix2 I J) = pairTerm g I J) :
    val_main_v191 (F := Ideal) x0 x2 ix0 = loss g := by
  rw [val_main_v191_apply, v189_eq, v190_eq]
  have hs : (∑ I : Fin 4096, ∑ J : Fin 4096, val_main_v185 (F := Ideal) x0 x2 (ix2 I J)) = lossSum g :=
    Finset.sum_congr rfl fun I _ => Finset.sum_congr rfl fun J _ => hterm I J
  have hc : (∑ I : Fin 4096, ∑ J : Fin 4096,
      FloatOps.sitofp (F := Ideal) .f32 ((val_main_v89 (F := Ideal) x0 x2 (ix2 I J)).setWidth 32)) = lossCnt g :=
    Finset.sum_congr rfl fun I _ => Finset.sum_congr rfl fun J _ => by rw [hmask I J]; rfl
  rw [hs, hc]
  rfl

end Cert.ReferenceIdeal.Total

end
-- ==== Proof.RefValue.lean ====
/-
  The reference program's result is the loss of the drawing its arguments make, when every position is a real number:
  the per-segment stages are the segments' quantities, the 4096 x 4096 stages the per-pair functions of them, the last
  stages the quotient of the two double sums.
-/
import proofs.«132866_j46480136077416_1_alg».proof.Proof.RefEdge
import proofs.«132866_j46480136077416_1_alg».proof.Proof.RefPairB
import proofs.«132866_j46480136077416_1_alg».proof.Proof.RefTotal

noncomputable section

open Idealize.ShloMosaic Idealize.ShloMosaic.ValueIdx

namespace Cert.ReferenceIdeal.RefValue

open Cert.ReferenceIdeal Cert.ReferenceIdeal.Read Cert.PairTerm Cert.ReferenceIdeal.Edge Cert.ReferenceIdeal.Pair
  Cert.ReferenceIdeal.Total

variable (x0 : (⟨S1x4096x2, .f32⟩ : BufTy).Contents (Elt Ideal)) (x2 : (⟨S2x4096, .i32⟩ : BufTy).Contents (Elt Ideal))

/-- the per-segment stages of the reference are the segments of the drawing -/
theorem edgeFacts (hfin : ∀ i, ∃ r : ℝ, x0 i = (r : EReal)) : EdgeFacts x0 x2 (segsOf x0 x2) where
  src := edge_src x0 x2
  dst := edge_dst x0 x2
  psx := edge_psx x0 x2
  psy := edge_psy x0 x2
  d1x := edge_d1x x0 x2
  d1y := edge_d1y x0 x2
  midx := edge_midx x0 x2 hfin
  midy := edge_midy x0 x2 hfin
  half := edge_half x0 x2
  a := edge_a x0 x2
  dps := edge_dps x0 x2

/-- THE REFERENCE'S RESULT is the loss of the drawing. -/
theorem ref_loss (hfin : ∀ i, ∃ r : ℝ, x0 i = (r : EReal)) :
    val_main_v191 (F := Ideal) x0 x2 ix0 = loss (segsOf x0 x2) :=
  ref_total x0 x2 (segsOf x0 x2) (ref_mask x0 x2 (segsOf x0 x2) (edgeFacts x0 x2 hfin))
    (ref_term x0 x2 (segsOf x0 x2) (edgeFacts x0 x2 hfin))

end Cert.ReferenceIdeal.RefValue

end
-- ==== Proof.Finite.lean ====
/-
  Finite inputs are real numbers.

  The precondition on the inputs is the conjunction, over every entry x of the two float arrays, of the
  comparison |x| < +infinity, taken at the extended reals. This file reads that conjunction back: if it
  holds, then every entry of the first array (the positions) is neither of the two infinities, hence is
  the image of a real number.
-/
import proofs.«132866_j46480136077416_1_alg».proof.Pre_finite_inputs
import proofs.«132866_j46480136077416_1_alg».proof.Proof.Gen.Pre_finite_inputs
import Idealize.ShloMosaic.PureOps.Ideal
import Idealize.ShloMosaic.Lib.ReduceAll
import Idealize.ShloMosaic.Lib.ValueIdx
import Idealize.ShloMosaic.Lib.IdealHost

namespace Cert.Finite

open Idealize.ShloMosaic Cert.Pre_finite_inputs

/-- The shape of a scalar has exactly one index. -/
instance : Subsingleton S_.Idx := ⟨fun a b => funext fun d => d.elim0⟩

/-- The word of +infinity is the top of the extended reals. -/
theorem inf_word : Ideal.ofBits .f32 0x7F800000#32 = (⊤ : EReal) := by
  simp [Ideal.ofBits, Ideal.ieee]

/-- An extended real whose absolute value lies strictly below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "strictly less" at the extended reals, read back. -/
theorem lt_of_cmp_olt (x y : EReal) (h : Ideal.cmp .olt x y = 1#1) : x < y := by
  unfold Ideal.cmp at h
  by_contra hn
  simp [hn] at h

/-- Under the finiteness precondition every position entry is a real number. -/
theorem pos_real [Cert.Pre_finite_inputs.Facts]
    (a0 : FVec Ideal S1x4096x2 .f32) (a1 : FVec Ideal S1x4096x4096 .f32) (a2 : IVec S2x4096 32)
    (h : Cert.Pre_finite_inputs.fn (F := Ideal) a0 a1 a2 = (fun _ => 1#1)) :
    ∀ i : S1x4096x2.Idx, ∃ r : ℝ, a0 i = (r : EReal) := by
  intro i
  have h0 := congrFun h ValueIdx.ix0
  dsimp only [Cert.Pre_finite_inputs.fn] at h0
  have h1 := (IntOp.andi_eq_one.1 h0).1
  have h2 := Host.reduce_andi_all _ _ _ _ _ h1 i
  have h3 : Ideal.cmp .olt (max (a0 i : EReal) (-(a0 i : EReal))) (Ideal.ofBits .f32 0x7F800000#32) = 1#1 := h2
  rw [inf_word] at h3
  exact real_of_abs_lt_top _ (lt_of_cmp_olt _ _ h3)

end Cert.Finite
-- ==== Proof.lean ====
/-
  The certificate of the pairwise segment-distance loss kernel against its jnp reference.

  Both programs draw 4096 segments from the node positions and the edge list (a node word is wrapped and clamped the
  same way on both sides) and compute the same loss: over all ordered pairs of segments, the selected pairs' clamped
  closest-approach terms summed, divided by the number of selected pairs (at least one).  The kernel does it tile by
  tile over an 8 x 8 grid with two accumulators carried across the grid; the reference in one piece, with the count as
  an integer sum.  Over the extended reals the two agree: sums may be regrouped freely, the integer count cannot wrap
  (at most 2^24 pairs), and the one rearrangement that needs real numbers — a midpoint written p + (q - p)/2 on one side
  and (p + q)/2 on the other — is where the precondition (finite positions) is used.
  The frames of the two kernel programs are the generated ones; the reference's frame is its run with the result dropped;
  the idealization rewrote nothing, so preserves is trivial.
-/
import proofs.«132866_j46480136077416_1_alg».proof.Defs
import proofs.«132866_j46480136077416_1_alg».proof.Proof.Gen.Kernel
import proofs.«132866_j46480136077416_1_alg».proof.Proof.Gen.Kernel.Skeleton
import proofs.«132866_j46480136077416_1_alg».proof.Proof.Gen.Kernel.Launch
import proofs.«132866_j46480136077416_1_alg».proof.Proof.Gen.Kernel.Points
import proofs.«132866_j46480136077416_1_alg».proof.Proof.Gen.Kernel.Frame
import proofs.«132866_j46480136077416_1_alg».proof.Proof.Gen.KernelIdeal
import proofs.«132866_j46480136077416_1_alg».proof.Proof.Gen.KernelIdeal.Skeleton
import proofs.«132866_j46480136077416_1_alg».proof.Proof.Gen.KernelIdeal.Launch
import proofs.«132866_j46480136077416_1_alg».proof.Proof.Gen.KernelIdeal.Points
import proofs.«132866_j46480136077416_1_alg».proof.Proof.Gen.KernelIdeal.Frame
import proofs.«132866_j46480136077416_1_alg».proof.Proof.Gen.ReferenceIdeal
import proofs.«132866_j46480136077416_1_alg».proof.Proof.Gen.Pre_finite_inputs
import proofs.«132866_j46480136077416_1_alg».proof.Proof.KRun
import proofs.«132866_j46480136077416_1_alg».proof.Proof.RefValue
import proofs.«132866_j46480136077416_1_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance the kernel program ends with its result at the loss of the drawing its arguments make (its
    accumulators summed over the grid), the reference with its result at the loss of the drawing ITS arguments make;
    the arguments agree, and the positions are real numbers by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hfin : ∀ i, ∃ r : ℝ, m' ((c.tc : Thread Cert.ReferenceIdeal.nD Cert.ReferenceIdeal.τ).loc Cert.ReferenceIdeal.main_arg0) i = (r : EReal) := by
    rw [(hagree c).1]
    exact @Cert.Finite.pos_real Cert.Pre_finite_inputs.Gen.facts _ _ _ (hpre c)
  rw [Cert.ReferenceIdeal.Read.val_main_v191_eq]
  funext y
  rw [eq_ix0 y, Cert.ReferenceIdeal.RefValue.ref_loss _ _ hfin, (hagree c).1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
